-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S128x16 : Shape := ⟨2, ![128, 16]⟩
abbrev S16 : Shape := ⟨1, ![16]⟩
abbrev S10000x32 : Shape := ⟨2, ![10000, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S10000x32 : S_.BroadcastsInDim S10000x32 (![] : Fin 0 → Fin S10000x32.rank)
  reducesTo_S10000x32_S_d0_1 : S10000x32.ReducesTo [0, 1] S_

variable [Facts]

def fn_part3 {F : FTy → Type} [FloatOps F] (main_arg11 : FVec F S16 .f32) (main_arg12 : FVec F S10000x32 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S10000x32 .f32 := Host.absf main_arg12
  let main_cst_22 : FVec F S_ .f32 := constant S_ .f32 0x7F800000#32
  let main_v60 : FVec F S10000x32 .f32 := broadcastInDim S10000x32 ![] bcast_S_S10000x32 main_cst_22
  let main_v61 : IVec S10000x32 1 := cmpf .olt main_v59 main_v60
  let main_c_23 : IVec S_ 1 := constantI S_ 1 1#1
  let main_v62 : IVec S_ 1 := (fun x v => Host.reduce IntOp.andi x v reducesTo_S10000x32_S_d0_1 h_S_) main_v61 main_c_23
  let main_v63 : IVec S_ 1 := andi main_v58 main_v62
  main_v63

def fn_part2 {F : FTy → Type} [FloatOps F] (main_arg7 : FVec F S32 .f32) (main_arg8 : FVec F S32x64 .f32) (main_arg9 : FVec F S64 .f32) (main_arg10 : FVec F S128x16 .f32) (main_arg11 : FVec F S16 .f32) (main_arg12 : FVec F S10000x32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg8
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x16 .f32 := Host.absf main_arg10
  let main_cst_18 : FVec F S_ .f32 := constant S_ .f32 0x7F800000#32
  let main_v50 : FVec F S128x16 .f32 := broadcastInDim S128x16 ![] bcast_S_S128x16 main_cst_18
  fn_part3 (F := F) main_arg11 main_arg12 main_v48 main_v49 main_v50

def fn_part1 {F : FTy → Type} [FloatOps F] (main_arg4 : FVec F S64x32 .f32) (main_arg5 : FVec F S32 .f32) (main_arg6 : FVec F S64x32 .f32) (main_arg7 : FVec F S32 .f32) (main_arg8 : FVec F S32x64 .f32) (main_arg9 : FVec F S64 .f32) (main_arg10 : FVec F S128x16 .f32) (main_arg11 : FVec F S16 .f32) (main_arg12 : FVec F S10000x32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S64x32 .f32) (main_arg7 : FVec F S32 .f32) (main_arg8 : FVec F S32x64 .f32) (main_arg9 : FVec F S64 .f32) (main_arg10 : FVec F S128x16 .f32) (main_arg11 : FVec F S16 .f32) (main_arg12 : FVec F S10000x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S128x16 : Shape := ⟨2, ![128, 16]⟩
abbrev S16 : Shape := ⟨1, ![16]⟩
abbrev S10000x32 : Shape := ⟨2, ![10000, 32]⟩
abbrev S1x64 : Shape := ⟨2, ![1, 64]⟩
abbrev S1x32 : Shape := ⟨2, ![1, 32]⟩
abbrev S1x16 : Shape := ⟨2, ![1, 16]⟩
abbrev S10000x16 : Shape := ⟨2, ![10000, 16]⟩
abbrev S480x10000 : Shape := ⟨2, ![480, 10000]⟩
abbrev S480x32 : Shape := ⟨2, ![480, 32]⟩
abbrev S480x16 : Shape := ⟨2, ![480, 16]⟩
abbrev S10000x64 : Shape := ⟨2, ![10000, 64]⟩
abbrev S10080x16 : Shape := ⟨2, ![10080, 16]⟩
abbrev S10000x48 : Shape := ⟨2, ![10000, 48]⟩
abbrev S480x64 : Shape := ⟨2, ![480, 64]⟩
abbrev S64x16 : Shape := ⟨2, ![64, 16]⟩
abbrev S480 : Shape := ⟨1, ![480]⟩
abbrev S480x1 : Shape := ⟨2, ![480, 1]⟩

abbrev nBuf : Space → Nat
  | .hbm => 19
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S128x16, .f32⟩
  | .hbm, ⟨11, _⟩ => ⟨S16, .f32⟩
  | .hbm, ⟨12, _⟩ => ⟨S10000x32, .f32⟩
  | .hbm, ⟨13, _⟩ => ⟨S1x64, .f32⟩
  | .hbm, ⟨14, _⟩ => ⟨S1x32, .f32⟩
  | .hbm, ⟨15, _⟩ => ⟨S1x32, .f32⟩
  | .hbm, ⟨16, _⟩ => ⟨S1x64, .f32⟩
  | .hbm, ⟨17, _⟩ => ⟨S1x16, .f32⟩
  | .hbm, ⟨18, _⟩ => ⟨S10000x16, .f32⟩
  | .local _ .vmem, ⟨0, _⟩ => ⟨S10000x128, .f32⟩
  | .local _ .vmem, ⟨1, _⟩ => ⟨S480x10000, .f32⟩
  | .local _ .vmem, ⟨2, _⟩ => ⟨S480x10000, .f32⟩
  | .local _ .vmem, ⟨3, _⟩ => ⟨S128x64, .f32⟩
  | .local _ .vmem, ⟨4, _⟩ => ⟨S1x64, .f32⟩
  | .local _ .vmem, ⟨5, _⟩ => ⟨S64x32, .f32⟩
  | .local _ .vmem, ⟨6, _⟩ => ⟨S1x32, .f32⟩
  | .local _ .vmem, ⟨7, _⟩ => ⟨S64x32, .f32⟩
  | .local _ .vmem, ⟨8, _⟩ => ⟨S1x32, .f32⟩
  | .local _ .vmem, ⟨9, _⟩ => ⟨S32x64, .f32⟩
  | .local _ .vmem, ⟨10, _⟩ => ⟨S1x64, .f32⟩
  | .local _ .vmem, ⟨11, _⟩ => ⟨S128x16, .f32⟩
  | .local _ .vmem, ⟨12, _⟩ => ⟨S1x16, .f32⟩
  | .local _ .vmem, ⟨13, _⟩ => ⟨S480x32, .f32⟩
  | .local _ .vmem, ⟨14, _⟩ => ⟨S480x32, .f32⟩
  | .local _ .vmem, ⟨15, _⟩ => ⟨S480x16, .f32⟩
  | .local _ .vmem, ⟨16, _⟩ => ⟨S480x16, .f32⟩
  | .local _ .vmem, ⟨17, _⟩ => ⟨S10000x64, .f32⟩
  | .local _ .vmem, ⟨18, _⟩ => ⟨S10080x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![2, 21], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let arg1 : BitVec 32 := BitVec.ofNat 32 (i 1).val
  let c480_i32 : BitVec 32 := 480#32
  let v54 : BitVec 32 := Scalar.muli arg1 c480_i32
  let v55 : Index := Scalar.indexCast v54
  let c0_37 : Index := 0#32
  ![v55.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S480x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S480x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S480x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S64_S1x64 : S64.ShapeCasts S1x64
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10080x16_S10000x16_0_0 : ∀ a, (![0, 0] : Fin 2 → Nat) a + S10000x16.size a ≤ S10080x16.size a
  h_S10000x16 : 0 < S10000x16.numel
  concatenates_S10000x16_S10000x48_S10000x64_d1 : Shape.Concatenates [S10000x16, S10000x48] S10000x64 1
  inb_S480x10000_S480x10000_0_0 : ∀ a, (![0, 0] : Fin 2 → Nat) a + S480x10000.size a ≤ S480x10000.size a
  h_S480x10000 : 0 < S480x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S480x64 : S1x64.Broadcasts S480x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S480x32 : S1x32.Broadcasts S480x32
  inb_S480x32_S480x32_0_0 : ∀ a, (![0, 0] : Fin 2 → Nat) a + S480x32.size a ≤ S480x32.size a
  h_S480x32 : 0 < S480x32.numel
  inb_S32x64_S32x64_0_0 : ∀ a, (![0, 0] : Fin 2 → Nat) a + S32x64.size a ≤ S32x64.size a
  h_S32x64 : 0 < S32x64.numel
  inb_S128x16_S64x16_0_0 : ∀ a, (![0, 0] : Fin 2 → Nat) a + S64x16.size a ≤ S128x16.size a
  h_S64x16 : 0 < S64x16.numel
  inb_S128x16_S64x16_64_0 : ∀ a, (![64, 0] : Fin 2 → Nat) a + S64x16.size a ≤ S128x16.size a
  h_S480x16 : 0 < S480x16.numel
  shapeCasts_S480x16_S480x16 : S480x16.ShapeCasts S480x16
  slices_S480x64_o0_0_S480x16 : S480x64.Slices ![0, 0] S480x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S480x16 : S1x16.Broadcasts S480x16
  reduces_S480x16_S480 : S480x16.Reduces [1] S480
  shapeCasts_S480_S480x1 : S480.ShapeCasts S480x1
  broadcasts_S480x1_S480x16 : S480x1.Broadcasts S480x16
  inb_S480x16_S480x16_0_0 : ∀ a, (![0, 0] : Fin 2 → Nat) a + S480x16.size a ≤ S480x16.size a
  dot_S10000x128_S128x64_S10000x64_1_0_0_1_n_n_wf : DotDims.WF S10000x128 S128x64 S10000x64 [1] [0] [0] [1] [] []
  dot_S480x10000_S10000x64_S480x64_1_0_0_1_n_n_wf : DotDims.WF S480x10000 S10000x64 S480x64 [1] [0] [0] [1] [] []
  dot_S480x64_S64x32_S480x32_1_0_0_1_n_n_wf : DotDims.WF S480x64 S64x32 S480x32 [1] [0] [0] [1] [] []
  dot_S480x32_S32x64_S480x64_1_0_0_1_n_n_wf : DotDims.WF S480x32 S32x64 S480x64 [1] [0] [0] [1] [] []
  dot_S480x64_S64x16_S480x16_1_0_0_1_n_n_wf : DotDims.WF S480x64 S64x16 S480x16 [1] [0] [0] [1] [] []
  hrank0 : 0 < grid0.rank
  k0_off1_inb : ∀ i : grid0.Coords, ∀ (k0_h3 : k0_cond3 i = 1#1), ∀ a, (k0_off1 i) a + S480x16.size a ≤ S10080x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S480x10000.size a < S10000x10000.size a
  hwx0_1 : ∀ i : grid0.Coords, EltTy.bits .f32 = 32 ∨ (Rect.unit (s := S10000x10000) (fun a => cc0_transform_1 i a * S480x10000.size a) (fun a => (Pipeline.Clip.of (cc0_transform_1 i a) (S480x10000.size a) (S10000x10000.size a)).extent (S480x10000.size a)) fun a => Pipeline.Clip.inb (Pipeline.Clip.ok_of (hstart0_1 i a))).WholeWords (EltTy.packing .f32)
  hwxs0_1 : ∀ i : grid0.Coords, EltTy.bits .f32 = 32 ∨ (Rect.unit (s := S480x10000) (fun _ => 0) (fun a => (Pipeline.Clip.of (cc0_transform_1 i a) (S480x10000.size a) (S10000x10000.size a)).extent (S480x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x64.size a ≤ S32x64.size a
  hwx0_8 : ∀ i : grid0.Coords, EltTy.bits .f32 = 32 ∨ (Rect.block (s := S32x64) S32x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x16.size a ≤ S128x16.size a
  hwx0_10 : ∀ i : grid0.Coords, EltTy.bits .f32 = 32 ∨ (Rect.block (s := S128x16) S128x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S480x32.size a < S10000x32.size a
  hwx0_12 : ∀ i : grid0.Coords, EltTy.bits .f32 = 32 ∨ (Rect.unit (s := S10000x32) (fun a => cc0_transform_12 i a * S480x32.size a) (fun a => (Pipeline.Clip.of (cc0_transform_12 i a) (S480x32.size a) (S10000x32.size a)).extent (S480x32.size a)) fun a => Pipeline.Clip.inb (Pipeline.Clip.ok_of (hstart0_12 i a))).WholeWords (EltTy.packing .f32)
  hwxs0_12 : ∀ i : grid0.Coords, EltTy.bits .f32 = 32 ∨ (Rect.unit (s := S480x32) (fun _ => 0) (fun a => (Pipeline.Clip.of (cc0_transform_12 i a) (S480x32.size a) (S10000x32.size a)).extent (S480x32.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S480x16.size a < S10000x16.size a
  hwx0_13 : ∀ i : grid0.Coords, EltTy.bits .f32 = 32 ∨ (Rect.unit (s := S10000x16) (fun a => cc0_transform_13 i a * S480x16.size a) (fun a => (Pipeline.Clip.of (cc0_transform_13 i a) (S480x16.size a) (S10000x16.size a)).extent (S480x16.size a)) fun a => Pipeline.Clip.inb (Pipeline.Clip.ok_of (hstart0_13 i a))).WholeWords (EltTy.packing .f32)
  hwxs0_13 : ∀ i : grid0.Coords, EltTy.bits .f32 = 32 ∨ (Rect.unit (s := S480x16) (fun _ => 0) (fun a => (Pipeline.Clip.of (cc0_transform_13 i a) (S480x16.size a) (S10000x16.size a)).extent (S480x16.size a)) fun a => (Nat.zero_add _).trans_le (Pipeline.Clip.extent_le (Pipeline.Clip.ok_of (hstart0_13 i a)))).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S480x10000_S10000x64_S480x64_1_0_0_1_n_n : DotDims S480x10000 S10000x64 S480x64 where
  lhsContracting := [1]
  rhsContracting := [0]
  lhsNonContracting := [0]
  rhsNonContracting := [1]
  lhsBatch := []
  rhsBatch := []
  wf := dot_S480x10000_S10000x64_S480x64_1_0_0_1_n_n_wf
def dot_S480x64_S64x32_S480x32_1_0_0_1_n_n : DotDims S480x64 S64x32 S480x32 where
  lhsContracting := [1]
  rhsContracting := [0]
  lhsNonContracting := [0]
  rhsNonContracting := [1]
  lhsBatch := []
  rhsBatch := []
  wf := dot_S480x64_S64x32_S480x32_1_0_0_1_n_n_wf
def dot_S480x32_S32x64_S480x64_1_0_0_1_n_n : DotDims S480x32 S32x64 S480x64 where
  lhsContracting := [1]
  rhsContracting := [0]
  lhsNonContracting := [0]
  rhsNonContracting := [1]
  lhsBatch := []
  rhsBatch := []
  wf := dot_S480x32_S32x64_S480x64_1_0_0_1_n_n_wf
def dot_S480x64_S64x16_S480x16_1_0_0_1_n_n : DotDims S480x64 S64x16 S480x16 where
  lhsContracting := [1]
  rhsContracting := [0]
  lhsNonContracting := [0]
  rhsNonContracting := [1]
  lhsBatch := []
  rhsBatch := []
  wf := dot_S480x64_S64x16_S480x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S480x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpecClip (Memref.whole main_arg12) S480x32.size cc0_transform_12 reads0_12 false false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v5) S480x16.size cc0_transform_13 reads0_13 true false 2 stage0_13 sem0_13
    hrank0 hreads0_13 hstart0_13 nbuf0_13 (Memref.isWhole_whole _) hwx0_13 hwxs0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond4 i == 1#1) | ⟨_ + 14, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S128x16 : Shape := ⟨2, ![128, 16]⟩
abbrev S16 : Shape := ⟨1, ![16]⟩
abbrev S10000x32 : Shape := ⟨2, ![10000, 32]⟩
abbrev S10000x64 : Shape := ⟨2, ![10000, 64]⟩
abbrev S1x64 : Shape := ⟨2, ![1, 64]⟩
abbrev S_ : Shape := ⟨0, ![]⟩
abbrev S1x32 : Shape := ⟨2, ![1, 32]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 60
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S128x16, .f32⟩
  | .hbm, ⟨11, _⟩ => ⟨S16, .f32⟩
  | .hbm, ⟨12, _⟩ => ⟨S10000x32, .f32⟩
  | .hbm, ⟨13, _⟩ => ⟨S10000x64, .f32⟩
  | .hbm, ⟨14, _⟩ => ⟨S10000x64, .f32⟩
  | .hbm, ⟨15, _⟩ => ⟨S1x64, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000x64, .f32⟩
  | .hbm, ⟨20, _⟩ => ⟨S10000x64, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S10000x32, .f32⟩
  | .hbm, ⟨32, _⟩ => ⟨S10000x64, .f32⟩
  | .hbm, ⟨33, _⟩ => ⟨S1x64, .f32⟩
  | .hbm, ⟨34, _⟩ => ⟨S10000x64, .f32⟩
  | .hbm, ⟨35, _⟩ => ⟨S10000x64, .f32⟩
  | .hbm, ⟨36, _⟩ => ⟨S_, .f32⟩
  | .hbm, ⟨37, _⟩ => ⟨S10000x64, .f32⟩
  | .hbm, ⟨38, _⟩ => ⟨S10000x64, .f32⟩
  | .hbm, ⟨39, _⟩ => ⟨S10000x128, .f32⟩
  | .hbm, ⟨40, _⟩ => ⟨S10000x16, .f32⟩
  | .hbm, ⟨41, _⟩ => ⟨S10000x16, .f32⟩
  | .hbm, ⟨42, _⟩ => ⟨S1x16, .f32⟩
  | .hbm, ⟨43, _⟩ => ⟨S10000x16, .f32⟩
  | .hbm, ⟨44, _⟩ => ⟨S10000x16, .f32⟩
  | .hbm, ⟨45, _⟩ => ⟨S_, .f32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S10000, .f32⟩
  | .hbm, ⟨50, _⟩ => ⟨S10000x1, .f32⟩
  | .hbm, ⟨51, _⟩ => ⟨S10000x16, .f32⟩
  | .hbm, ⟨52, _⟩ => ⟨S10000x16, .f32⟩
  | .hbm, ⟨53, _⟩ => ⟨S10000x16, .f32⟩
  | .hbm, ⟨54, _⟩ => ⟨S_, .f32⟩
  | .hbm, ⟨55, _⟩ => ⟨S10000, .f32⟩
  | .hbm, ⟨56, _⟩ => ⟨S10000x1, .f32⟩
  | .hbm, ⟨57, _⟩ => ⟨S10000x1, .f32⟩
  | .hbm, ⟨58, _⟩ => ⟨S10000x16, .f32⟩
  | .hbm, ⟨59, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_call2_cst_0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_cst_1 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x64_S10000x64_S10000x128_d1 : Shape.Concatenates [S10000x64, S10000x64] S10000x128 1
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BodyRuns.lean ====
/-
  The kernel body, run once per control case.

  The grid has two sweeps of 21 points over the adjacency's row blocks. The body branches four times on the grid
  coordinates, and the grid meets four assignments of the branches: the first point of the first sweep (fill the
  right-hand scratch with the feature product, then do a first-sweep step), the other first-sweep points (multiply
  the adjacency block with the right-hand scratch, run the dense head, store 480 rows into the 10080-row scratch),
  the first point of the second sweep (refill the right-hand scratch from the 10080-row scratch, then do a
  second-sweep step) and the other second-sweep points (multiply, add the bias, store the row-wise log-softmax
  into the output's buffer). Each theorem below is the body's weakest-precondition triple in one case, at any float
  instance, over arbitrary whole staging buffers: what each buffer holds afterwards is stated through the body's
  named pure payloads.
-/
import proofs.«156255_g28346784154176_retrytranche2_455_35_alg».proof.Proof.Gen.KernelIdeal.Frame
import proofs.«156255_g28346784154176_retrytranche2_455_35_alg».proof.Proof.Gen.KernelIdeal.Skeleton
import Idealize.ShloMosaic.Lib.Pipeline.Value
import Idealize.ShloMosaic.Lib.WritesUnit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The four branch conditions of the body as propositions over the grid coordinates. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cnd2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev cnd3 (i : grid0.Coords) : Prop := k0_cond3 i = 1#1
abbrev cnd4 (i : grid0.Coords) : Prop := k0_cond4 i = 1#1

/-- The zero offsets of a rank-2 rectangle, as the constant function. -/
theorem off00 : (![0, 0] : Fin 2 → Nat) = fun _ => 0 := funext fun a => by fin_cases a <;> rfl

/-- Rows 0..9999 of the 10080-row scratch, as the body loads them at the first point of the second sweep. -/
abbrev headRows (xs1 : Vec F S10080x16 .f32) : Vec F S10000x16 .f32 :=
  View.ld xs1 (Rect.unit (s := S10080x16) ![0, 0] S10000x16.size Gen.inb_S10080x16_S10000x16_0_0)

/-- One unmasked store through the whole-shape rectangle at zero offsets leaves its payload, whatever the buffer held. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- `X'` is `X` with the 480 rows from row `o` on replaced by the block `w`. -/
def rowsPut (o : ℕ) (X : Vec F S10080x16 .f32) (w : Vec F S480x16 .f32) (X' : Vec F S10080x16 .f32) : Prop :=
  (∀ (y : S10080x16.Idx) (x : S480x16.Idx), (y 0).val = o + (x 0).val → (y 1).val = (x 1).val → X' y = w x)
    ∧ ∀ y : S10080x16.Idx, ((y 0).val < o ∨ o + 480 ≤ (y 0).val) → X' y = X y

/-- Rows 0..63 and rows 64..127 of the last weight matrix, as the body loads them. -/
abbrev wTop (x10 : Vec F S128x16 .f32) : Vec F S64x16 .f32 :=
  View.ld x10 (Rect.unit (s := S128x16) ![0, 0] S64x16.size Gen.inb_S128x16_S64x16_0_0)
abbrev wBot (x10 : Vec F S128x16 .f32) : Vec F S64x16 .f32 :=
  View.ld x10 (Rect.unit (s := S128x16) ![64, 0] S64x16.size Gen.inb_S128x16_S64x16_64_0)

/-- What a point of the first sweep stores into its 480 rows of the 10080-row scratch: from the adjacency block
    `x1`, the right-hand scratch `s`, the weights and biases, and the noise block `x12`. -/
def sweepOneRows (x1 : Vec F S480x10000 .f32) (s : Vec F S10000x64 .f32) (x3 : Vec F S1x64 .f32) (x4 : Vec F S64x32 .f32) (x5 : Vec F S1x32 .f32)
    (x6 : Vec F S64x32 .f32) (x7 : Vec F S1x32 .f32) (x8 : Vec F S32x64 .f32) (x9 : Vec F S1x64 .f32) (x10 : Vec F S128x16 .f32)
    (x12 : Vec F S480x32 .f32) : Vec F S480x16 .f32 :=
  k0_pay4 (k0_pay6 (k0_pay3 x1 s) x3) (k0_pay7 (k0_pay3 x1 s) x3 x4 x5 x6 x7 x12 x8 x9 (wTop x10)) (wBot x10)
    (constant S480x16 .f32 0x00000000#32)

/-- A point of the second sweep other than its first: the body multiplies the adjacency block with the
    right-hand scratch, adds the bias, and stores the row-wise log-softmax of the first sixteen columns into the
    output's buffer; the scratch and the inputs are left as found. -/
theorem runD (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : ¬cnd2 i) (h3 : ¬cnd3 i) (h4 : cnd4 i)
    (x1 : Vec F S480x10000 .f32) (x11 : Vec F S1x16 .f32) (xs0 : Vec F S10000x64 .f32) (E : Set ℕ) (K : PUnit → sProp 𝕄) :
    iprop(owns (c : Thread nD τ) arg3 fullShare x1 ∗ owns (c : Thread nD τ) arg13 fullShare x11 ∗ (∃ d, owns (c : Thread nD τ) arg15 fullShare d) ∗ owns (c : Thread nD τ) arg16 fullShare xs0
        ∗ (iprop(owns (c : Thread nD τ) arg3 fullShare x1 ∗ owns (c : Thread nD τ) arg13 fullShare x11 ∗ owns (c : Thread nD τ) arg15 fullShare (k0_pay5 x1 xs0 x11) ∗ owns (c : Thread nD τ) arg16 fullShare xs0) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f11, %hf11, H11⟩, ⟨%d13, %f13, %hf13, H13⟩, ⟨%fs0, %hfs0, HS0⟩, Hk⟩
  obtain rfl := harg3.eq_unread hf1; obtain rfl := harg13.eq_unread hf11; obtain rfl := harg16.eq_unread hfs0
  sl_exec (disch := first | exact h1 | exact h2 | exact h3 | exact h4)
  sl_step
  iapply Hk
  isplitl [H1]
  · iexists _; isplitr; · ipureintro; exact hf1
    iexact H1
  isplitl [H11]
  · iexists _; isplitr; · ipureintro; exact hf11
    iexact H11
  isplitl [H13]
  · iexists _; isplitr
    swap; · iexact H13
    ipureintro
    refine (read_store_whole _ _ off00 _ _).trans ?_
    repeat rw [View.readAt_eq_ld]
    rw [hf1, hf11, hfs0, View.ld_unit_zero (S := S480x10000) off00, View.ld_unit_zero (S := S10000x64) off00,
      View.ld_unit_zero (S := S1x16) off00]
  · iexists _; isplitr; · ipureintro; exact hfs0
    iexact HS0

/-- The first point of the second sweep: the body first refills the right-hand scratch with the first 10000 rows
    of the 10080-row scratch padded with 48 zero columns, then proceeds as at the other points of the sweep. -/
theorem runC (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : cnd2 i) (h3 : ¬cnd3 i) (h4 : cnd4 i)
    (x1 : Vec F S480x10000 .f32) (x11 : Vec F S1x16 .f32) (xs1 : Vec F S10080x16 .f32) (E : Set ℕ) (K : PUnit → sProp 𝕄) :
    iprop(owns (c : Thread nD τ) arg3 fullShare x1 ∗ owns (c : Thread nD τ) arg13 fullShare x11 ∗ (∃ d, owns (c : Thread nD τ) arg15 fullShare d) ∗ (∃ d, owns (c : Thread nD τ) arg16 fullShare d)
        ∗ owns (c : Thread nD τ) arg17 fullShare xs1
        ∗ (iprop(owns (c : Thread nD τ) arg3 fullShare x1 ∗ owns (c : Thread nD τ) arg13 fullShare x11 ∗ owns (c : Thread nD τ) arg15 fullShare (k0_pay5 x1 (k0_pay2 (headRows xs1)) x11)
            ∗ owns (c : Thread nD τ) arg16 fullShare (k0_pay2 (headRows xs1)) ∗ owns (c : Thread nD τ) arg17 fullShare xs1) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f11, %hf11, H11⟩, ⟨%d13, %f13, %hf13, H13⟩, ⟨%ds0, %fs0, %hfs0, HS0⟩, ⟨%fs1, %hfs1, HS1⟩, Hk⟩
  obtain rfl := harg3.eq_unread hf1; obtain rfl := harg13.eq_unread hf11; obtain rfl := harg17.eq_unread hfs1
  sl_exec (disch := first | exact h1 | exact h2 | exact h3 | exact h4)
  sl_step
  iapply Hk
  isplitl [H1]
  · iexists _; isplitr; · ipureintro; exact hf1
    iexact H1
  isplitl [H11]
  · iexists _; isplitr; · ipureintro; exact hf11
    iexact H11
  isplitl [H13]
  · iexists _; isplitr
    swap; · iexact H13
    ipureintro
    sl_unfold_run_names
    refine (read_store_whole _ _ off00 _ _).trans ?_
    rw [View.readCov_unit_zero _ off00]
    repeat rw [View.readAt_eq_ld]
    rw [hf1, hf11, hfs1, View.ld_unit_zero (S := S480x10000) off00, View.ld_unit_zero (S := S1x16) off00]
  isplitl [HS0]
  · iexists _; isplitr
    swap; · iexact HS0
    ipureintro
    sl_unfold_run_names
    refine (read_store_whole _ _ off00 _ _).trans ?_
    rw [View.readAt_eq_ld, hfs1]
  · iexists _; isplitr; · ipureintro; exact hfs1
    iexact HS1

set_option maxHeartbeats 2000000 in
/-- A point of the first sweep other than its first: the body multiplies the adjacency block with the right-hand
    scratch, runs the dense head on the product, and stores the resulting 480 rows into the 10080-row scratch at the
    point's row offset; everything else is left as found. -/
theorem runB (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : ¬cnd2 i) (h3 : cnd3 i) (h4 : ¬cnd4 i)
    (x1 : Vec F S480x10000 .f32) (x3 : Vec F S1x64 .f32) (x4 : Vec F S64x32 .f32) (x5 : Vec F S1x32 .f32) (x6 : Vec F S64x32 .f32) (x7 : Vec F S1x32 .f32)
    (x8 : Vec F S32x64 .f32) (x9 : Vec F S1x64 .f32) (x10 : Vec F S128x16 .f32) (x12 : Vec F S480x32 .f32)
    (xs0 : Vec F S10000x64 .f32) (xs1 : Vec F S10080x16 .f32) (E : Set ℕ) (K : PUnit → sProp 𝕄) :
    iprop(owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare xs0 ∗ owns (c : Thread nD τ) arg17 fullShare xs1
        ∗ (iprop(owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare xs0
            ∗ (∃ X', ⌜rowsPut ((k0_off1 i) 0) xs1 (sweepOneRows x1 xs0 x3 x4 x5 x6 x7 x8 x9 x10 x12) X'⌝ ∗ owns (c : Thread nD τ) arg17 fullShare X')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%fs0, %hfs0, HS0⟩, ⟨%fs1, %hfs1, HS1⟩, Hk⟩
  obtain rfl := harg3.eq_unread hf1; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  obtain rfl := harg12.eq_unread hf10; obtain rfl := harg14.eq_unread hf12; obtain rfl := harg16.eq_unread hfs0; obtain rfl := harg17.eq_unread hfs1
  sl_exec (disch := first | exact h1 | exact h2 | exact h3 | exact h4)
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H12]
  · iexists _; isplitr; · ipureintro; exact hf12
    iexact H12
  isplitl [HS0]
  · iexists _; isplitr; · ipureintro; exact hfs0
    iexact HS0
  iexists _; isplitr
  swap
  · iexists _; isplitr
    swap; · iexact HS1
    ipureintro; rfl
  ipureintro
  have hoff : k0_off1 i = ![(k0_off1 i) 0, 0] := rfl
  refine ⟨fun y x hy0 hy1 => ?_, fun y hy => ?_⟩
  · refine (View.read_writes_cons_rows_of_mem _ _ _ _ [] y x hoff hy0 hy1).trans ?_
    sl_unfold_run_names
    unfold sweepOneRows
    simp only [View.readAt_eq_ld, hf1, hf3, hf4, hf5, hf6, hf7, hf8, hf9, hf10, hf12, hfs0,
      View.ld_unit_zero (S := S480x10000) off00, View.ld_unit_zero (S := S10000x64) off00, View.ld_unit_zero (S := S1x64) off00,
      View.ld_unit_zero (S := S64x32) off00, View.ld_unit_zero (S := S1x32) off00, View.ld_unit_zero (S := S480x32) off00,
      View.ld_unit_zero (S := S32x64) off00]
    try rfl
  · refine (View.read_writes_cons_rows_of_not_mem (W := 480) _ _ _ _ [] y hoff rfl hy).trans ?_
    rw [View.writes_nil, hfs1]

set_option maxHeartbeats 2000000 in
/-- The first point of the first sweep: the body first fills the right-hand scratch with the product of the feature
    matrix and the first weight matrix, then proceeds as at the other points of the sweep, reading that product back. -/
theorem runA (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : cnd1 i) (h2 : ¬cnd2 i) (h3 : cnd3 i) (h4 : ¬cnd4 i)
    (x0 : Vec F S10000x128 .f32) (x2 : Vec F S128x64 .f32) (x1 : Vec F S480x10000 .f32) (x3 : Vec F S1x64 .f32) (x4 : Vec F S64x32 .f32) (x5 : Vec F S1x32 .f32) (x6 : Vec F S64x32 .f32) (x7 : Vec F S1x32 .f32)
    (x8 : Vec F S32x64 .f32) (x9 : Vec F S1x64 .f32) (x10 : Vec F S128x16 .f32) (x12 : Vec F S480x32 .f32)
    (xs1 : Vec F S10080x16 .f32) (E : Set ℕ) (K : PUnit → sProp 𝕄) :
    iprop(owns (c : Thread nD τ) arg2 fullShare x0 ∗ owns (c : Thread nD τ) arg4 fullShare x2 ∗ owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ (∃ d, owns (c : Thread nD τ) arg16 fullShare d) ∗ owns (c : Thread nD τ) arg17 fullShare xs1
        ∗ (iprop(owns (c : Thread nD τ) arg2 fullShare x0 ∗ owns (c : Thread nD τ) arg4 fullShare x2 ∗ owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare (k0_pay1 x0 x2)
            ∗ (∃ X', ⌜rowsPut ((k0_off1 i) 0) xs1 (sweepOneRows x1 (k0_pay1 x0 x2) x3 x4 x5 x6 x7 x8 x9 x10 x12) X'⌝ ∗ owns (c : Thread nD τ) arg17 fullShare X')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f0, %hf0, H0⟩, ⟨%f2, %hf2, H2⟩, ⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%ds0, %fs0, %hfs0, HS0⟩, ⟨%fs1, %hfs1, HS1⟩, Hk⟩
  obtain rfl := harg2.eq_unread hf0; obtain rfl := harg4.eq_unread hf2
  obtain rfl := harg3.eq_unread hf1; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  obtain rfl := harg12.eq_unread hf10; obtain rfl := harg14.eq_unread hf12; obtain rfl := harg17.eq_unread hfs1
  sl_exec (disch := first | exact h1 | exact h2 | exact h3 | exact h4)
  sl_step
  iapply Hk
  isplitl [H0]
  · iexists _; isplitr; · ipureintro; exact hf0
    iexact H0
  isplitl [H2]
  · iexists _; isplitr; · ipureintro; exact hf2
    iexact H2
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H12]
  · iexists _; isplitr; · ipureintro; exact hf12
    iexact H12
  isplitl [HS0]
  · iexists _; isplitr
    swap; · iexact HS0
    ipureintro
    sl_unfold_run_names
    refine (read_store_whole _ _ off00 _ _).trans ?_
    simp only [View.readAt_eq_ld, hf0, hf2, View.ld_unit_zero (S := S10000x128) off00, View.ld_unit_zero (S := S128x64) off00]
  iexists _; isplitr
  swap
  · iexists _; isplitr
    swap; · iexact HS1
    ipureintro; rfl
  ipureintro
  have hoff : k0_off1 i = ![(k0_off1 i) 0, 0] := rfl
  refine ⟨fun y x hy0 hy1 => ?_, fun y hy => ?_⟩
  · refine (View.read_writes_cons_rows_of_mem _ _ _ _ [] y x hoff hy0 hy1).trans ?_
    sl_unfold_run_names
    unfold sweepOneRows
    simp only [View.readCov_unit_zero (S := S10000x64) _ off00, View.readAt_eq_ld, hf0, hf2, hf1, hf3, hf4, hf5, hf6, hf7, hf8, hf9, hf10, hf12,
      View.ld_unit_zero (S := S10000x128) off00, View.ld_unit_zero (S := S128x64) off00,
      View.ld_unit_zero (S := S480x10000) off00, View.ld_unit_zero (S := S10000x64) off00, View.ld_unit_zero (S := S1x64) off00,
      View.ld_unit_zero (S := S64x32) off00, View.ld_unit_zero (S := S1x32) off00, View.ld_unit_zero (S := S480x32) off00,
      View.ld_unit_zero (S := S32x64) off00]
    try rfl
  · refine (View.read_writes_cons_rows_of_not_mem (W := 480) _ _ _ _ [] y hoff rfl hy).trans ?_
    rw [View.writes_nil, hfs1]

end Cert.KernelIdeal.Body

end
-- ==== Proof.FrameRun.lean ====
/-
  The proof data of the pipeline and its frame run.

  The two sweeps communicate through two scratch buffers, so the invariant between points names what they hold: the
  right-hand scratch holds the feature product during the first sweep and the padded first 10000 rows of the
  10080-row scratch during the second; the 10080-row scratch holds, for every first-sweep point already run, the 480
  rows that point stored. The adjacency's and the noise's row blocks overhang their arrays at the last block of a
  sweep, where a fetch leaves words nothing names past the array's end; so the data are relational: an input's
  buffer is left as found, and the output's buffer after a second-sweep point is the body's log-softmax payload of
  SOME filling of the adjacency block's overhang. From the body obligation at every point the library's frame run
  gives termination, no fault, and every argument array unchanged.
-/
import proofs.«156255_g28346784154176_retrytranche2_455_35_alg».proof.Proof.Gen.KernelIdeal.Frame
import proofs.«156255_g28346784154176_retrytranche2_455_35_alg».proof.Proof.Gen.KernelIdeal.Skeleton
import proofs.«156255_g28346784154176_retrytranche2_455_35_alg».proof.Proof.BodyRuns
import Idealize.ShloMosaic.Lib.Pipeline.Value
import Idealize.ShloMosaic.Lib.WritesUnit
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the row offset, decided over the 42 grid points

Points 0..20 are the first sweep over the adjacency's row blocks, points 21..41 the second. -/

theorem cnd1_iff : ∀ t : Fin cfg0.N, cnd1 (grid0.coords t) ↔ t.val = 0 :=
  (by decide +kernel : ∀ t : Fin grid0.N, cnd1 (grid0.coords t) ↔ t.val = 0)
theorem cnd2_iff : ∀ t : Fin cfg0.N, cnd2 (grid0.coords t) ↔ t.val = 21 :=
  (by decide +kernel : ∀ t : Fin grid0.N, cnd2 (grid0.coords t) ↔ t.val = 21)
theorem cnd3_iff : ∀ t : Fin cfg0.N, cnd3 (grid0.coords t) ↔ t.val < 21 :=
  (by decide +kernel : ∀ t : Fin grid0.N, cnd3 (grid0.coords t) ↔ t.val < 21)
theorem cnd4_iff : ∀ t : Fin cfg0.N, cnd4 (grid0.coords t) ↔ 21 ≤ t.val :=
  (by decide +kernel : ∀ t : Fin grid0.N, cnd4 (grid0.coords t) ↔ 21 ≤ t.val)
/-- A point of the first sweep stores its rows at row 480 · (its number). -/
theorem rowOff : ∀ t : Fin cfg0.N, t.val < 21 → (k0_off1 (grid0.coords t)) 0 = 480 * t.val :=
  (by decide +kernel : ∀ t : Fin grid0.N, t.val < 21 → (k0_off1 (grid0.coords t)) 0 = 480 * t.val)

/-! ## The scratch operands and the class invariant over them -/

abbrev scM0 : Memref sig .tc .vmem S10000x64 .f32 := Memref.whole cc0_scratch0
abbrev scM1 : Memref sig .tc .vmem S10080x16 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the buffers hold

The adjacency's and the noise's row blocks may overhang their arrays at the last block of a sweep: a fetch there
leaves the rows inside the array in the buffer's leading rows and words nothing names (`d`) in the rest. -/

/-- The first grid point. -/
abbrev t0 : Fin cfg0.N := ⟨0, by decide⟩

/-- The adjacency's buffer after the fetch at point `t`. -/
def adjGot (c : Dev nD) (t : Fin cfg0.N) (d : Vec F S480x10000 .f32) : Vec F S480x10000 .f32 :=
  win0_1.fill (grid0.coords t) d (Gen.iblk m c 1 t)
/-- The noise's buffer after the fetch at point `t`. -/
def epsGot (c : Dev nD) (t : Fin cfg0.N) (d : Vec F S480x32 .f32) : Vec F S480x32 .f32 :=
  win0_12.fill (grid0.coords t) d (Gen.iblk m c 12 t)

/-- The right-hand scratch during the first sweep: the product of the feature matrix and the first weight matrix. -/
def rhsOne (c : Dev nD) : Vec F S10000x64 .f32 := k0_pay1 (Gen.iblk m c 0 t0) (Gen.iblk m c 2 t0)

/-- The 480 rows point `j` of the first sweep stores, for fillers `d1`, `d12` of the two clipped fetches. -/
def rowsOf (c : Dev nD) (j : Fin cfg0.N) (d1 : Vec F S480x10000 .f32) (d12 : Vec F S480x32 .f32) : Vec F S480x16 .f32 :=
  sweepOneRows (adjGot m c j d1) (rhsOne m c) (Gen.iblk m c 3 j) (Gen.iblk m c 4 j) (Gen.iblk m c 5 j) (Gen.iblk m c 6 j)
    (Gen.iblk m c 7 j) (Gen.iblk m c 8 j) (Gen.iblk m c 9 j) (Gen.iblk m c 10 j) (epsGot m c j d12)

/-- The 10080-row scratch before point `n` of the first sweep: each earlier point's 480 rows hold what it stored. -/
def SweepOne (c : Dev nD) (n : ℕ) (X1 : Vec F S10080x16 .f32) : Prop :=
  ∀ j : Fin cfg0.N, j.val < n → j.val < 21 → ∃ d1 d12, ∀ (y : S10080x16.Idx) (x : S480x16.Idx),
    (y 0).val = 480 * j.val + (x 0).val → (y 1).val = (x 1).val → X1 y = rowsOf m c j d1 d12 x

/-- What a point `t` of the second sweep leaves in the output's buffer. -/
def OutRel (c : Dev nD) (t : Fin cfg0.N) (X : Vec F S480x16 .f32) : Prop :=
  ∃ (X1 : Vec F S10080x16 .f32) (d1 : Vec F S480x10000 .f32), SweepOne m c 21 X1 ∧
    X = k0_pay5 (adjGot m c t d1) (k0_pay2 (headRows X1)) (Gen.iblk m c 11 t)

/-- The invariant before position `n`: before the first point the class's; during the first sweep the right-hand
    scratch at the feature product and the 10080-row scratch filled up to the point; during the second the
    right-hand scratch at the padded first 10000 rows of the filled 10080-row scratch. -/
def Phi (c : Dev nD) : ℕ → sProp 𝕄
  | 0 => Pipeline.ΦA spec0 c
  | n + 1 =>
    if n + 1 ≤ 21 then
      iprop(∃ X1, ⌜SweepOne m c (n + 1) X1⌝ ∗ owns (c : Thread nD τ) scM0 fullShare (rhsOne m c)
        ∗ owns (c : Thread nD τ) scM1 fullShare X1 ∗ (∃ r, prngReg c r))
    else
      iprop(∃ X1, ⌜SweepOne m c 21 X1⌝ ∗ owns (c : Thread nD τ) scM0 fullShare (k0_pay2 (headRows X1))
        ∗ owns (c : Thread nD τ) scM1 fullShare X1 ∗ (∃ r, prngReg c r))

/-- The relational proof data of the one pipeline on core `c`: every input's buffer is left as found; the output's
    is left as found during the first sweep and in `OutRel` during the second. -/
def rdat (c : Dev nD) : RDat τ (Elt F) Unit ℕ (UR sig nD τ) ℕ cfg0 c where
  A w := Gen.V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => if t.val < 21 then X = Y else OutRel m c t X
    | ⟨_ + 14, h⟩ => absurd h (Nat.not_lt.2 (Nat.le_add_left _ _))
  Φ n := Phi m c n.val
  q _ := fullShare
  owed _ := 0

theorem A_eq (c : Dev nD) (w : Fin cfg0.W) : (rdat m c).A w = Gen.V m c (Pipeline.arrRef spec0 w) := by
  dsimp only [rdat]

/-! ## What the body finds in the inputs' buffers -/

theorem finds_0 (c : Dev nD) (t : Fin cfg0.N) (Y) (h : (rdat m c).Finds 0 t Y) : Y = Gen.iblk m c 0 t := by
  obtain ⟨d, hd⟩ := (rdat m c).finds_in_eq_fetched 0 rfl (fun _ _ _ => rfl) (fun _ _ _ h => h) t Y h
  exact hd
theorem finds_2 (c : Dev nD) (t : Fin cfg0.N) (Y) (h : (rdat m c).Finds 2 t Y) : Y = Gen.iblk m c 2 t := by
  obtain ⟨d, hd⟩ := (rdat m c).finds_in_eq_fetched 2 rfl (fun _ _ _ => rfl) (fun _ _ _ h => h) t Y h
  exact hd
theorem finds_3 (c : Dev nD) (t : Fin cfg0.N) (Y) (h : (rdat m c).Finds 3 t Y) : Y = Gen.iblk m c 3 t := by
  obtain ⟨d, hd⟩ := (rdat m c).finds_in_eq_fetched 3 rfl (fun _ _ _ => rfl) (fun _ _ _ h => h) t Y h
  exact hd
theorem finds_4 (c : Dev nD) (t : Fin cfg0.N) (Y) (h : (rdat m c).Finds 4 t Y) : Y = Gen.iblk m c 4 t := by
  obtain ⟨d, hd⟩ := (rdat m c).finds_in_eq_fetched 4 rfl (fun _ _ _ => rfl) (fun _ _ _ h => h) t Y h
  exact hd
theorem finds_5 (c : Dev nD) (t : Fin cfg0.N) (Y) (h : (rdat m c).Finds 5 t Y) : Y = Gen.iblk m c 5 t := by
  obtain ⟨d, hd⟩ := (rdat m c).finds_in_eq_fetched 5 rfl (fun _ _ _ => rfl) (fun _ _ _ h => h) t Y h
  exact hd
theorem finds_6 (c : Dev nD) (t : Fin cfg0.N) (Y) (h : (rdat m c).Finds 6 t Y) : Y = Gen.iblk m c 6 t := by
  obtain ⟨d, hd⟩ := (rdat m c).finds_in_eq_fetched 6 rfl (fun _ _ _ => rfl) (fun _ _ _ h => h) t Y h
  exact hd
theorem finds_7 (c : Dev nD) (t : Fin cfg0.N) (Y) (h : (rdat m c).Finds 7 t Y) : Y = Gen.iblk m c 7 t := by
  obtain ⟨d, hd⟩ := (rdat m c).finds_in_eq_fetched 7 rfl (fun _ _ _ => rfl) (fun _ _ _ h => h) t Y h
  exact hd
theorem finds_8 (c : Dev nD) (t : Fin cfg0.N) (Y) (h : (rdat m c).Finds 8 t Y) : Y = Gen.iblk m c 8 t := by
  obtain ⟨d, hd⟩ := (rdat m c).finds_in_eq_fetched 8 rfl (fun _ _ _ => rfl) (fun _ _ _ h => h) t Y h
  exact hd
theorem finds_9 (c : Dev nD) (t : Fin cfg0.N) (Y) (h : (rdat m c).Finds 9 t Y) : Y = Gen.iblk m c 9 t := by
  obtain ⟨d, hd⟩ := (rdat m c).finds_in_eq_fetched 9 rfl (fun _ _ _ => rfl) (fun _ _ _ h => h) t Y h
  exact hd
theorem finds_10 (c : Dev nD) (t : Fin cfg0.N) (Y) (h : (rdat m c).Finds 10 t Y) : Y = Gen.iblk m c 10 t := by
  obtain ⟨d, hd⟩ := (rdat m c).finds_in_eq_fetched 10 rfl (fun _ _ _ => rfl) (fun _ _ _ h => h) t Y h
  exact hd
theorem finds_11 (c : Dev nD) (t : Fin cfg0.N) (Y) (h : (rdat m c).Finds 11 t Y) : Y = Gen.iblk m c 11 t := by
  obtain ⟨d, hd⟩ := (rdat m c).finds_in_eq_fetched 11 rfl (fun _ _ _ => rfl) (fun _ _ _ h => h) t Y h
  exact hd

/-- The clipped windows' cuts are a function of their block index. -/
theorem clip_1 : ∀ t t' : Fin cfg0.N, (cfg0.win 1).index t = (cfg0.win 1).index t' →
    (cfg0.win 1).clip (cfg0.grid.coords t) = (cfg0.win 1).clip (cfg0.grid.coords t') :=
  (by decide +kernel : ∀ t t' : Fin grid0.N, win0_1.index t = win0_1.index t' → win0_1.clip (grid0.coords t) = win0_1.clip (grid0.coords t'))
theorem clip_12 : ∀ t t' : Fin cfg0.N, (cfg0.win 12).index t = (cfg0.win 12).index t' →
    (cfg0.win 12).clip (cfg0.grid.coords t) = (cfg0.win 12).clip (cfg0.grid.coords t') :=
  (by decide +kernel : ∀ t t' : Fin grid0.N, win0_12.index t = win0_12.index t' → win0_12.clip (grid0.coords t) = win0_12.clip (grid0.coords t'))

theorem finds_1 (c : Dev nD) (t : Fin cfg0.N) (Y) (h : (rdat m c).Finds 1 t Y) : ∃ d, Y = adjGot m c t d := by
  obtain ⟨d, hd⟩ := (rdat m c).finds_in_eq_fetched 1 rfl clip_1 (fun _ _ _ h => h) t Y h
  exact ⟨d, hd⟩
theorem finds_12 (c : Dev nD) (t : Fin cfg0.N) (Y) (h : (rdat m c).Finds 12 t Y) : ∃ d, Y = epsGot m c t d := by
  obtain ⟨d, hd⟩ := (rdat m c).finds_in_eq_fetched 12 rfl clip_12 (fun _ _ _ h => h) t Y h
  exact ⟨d, hd⟩

/-! ## What the relation asks, window by window -/

theorem after_in_0 (c : Dev nD) (t : Fin cfg0.N) (Y) : (rdat m c).after 0 t Y Y := rfl
theorem after_in_1 (c : Dev nD) (t : Fin cfg0.N) (Y) : (rdat m c).after 1 t Y Y := rfl
theorem after_in_2 (c : Dev nD) (t : Fin cfg0.N) (Y) : (rdat m c).after 2 t Y Y := rfl
theorem after_in_3 (c : Dev nD) (t : Fin cfg0.N) (Y) : (rdat m c).after 3 t Y Y := rfl
theorem after_in_4 (c : Dev nD) (t : Fin cfg0.N) (Y) : (rdat m c).after 4 t Y Y := rfl
theorem after_in_5 (c : Dev nD) (t : Fin cfg0.N) (Y) : (rdat m c).after 5 t Y Y := rfl
theorem after_in_6 (c : Dev nD) (t : Fin cfg0.N) (Y) : (rdat m c).after 6 t Y Y := rfl
theorem after_in_7 (c : Dev nD) (t : Fin cfg0.N) (Y) : (rdat m c).after 7 t Y Y := rfl
theorem after_in_8 (c : Dev nD) (t : Fin cfg0.N) (Y) : (rdat m c).after 8 t Y Y := rfl
theorem after_in_9 (c : Dev nD) (t : Fin cfg0.N) (Y) : (rdat m c).after 9 t Y Y := rfl
theorem after_in_10 (c : Dev nD) (t : Fin cfg0.N) (Y) : (rdat m c).after 10 t Y Y := rfl
theorem after_in_11 (c : Dev nD) (t : Fin cfg0.N) (Y) : (rdat m c).after 11 t Y Y := rfl
theorem after_in_12 (c : Dev nD) (t : Fin cfg0.N) (Y) : (rdat m c).after 12 t Y Y := rfl
theorem after_13_one (c : Dev nD) (t : Fin cfg0.N) (h : t.val < 21) (Y) : (rdat m c).after 13 t Y Y := by
  dsimp only [rdat]; rw [if_pos h]
theorem after_13_two (c : Dev nD) (t : Fin cfg0.N) (h : ¬t.val < 21) (Y X) (hX : OutRel m c t X) : (rdat m c).after 13 t Y X := by
  dsimp only [rdat]; rw [if_neg h]; exact hX

/-! ## The invariant, by sweep -/

theorem Phi_one (c : Dev nD) (n : ℕ) (h0 : n ≠ 0) (h : n ≤ 21) :
    Phi m c n = iprop(∃ X1, ⌜SweepOne m c n X1⌝ ∗ owns (c : Thread nD τ) scM0 fullShare (rhsOne m c)
        ∗ owns (c : Thread nD τ) scM1 fullShare X1 ∗ (∃ r, prngReg c r)) := by
  cases n with
  | zero => exact absurd rfl h0
  | succ n => exact if_pos h
theorem Phi_two (c : Dev nD) (n : ℕ) (h : 21 < n) :
    Phi m c n = iprop(∃ X1, ⌜SweepOne m c 21 X1⌝ ∗ owns (c : Thread nD τ) scM0 fullShare (k0_pay2 (headRows X1))
        ∗ owns (c : Thread nD τ) scM1 fullShare X1 ∗ (∃ r, prngReg c r)) := by
  cases n with
  | zero => exact absurd h (by omega)
  | succ n => exact if_neg (by omega)

/-! ## The body obligation, point by point -/

/-- What the body is called with at point `t`, the windows one by one: `d1`, `d12` fill out the two clipped fetches,
    `Y13` is what the output's buffer holds. -/
def bodyPre (c : Dev nD) (t : Fin cfg0.N) (d1 : Vec F S480x10000 .f32) (d12 : Vec F S480x32 .f32) (Y13 : Vec F S480x16 .f32) : sProp 𝕄 :=
  iprop((rdat m c).Φ t.castSucc ∗ (rdat m c).owesAt () t.castSucc
    ∗ owns (c : Thread nD τ) (st0_0 t) fullShare (Gen.iblk m c 0 t)
    ∗ owns (c : Thread nD τ) (st0_1 t) fullShare (adjGot m c t d1)
    ∗ owns (c : Thread nD τ) (st0_2 t) fullShare (Gen.iblk m c 2 t)
    ∗ owns (c : Thread nD τ) (st0_3 t) fullShare (Gen.iblk m c 3 t)
    ∗ owns (c : Thread nD τ) (st0_4 t) fullShare (Gen.iblk m c 4 t)
    ∗ owns (c : Thread nD τ) (st0_5 t) fullShare (Gen.iblk m c 5 t)
    ∗ owns (c : Thread nD τ) (st0_6 t) fullShare (Gen.iblk m c 6 t)
    ∗ owns (c : Thread nD τ) (st0_7 t) fullShare (Gen.iblk m c 7 t)
    ∗ owns (c : Thread nD τ) (st0_8 t) fullShare (Gen.iblk m c 8 t)
    ∗ owns (c : Thread nD τ) (st0_9 t) fullShare (Gen.iblk m c 9 t)
    ∗ owns (c : Thread nD τ) (st0_10 t) fullShare (Gen.iblk m c 10 t)
    ∗ owns (c : Thread nD τ) (st0_11 t) fullShare (Gen.iblk m c 11 t)
    ∗ owns (c : Thread nD τ) (st0_12 t) fullShare (epsGot m c t d12)
    ∗ owns (c : Thread nD τ) (st0_13 t) fullShare Y13)

/-- and what it returns. -/
def bodyPost (c : Dev nD) (t : Fin cfg0.N) (d1 : Vec F S480x10000 .f32) (d12 : Vec F S480x32 .f32) (Y13 : Vec F S480x16 .f32) : sProp 𝕄 :=
  iprop((rdat m c).Φ t.succ ∗ (rdat m c).owesAt () t.succ
    ∗ (∃ X, ⌜(rdat m c).after 0 t (Gen.iblk m c 0 t) X⌝ ∗ owns (c : Thread nD τ) (st0_0 t) fullShare X)
    ∗ (∃ X, ⌜(rdat m c).after 1 t (adjGot m c t d1) X⌝ ∗ owns (c : Thread nD τ) (st0_1 t) fullShare X)
    ∗ (∃ X, ⌜(rdat m c).after 2 t (Gen.iblk m c 2 t) X⌝ ∗ owns (c : Thread nD τ) (st0_2 t) fullShare X)
    ∗ (∃ X, ⌜(rdat m c).after 3 t (Gen.iblk m c 3 t) X⌝ ∗ owns (c : Thread nD τ) (st0_3 t) fullShare X)
    ∗ (∃ X, ⌜(rdat m c).after 4 t (Gen.iblk m c 4 t) X⌝ ∗ owns (c : Thread nD τ) (st0_4 t) fullShare X)
    ∗ (∃ X, ⌜(rdat m c).after 5 t (Gen.iblk m c 5 t) X⌝ ∗ owns (c : Thread nD τ) (st0_5 t) fullShare X)
    ∗ (∃ X, ⌜(rdat m c).after 6 t (Gen.iblk m c 6 t) X⌝ ∗ owns (c : Thread nD τ) (st0_6 t) fullShare X)
    ∗ (∃ X, ⌜(rdat m c).after 7 t (Gen.iblk m c 7 t) X⌝ ∗ owns (c : Thread nD τ) (st0_7 t) fullShare X)
    ∗ (∃ X, ⌜(rdat m c).after 8 t (Gen.iblk m c 8 t) X⌝ ∗ owns (c : Thread nD τ) (st0_8 t) fullShare X)
    ∗ (∃ X, ⌜(rdat m c).after 9 t (Gen.iblk m c 9 t) X⌝ ∗ owns (c : Thread nD τ) (st0_9 t) fullShare X)
    ∗ (∃ X, ⌜(rdat m c).after 10 t (Gen.iblk m c 10 t) X⌝ ∗ owns (c : Thread nD τ) (st0_10 t) fullShare X)
    ∗ (∃ X, ⌜(rdat m c).after 11 t (Gen.iblk m c 11 t) X⌝ ∗ owns (c : Thread nD τ) (st0_11 t) fullShare X)
    ∗ (∃ X, ⌜(rdat m c).after 12 t (epsGot m c t d12) X⌝ ∗ owns (c : Thread nD τ) (st0_12 t) fullShare X)
    ∗ (∃ X, ⌜(rdat m c).after 13 t Y13 X⌝ ∗ owns (c : Thread nD τ) (st0_13 t) fullShare X))

/-- After the first point the 10080-row scratch holds that point's rows. -/
theorem sweep_first (c : Dev nD) (d1 : Vec F S480x10000 .f32) (d12 : Vec F S480x32 .f32) (xs1 X' : Vec F S10080x16 .f32)
    (h : rowsPut ((k0_off1 (grid0.coords t0)) 0) xs1 (rowsOf m c t0 d1 d12) X') : SweepOne m c 1 X' := by
  intro j hj _
  obtain rfl : j = t0 := Fin.ext (by simp only; omega)
  refine ⟨d1, d12, fun y x hy0 hy1 => h.1 y x ?_ hy1⟩
  rw [rowOff t0 (by decide)]; exact hy0

/-- A later point of the first sweep adds its rows and keeps the earlier points'. -/
theorem sweep_next (c : Dev nD) (t : Fin cfg0.N) (ht : t.val < 21) (d1 : Vec F S480x10000 .f32) (d12 : Vec F S480x32 .f32)
    (X1 X' : Vec F S10080x16 .f32) (hX1 : SweepOne m c t.val X1)
    (h : rowsPut ((k0_off1 (grid0.coords t)) 0) X1 (rowsOf m c t d1 d12) X') : SweepOne m c (t.val + 1) X' := by
  rw [rowOff t ht] at h
  intro j hj hj21
  by_cases hjt : j.val < t.val
  · obtain ⟨e1, e12, he⟩ := hX1 j hjt hj21
    refine ⟨e1, e12, fun y x hy0 hy1 => ?_⟩
    have hx : (x 0).val < 480 := (x 0).isLt
    rw [h.2 y (Or.inl (by omega))]; exact he y x hy0 hy1
  · obtain rfl : j = t := Fin.ext (by omega)
    exact ⟨d1, d12, fun y x hy0 hy1 => h.1 y x hy0 hy1⟩

set_option maxHeartbeats 4000000 in
/-- The first point. -/
theorem sound_A (c : Dev nD) (t : Fin cfg0.N) (ht : t.val = 0) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  obtain rfl : t = t0 := Fin.ext ht
  unfold bodyPre bodyPost bodyAt0
  rw [show (rdat m c).owesAt () (t0 : Fin cfg0.N).succ = (rdat m c).owesAt () (t0 : Fin cfg0.N).castSucc from rfl,
    show (rdat m c).Φ (t0 : Fin cfg0.N).castSucc = Pipeline.ΦA spec0 c from rfl, PhiA_eq,
    show (rdat m c).Φ (t0 : Fin cfg0.N).succ = Phi m c 1 from rfl, Phi_one m c 1 (by decide) (by decide)]
  iintro ⟨⟨⟨HS0, ⟨%xs1, HS1⟩⟩, Hg⟩, Ho, H0, H1, H2, H3, H4, H5, H6, H7, H8, H9, H10, H11, H12, H13⟩
  iapply (runA c (grid0.coords t0) _ _ _ _ _ _ _ _ _ _ _ _ _ _ _ _ _ _ _ _ _ _ _ _ _ _ _ _ _ _ _ _ ((cnd1_iff t0).mpr rfl) (fun h => absurd ((cnd2_iff t0).mp h) (by decide))
    ((cnd3_iff t0).mpr (by decide)) (fun h => absurd ((cnd4_iff t0).mp h) (by decide))
    (Gen.iblk m c 0 t0) (Gen.iblk m c 2 t0) (adjGot m c t0 d1) (Gen.iblk m c 3 t0) (Gen.iblk m c 4 t0) (Gen.iblk m c 5 t0) (Gen.iblk m c 6 t0)
    (Gen.iblk m c 7 t0) (Gen.iblk m c 8 t0) (Gen.iblk m c 9 t0) (Gen.iblk m c 10 t0) (epsGot m c t0 d12) xs1 Set.univ _)
  isplitl [H0]; · iexact H0
  isplitl [H2]; · iexact H2
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HS0]; · iexact HS0
  isplitl [HS1]; · iexact HS1
  iintro ⟨H0, H2, H1, H3, H4, H5, H6, H7, H8, H9, H10, H12, HS0, ⟨%X', %hX', HS1⟩⟩
  isplitl [HS0 HS1 Hg]
  · iexists X'; isplitr; · ipureintro; exact sweep_first m c d1 d12 xs1 X' hX'
    isplitl [HS0]; · iexact HS0
    isplitl [HS1]; · iexact HS1
    iexact Hg
  isplitl [Ho]; · iexact Ho
  isplitl [H0]
  · iexists _; isplitr; · ipureintro; exact after_in_0 m c t0 _
    iexact H0
  isplitl [H1]
  · iexists _; isplitr; · ipureintro; exact after_in_1 m c t0 _
    iexact H1
  isplitl [H2]
  · iexists _; isplitr; · ipureintro; exact after_in_2 m c t0 _
    iexact H2
  isplitl [H3]
  · iexists _; isplitr; · ipureintro; exact after_in_3 m c t0 _
    iexact H3
  isplitl [H4]
  · iexists _; isplitr; · ipureintro; exact after_in_4 m c t0 _
    iexact H4
  isplitl [H5]
  · iexists _; isplitr; · ipureintro; exact after_in_5 m c t0 _
    iexact H5
  isplitl [H6]
  · iexists _; isplitr; · ipureintro; exact after_in_6 m c t0 _
    iexact H6
  isplitl [H7]
  · iexists _; isplitr; · ipureintro; exact after_in_7 m c t0 _
    iexact H7
  isplitl [H8]
  · iexists _; isplitr; · ipureintro; exact after_in_8 m c t0 _
    iexact H8
  isplitl [H9]
  · iexists _; isplitr; · ipureintro; exact after_in_9 m c t0 _
    iexact H9
  isplitl [H10]
  · iexists _; isplitr; · ipureintro; exact after_in_10 m c t0 _
    iexact H10
  isplitl [H11]
  · iexists _; isplitr; · ipureintro; exact after_in_11 m c t0 _
    iexact H11
  isplitl [H12]
  · iexists _; isplitr; · ipureintro; exact after_in_12 m c t0 _
    iexact H12
  iexists _; isplitr; · ipureintro; exact after_13_one m c t0 (by decide) _
  iexact H13

set_option maxHeartbeats 4000000 in
/-- The other points of the first sweep. -/
theorem sound_B (c : Dev nD) (t : Fin cfg0.N) (h0 : t.val ≠ 0) (h21 : t.val < 21) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_one m c t.val h0 (by omega),
    show (rdat m c).Φ t.succ = Phi m c (t.val + 1) from rfl, Phi_one m c (t.val + 1) (by omega) (by omega)]
  iintro ⟨⟨%X1, %hX1, HS0, HS1, Hg⟩, Ho, H0, H1, H2, H3, H4, H5, H6, H7, H8, H9, H10, H11, H12, H13⟩
  iapply (runB c (grid0.coords t) _ _ _ _ _ _ _ _ _ _ _ _ _ _ _ _ _ _ _ _ _ _ _ _ _ _ _ _ _ _ _ _ (fun h => h0 ((cnd1_iff t).mp h)) (fun h => absurd ((cnd2_iff t).mp h) (by omega))
    ((cnd3_iff t).mpr h21) (fun h => absurd ((cnd4_iff t).mp h) (by omega))
    (adjGot m c t d1) (Gen.iblk m c 3 t) (Gen.iblk m c 4 t) (Gen.iblk m c 5 t) (Gen.iblk m c 6 t) (Gen.iblk m c 7 t) (Gen.iblk m c 8 t) (Gen.iblk m c 9 t) (Gen.iblk m c 10 t) (epsGot m c t d12) (rhsOne m c) X1 Set.univ _)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HS0]; · iexact HS0
  isplitl [HS1]; · iexact HS1
  iintro ⟨H1, H3, H4, H5, H6, H7, H8, H9, H10, H12, HS0, ⟨%X', %hX', HS1⟩⟩
  isplitl [HS0 HS1 Hg]
  · iexists X'; isplitr; · ipureintro; exact sweep_next m c t h21 d1 d12 X1 X' hX1 hX'
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_one m c t h21 _
  iexact H13

set_option maxHeartbeats 4000000 in
/-- The first point of the second sweep. -/
theorem sound_C (c : Dev nD) (t : Fin cfg0.N) (ht : t.val = 21) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_one m c t.val (by omega) (by omega),
    show (rdat m c).Φ t.succ = Phi m c (t.val + 1) from rfl, Phi_two m c (t.val + 1) (by omega)]
  iintro ⟨⟨%X1, %hX1, HS0, HS1, Hg⟩, Ho, H0, H1, H2, H3, H4, H5, H6, H7, H8, H9, H10, H11, H12, H13⟩
  have hX21 : SweepOne m c 21 X1 := ht ▸ hX1
  iapply (runC c (grid0.coords t) _ _ _ _ _ _ _ _ _ _ _ _ _ _ _ _ _ _ _ _ _ _ _ _ _ _ _ _ _ _ _ _ (fun h => absurd ((cnd1_iff t).mp h) (by omega)) ((cnd2_iff t).mpr ht) (fun h => absurd ((cnd3_iff t).mp h) (by omega)) ((cnd4_iff t).mpr (by omega))
    (adjGot m c t d1) (Gen.iblk m c 11 t) X1 Set.univ _)
  isplitl [H1]; · iexact H1
  isplitl [H11]; · iexact H11
  isplitl [H13]; · iexists _; iexact H13
  isplitl [HS0]; · iexists _; iexact HS0
  isplitl [HS1]; · iexact HS1
  iintro ⟨H1, H11, H13, HS0, HS1⟩
  isplitl [HS0 HS1 Hg]
  · iexists X1; isplitr; · ipureintro; exact hX21
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_two m c t (by omega) _ _ ⟨X1, d1, hX21, rfl⟩
  iexact H13

set_option maxHeartbeats 4000000 in
/-- The other points of the second sweep. -/
theorem sound_D (c : Dev nD) (t : Fin cfg0.N) (ht : 21 < t.val) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_two m c t.val ht,
    show (rdat m c).Φ t.succ = Phi m c (t.val + 1) from rfl, Phi_two m c (t.val + 1) (by omega)]
  iintro ⟨⟨%X1, %hX1, HS0, HS1, Hg⟩, Ho, H0, H1, H2, H3, H4, H5, H6, H7, H8, H9, H10, H11, H12, H13⟩
  iapply (runD c (grid0.coords t) _ _ _ _ _ _ _ _ _ _ _ _ _ _ _ _ _ _ _ _ _ _ _ _ _ _ _ _ _ _ _ _ (fun h => absurd ((cnd1_iff t).mp h) (by omega)) (fun h => absurd ((cnd2_iff t).mp h) (by omega)) (fun h => absurd ((cnd3_iff t).mp h) (by omega)) ((cnd4_iff t).mpr (by omega))
    (adjGot m c t d1) (Gen.iblk m c 11 t) (k0_pay2 (headRows X1)) Set.univ _)
  isplitl [H1]; · iexact H1
  isplitl [H11]; · iexact H11
  isplitl [H13]; · iexists _; iexact H13
  isplitl [HS0]; · iexact HS0
  iintro ⟨H1, H11, H13, HS0⟩
  isplitl [HS0 HS1 Hg]
  · iexists X1; isplitr; · ipureintro; exact hX1
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_two m c t (by omega) _ _ ⟨X1, d1, hX1, rfl⟩
  iexact H13

/-- The body at any point. -/
theorem sound_body (c : Dev nD) (t : Fin cfg0.N) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  by_cases h0 : t.val = 0
  · exact sound_A m c t h0 d1 d12 Y13
  by_cases h21 : t.val < 21
  · exact sound_B m c t h0 h21 d1 d12 Y13
  by_cases h : t.val = 21
  · exact sound_C m c t h d1 d12 Y13
  · exact sound_D m c t (by omega) d1 d12 Y13

/-- The library's body obligation over the relational proof data: whatever the buffers may hold when the body is
    called, the inputs' hold their fetched blocks. -/
theorem body_obligation (c : Dev nD) : (rdat m c).BodyObligation (defs₀ (F := F)) Variants.none () Set.univ := fun t Y hY => by
  rw [bigSep_W0, bigSep_W0]
  have e0 := finds_0 m c t _ (hY 0)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have e9 := finds_9 m c t _ (hY 9)
  have e10 := finds_10 m c t _ (hY 10)
  have e11 := finds_11 m c t _ (hY 11)
  obtain ⟨d1, e1⟩ := finds_1 m c t _ (hY 1)
  obtain ⟨d12, e12⟩ := finds_12 m c t _ (hY 12)
  rw [e0, e1, e2, e3, e4, e5, e6, e7, e8, e9, e10, e11, e12]
  exact sound_body m c t d1 d12 (Y 13)

theorem hin (c : Dev nD) : Pipeline.ΦA spec0 c ⊢ (rdat m c).Φ 0 := by
  rw [show (rdat m c).Φ 0 = Pipeline.ΦA spec0 c from rfl]
  try exact Idealize.SL.BI.Entails.refl _

theorem hout (c : Dev nD) : (rdat m c).Φ (Fin.last cfg0.N) ⊢ Pipeline.ΦA spec0 c := by
  rw [show (rdat m c).Φ (Fin.last cfg0.N) = Phi m c 42 from rfl, Phi_two m c 42 (by decide), PhiA_eq]
  iintro ⟨%X1, %hX1, HS0, HS1, Hg⟩
  isplitl [HS0 HS1]
  · isplitl [HS0]
    · iexists _; iexact HS0
    · iexists _; iexact HS1
  iexact Hg

set_option backward.isDefEq.respectTransparency.types false in
/-- At the compiled mesh, for any values, from any memory with zero counters: every weakly fair execution of @main
    terminates, every array of the pipeline ends at contents the relational data allows after every write-back, and
    every other unscoped buffer ends as the region found it. -/
theorem run_main : θ_run defs (onTc (τ := τ) (main (F := F))) (s₀ m ρ) (Pipeline.RDat.FramePost cfg0 (rdat m) (Gen.V m)) :=
  Pipeline.RDat.θ_run_frame_track cfgs (0 : Fin 1) launch0 defs₀ Variants.none (rdat m) m ρ main
    (hbody := body_obligation m) (hshare := fun c => (rdat m c).share_full fun _ => rfl) (howed := fun _ _ => rfl)
    (V := Gen.V m) (hmain := Gen.hmain m Variants.none) (hA := A_eq m) (hin := hin m) (hout := hout m)

/-- An input's array is never written. -/
theorem in_kept (c : Dev nD) (w : Fin cfg0.W) (hw : (cfg0.win w).isOut = false) (G) (h : (rdat m c).ArrAt w cfg0.N G) :
    G = (rdat m c).A w := by
  rw [(rdat m c).ArrAt_in w hw] at h; exact h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(in_kept m c 0 rfl _ ((h c).1 0)).trans ((A_eq m c 0).trans (Gen.V_main_arg0 m c)),
      (in_kept m c 1 rfl _ ((h c).1 1)).trans ((A_eq m c 1).trans (Gen.V_main_arg1 m c)),
      (in_kept m c 2 rfl _ ((h c).1 2)).trans ((A_eq m c 2).trans (Gen.V_main_arg2 m c)),
      ((h c).2 main_arg3 (Pipeline.mem_restRefs_of main_arg3 (by decide) (by decide))).trans (Gen.V_main_arg3 m c),
      (in_kept m c 4 rfl _ ((h c).1 4)).trans ((A_eq m c 4).trans (Gen.V_main_arg4 m c)),
      ((h c).2 main_arg5 (Pipeline.mem_restRefs_of main_arg5 (by decide) (by decide))).trans (Gen.V_main_arg5 m c),
      (in_kept m c 6 rfl _ ((h c).1 6)).trans ((A_eq m c 6).trans (Gen.V_main_arg6 m c)),
      ((h c).2 main_arg7 (Pipeline.mem_restRefs_of main_arg7 (by decide) (by decide))).trans (Gen.V_main_arg7 m c),
      (in_kept m c 8 rfl _ ((h c).1 8)).trans ((A_eq m c 8).trans (Gen.V_main_arg8 m c)),
      ((h c).2 main_arg9 (Pipeline.mem_restRefs_of main_arg9 (by decide) (by decide))).trans (Gen.V_main_arg9 m c),
      (in_kept m c 10 rfl _ ((h c).1 10)).trans ((A_eq m c 10).trans (Gen.V_main_arg10 m c)),
      ((h c).2 main_arg11 (Pipeline.mem_restRefs_of main_arg11 (by decide) (by decide))).trans (Gen.V_main_arg11 m c),
      (in_kept m c 12 rfl _ ((h c).1 12)).trans ((A_eq m c 12).trans (Gen.V_main_arg12 m c))⟩) (run_main m ρ)

end Cert.KernelIdeal.Body

end
-- ==== Proof.BodyRunsK.lean ====
/-
  The kernel body, run once per control case.

  The grid has two sweeps of 21 points over the adjacency's row blocks. The body branches four times on the grid
  coordinates, and the grid meets four assignments of the branches: the first point of the first sweep (fill the
  right-hand scratch with the feature product, then do a first-sweep step), the other first-sweep points (multiply
  the adjacency block with the right-hand scratch, run the dense head, store 480 rows into the 10080-row scratch),
  the first point of the second sweep (refill the right-hand scratch from the 10080-row scratch, then do a
  second-sweep step) and the other second-sweep points (multiply, add the bias, store the row-wise log-softmax
  into the output's buffer). Each theorem below is the body's weakest-precondition triple in one case, at any float
  instance, over arbitrary whole staging buffers: what each buffer holds afterwards is stated through the body's
  named pure payloads.
-/
import proofs.«156255_g28346784154176_retrytranche2_455_35_alg».proof.Proof.Gen.Kernel.Frame
import proofs.«156255_g28346784154176_retrytranche2_455_35_alg».proof.Proof.Gen.Kernel.Skeleton
import Idealize.ShloMosaic.Lib.Pipeline.Value
import Idealize.ShloMosaic.Lib.WritesUnit
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The four branch conditions of the body as propositions over the grid coordinates. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cnd2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev cnd3 (i : grid0.Coords) : Prop := k0_cond3 i = 1#1
abbrev cnd4 (i : grid0.Coords) : Prop := k0_cond4 i = 1#1

/-- The zero offsets of a rank-2 rectangle, as the constant function. -/
theorem off00 : (![0, 0] : Fin 2 → Nat) = fun _ => 0 := funext fun a => by fin_cases a <;> rfl

/-- Rows 0..9999 of the 10080-row scratch, as the body loads them at the first point of the second sweep. -/
abbrev headRows (xs1 : Vec F S10080x16 .f32) : Vec F S10000x16 .f32 :=
  View.ld xs1 (Rect.unit (s := S10080x16) ![0, 0] S10000x16.size Gen.inb_S10080x16_S10000x16_0_0)

/-- One unmasked store through the whole-shape rectangle at zero offsets leaves its payload, whatever the buffer held. -/
theorem read_store_whole {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- `X'` is `X` with the 480 rows from row `o` on replaced by the block `w`. -/
def rowsPut (o : ℕ) (X : Vec F S10080x16 .f32) (w : Vec F S480x16 .f32) (X' : Vec F S10080x16 .f32) : Prop :=
  (∀ (y : S10080x16.Idx) (x : S480x16.Idx), (y 0).val = o + (x 0).val → (y 1).val = (x 1).val → X' y = w x)
    ∧ ∀ y : S10080x16.Idx, ((y 0).val < o ∨ o + 480 ≤ (y 0).val) → X' y = X y

/-- Rows 0..63 and rows 64..127 of the last weight matrix, as the body loads them. -/
abbrev wTop (x10 : Vec F S128x16 .f32) : Vec F S64x16 .f32 :=
  View.ld x10 (Rect.unit (s := S128x16) ![0, 0] S64x16.size Gen.inb_S128x16_S64x16_0_0)
abbrev wBot (x10 : Vec F S128x16 .f32) : Vec F S64x16 .f32 :=
  View.ld x10 (Rect.unit (s := S128x16) ![64, 0] S64x16.size Gen.inb_S128x16_S64x16_64_0)

/-- What a point of the first sweep stores into its 480 rows of the 10080-row scratch: from the adjacency block
    `x1`, the right-hand scratch `s`, the weights and biases, and the noise block `x12`. -/
def sweepOneRows (x1 : Vec F S480x10000 .f32) (s : Vec F S10000x64 .f32) (x3 : Vec F S1x64 .f32) (x4 : Vec F S64x32 .f32) (x5 : Vec F S1x32 .f32)
    (x6 : Vec F S64x32 .f32) (x7 : Vec F S1x32 .f32) (x8 : Vec F S32x64 .f32) (x9 : Vec F S1x64 .f32) (x10 : Vec F S128x16 .f32)
    (x12 : Vec F S480x32 .f32) : Vec F S480x16 .f32 :=
  k0_pay4 (k0_pay6 (k0_pay3 x1 s) x3) (k0_pay7 (k0_pay3 x1 s) x3 x4 x5 x6 x7 x12 x8 x9 (wTop x10)) (wBot x10)
    (constant S480x16 .f32 0x00000000#32)

/-- A point of the second sweep other than its first: the body multiplies the adjacency block with the
    right-hand scratch, adds the bias, and stores the row-wise log-softmax of the first sixteen columns into the
    output's buffer; the scratch and the inputs are left as found. -/
theorem runD (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : ¬cnd2 i) (h3 : ¬cnd3 i) (h4 : cnd4 i)
    (x1 : Vec F S480x10000 .f32) (x11 : Vec F S1x16 .f32) (xs0 : Vec F S10000x64 .f32) (E : Set ℕ) (K : PUnit → sProp 𝕄) :
    iprop(owns (c : Thread nD τ) arg3 fullShare x1 ∗ owns (c : Thread nD τ) arg13 fullShare x11 ∗ (∃ d, owns (c : Thread nD τ) arg15 fullShare d) ∗ owns (c : Thread nD τ) arg16 fullShare xs0
        ∗ (iprop(owns (c : Thread nD τ) arg3 fullShare x1 ∗ owns (c : Thread nD τ) arg13 fullShare x11 ∗ owns (c : Thread nD τ) arg15 fullShare (k0_pay5 x1 xs0 x11) ∗ owns (c : Thread nD τ) arg16 fullShare xs0) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f11, %hf11, H11⟩, ⟨%d13, %f13, %hf13, H13⟩, ⟨%fs0, %hfs0, HS0⟩, Hk⟩
  obtain rfl := harg3.eq_unread hf1; obtain rfl := harg13.eq_unread hf11; obtain rfl := harg16.eq_unread hfs0
  sl_exec (disch := first | exact h1 | exact h2 | exact h3 | exact h4)
  sl_step
  iapply Hk
  isplitl [H1]
  · iexists _; isplitr; · ipureintro; exact hf1
    iexact H1
  isplitl [H11]
  · iexists _; isplitr; · ipureintro; exact hf11
    iexact H11
  isplitl [H13]
  · iexists _; isplitr
    swap; · iexact H13
    ipureintro
    refine (read_store_whole _ _ off00 _ _).trans ?_
    repeat rw [View.readAt_eq_ld]
    rw [hf1, hf11, hfs0, View.ld_unit_zero (S := S480x10000) off00, View.ld_unit_zero (S := S10000x64) off00,
      View.ld_unit_zero (S := S1x16) off00]
  · iexists _; isplitr; · ipureintro; exact hfs0
    iexact HS0

/-- The first point of the second sweep: the body first refills the right-hand scratch with the first 10000 rows
    of the 10080-row scratch padded with 48 zero columns, then proceeds as at the other points of the sweep. -/
theorem runC (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : cnd2 i) (h3 : ¬cnd3 i) (h4 : cnd4 i)
    (x1 : Vec F S480x10000 .f32) (x11 : Vec F S1x16 .f32) (xs1 : Vec F S10080x16 .f32) (E : Set ℕ) (K : PUnit → sProp 𝕄) :
    iprop(owns (c : Thread nD τ) arg3 fullShare x1 ∗ owns (c : Thread nD τ) arg13 fullShare x11 ∗ (∃ d, owns (c : Thread nD τ) arg15 fullShare d) ∗ (∃ d, owns (c : Thread nD τ) arg16 fullShare d)
        ∗ owns (c : Thread nD τ) arg17 fullShare xs1
        ∗ (iprop(owns (c : Thread nD τ) arg3 fullShare x1 ∗ owns (c : Thread nD τ) arg13 fullShare x11 ∗ owns (c : Thread nD τ) arg15 fullShare (k0_pay5 x1 (k0_pay2 (headRows xs1)) x11)
            ∗ owns (c : Thread nD τ) arg16 fullShare (k0_pay2 (headRows xs1)) ∗ owns (c : Thread nD τ) arg17 fullShare xs1) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f11, %hf11, H11⟩, ⟨%d13, %f13, %hf13, H13⟩, ⟨%ds0, %fs0, %hfs0, HS0⟩, ⟨%fs1, %hfs1, HS1⟩, Hk⟩
  obtain rfl := harg3.eq_unread hf1; obtain rfl := harg13.eq_unread hf11; obtain rfl := harg17.eq_unread hfs1
  sl_exec (disch := first | exact h1 | exact h2 | exact h3 | exact h4)
  sl_step
  iapply Hk
  isplitl [H1]
  · iexists _; isplitr; · ipureintro; exact hf1
    iexact H1
  isplitl [H11]
  · iexists _; isplitr; · ipureintro; exact hf11
    iexact H11
  isplitl [H13]
  · iexists _; isplitr
    swap; · iexact H13
    ipureintro
    sl_unfold_run_names
    refine (read_store_whole _ _ off00 _ _).trans ?_
    rw [View.readCov_unit_zero _ off00]
    repeat rw [View.readAt_eq_ld]
    rw [hf1, hf11, hfs1, View.ld_unit_zero (S := S480x10000) off00, View.ld_unit_zero (S := S1x16) off00]
  isplitl [HS0]
  · iexists _; isplitr
    swap; · iexact HS0
    ipureintro
    sl_unfold_run_names
    refine (read_store_whole _ _ off00 _ _).trans ?_
    rw [View.readAt_eq_ld, hfs1]
  · iexists _; isplitr; · ipureintro; exact hfs1
    iexact HS1

set_option maxHeartbeats 2000000 in
/-- A point of the first sweep other than its first: the body multiplies the adjacency block with the right-hand
    scratch, runs the dense head on the product, and stores the resulting 480 rows into the 10080-row scratch at the
    point's row offset; everything else is left as found. -/
theorem runB (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : ¬cnd1 i) (h2 : ¬cnd2 i) (h3 : cnd3 i) (h4 : ¬cnd4 i)
    (x1 : Vec F S480x10000 .f32) (x3 : Vec F S1x64 .f32) (x4 : Vec F S64x32 .f32) (x5 : Vec F S1x32 .f32) (x6 : Vec F S64x32 .f32) (x7 : Vec F S1x32 .f32)
    (x8 : Vec F S32x64 .f32) (x9 : Vec F S1x64 .f32) (x10 : Vec F S128x16 .f32) (x12 : Vec F S480x32 .f32)
    (xs0 : Vec F S10000x64 .f32) (xs1 : Vec F S10080x16 .f32) (E : Set ℕ) (K : PUnit → sProp 𝕄) :
    iprop(owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare xs0 ∗ owns (c : Thread nD τ) arg17 fullShare xs1
        ∗ (iprop(owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare xs0
            ∗ (∃ X', ⌜rowsPut ((k0_off1 i) 0) xs1 (sweepOneRows x1 xs0 x3 x4 x5 x6 x7 x8 x9 x10 x12) X'⌝ ∗ owns (c : Thread nD τ) arg17 fullShare X')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%fs0, %hfs0, HS0⟩, ⟨%fs1, %hfs1, HS1⟩, Hk⟩
  obtain rfl := harg3.eq_unread hf1; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  obtain rfl := harg12.eq_unread hf10; obtain rfl := harg14.eq_unread hf12; obtain rfl := harg16.eq_unread hfs0; obtain rfl := harg17.eq_unread hfs1
  sl_exec (disch := first | exact h1 | exact h2 | exact h3 | exact h4)
  sl_step
  iapply Hk
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H12]
  · iexists _; isplitr; · ipureintro; exact hf12
    iexact H12
  isplitl [HS0]
  · iexists _; isplitr; · ipureintro; exact hfs0
    iexact HS0
  iexists _; isplitr
  swap
  · iexists _; isplitr
    swap; · iexact HS1
    ipureintro; rfl
  ipureintro
  have hoff : k0_off1 i = ![(k0_off1 i) 0, 0] := rfl
  refine ⟨fun y x hy0 hy1 => ?_, fun y hy => ?_⟩
  · refine (View.read_writes_cons_rows_of_mem _ _ _ _ [] y x hoff hy0 hy1).trans ?_
    sl_unfold_run_names
    unfold sweepOneRows
    simp only [View.readAt_eq_ld, hf1, hf3, hf4, hf5, hf6, hf7, hf8, hf9, hf10, hf12, hfs0,
      View.ld_unit_zero (S := S480x10000) off00, View.ld_unit_zero (S := S10000x64) off00, View.ld_unit_zero (S := S1x64) off00,
      View.ld_unit_zero (S := S64x32) off00, View.ld_unit_zero (S := S1x32) off00, View.ld_unit_zero (S := S480x32) off00,
      View.ld_unit_zero (S := S32x64) off00]
    try rfl
  · refine (View.read_writes_cons_rows_of_not_mem (W := 480) _ _ _ _ [] y hoff rfl hy).trans ?_
    rw [View.writes_nil, hfs1]

set_option maxHeartbeats 2000000 in
/-- The first point of the first sweep: the body first fills the right-hand scratch with the product of the feature
    matrix and the first weight matrix, then proceeds as at the other points of the sweep, reading that product back. -/
theorem runA (c : Dev nD) (i : grid0.Coords) (arg2 : Memref sig .tc .vmem S10000x128 .f32) (harg2 : arg2.IsWhole) (arg3 : Memref sig .tc .vmem S480x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x64 .f32) (harg10 : arg10.IsWhole) (arg11 : Memref sig .tc .vmem S1x64 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S480x32 .f32) (harg14 : arg14.IsWhole) (arg15 : Memref sig .tc .vmem S480x16 .f32) (harg15 : arg15.IsWhole) (arg16 : Memref sig .tc .vmem S10000x64 .f32) (harg16 : arg16.IsWhole) (arg17 : Memref sig .tc .vmem S10080x16 .f32) (harg17 : arg17.IsWhole)
    (h1 : cnd1 i) (h2 : ¬cnd2 i) (h3 : cnd3 i) (h4 : ¬cnd4 i)
    (x0 : Vec F S10000x128 .f32) (x2 : Vec F S128x64 .f32) (x1 : Vec F S480x10000 .f32) (x3 : Vec F S1x64 .f32) (x4 : Vec F S64x32 .f32) (x5 : Vec F S1x32 .f32) (x6 : Vec F S64x32 .f32) (x7 : Vec F S1x32 .f32)
    (x8 : Vec F S32x64 .f32) (x9 : Vec F S1x64 .f32) (x10 : Vec F S128x16 .f32) (x12 : Vec F S480x32 .f32)
    (xs1 : Vec F S10080x16 .f32) (E : Set ℕ) (K : PUnit → sProp 𝕄) :
    iprop(owns (c : Thread nD τ) arg2 fullShare x0 ∗ owns (c : Thread nD τ) arg4 fullShare x2 ∗ owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ (∃ d, owns (c : Thread nD τ) arg16 fullShare d) ∗ owns (c : Thread nD τ) arg17 fullShare xs1
        ∗ (iprop(owns (c : Thread nD τ) arg2 fullShare x0 ∗ owns (c : Thread nD τ) arg4 fullShare x2 ∗ owns (c : Thread nD τ) arg3 fullShare x1 ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8 ∗ owns (c : Thread nD τ) arg11 fullShare x9
        ∗ owns (c : Thread nD τ) arg12 fullShare x10 ∗ owns (c : Thread nD τ) arg14 fullShare x12 ∗ owns (c : Thread nD τ) arg16 fullShare (k0_pay1 x0 x2)
            ∗ (∃ X', ⌜rowsPut ((k0_off1 i) 0) xs1 (sweepOneRows x1 (k0_pay1 x0 x2) x3 x4 x5 x6 x7 x8 x9 x10 x12) X'⌝ ∗ owns (c : Thread nD τ) arg17 fullShare X')) -∗ K ⟨⟩))
      ⊢ wp frame (wpE (defs₀ (F := F)) Variants.none c none) E (cc0__fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f0, %hf0, H0⟩, ⟨%f2, %hf2, H2⟩, ⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f12, %hf12, H12⟩, ⟨%ds0, %fs0, %hfs0, HS0⟩, ⟨%fs1, %hfs1, HS1⟩, Hk⟩
  obtain rfl := harg2.eq_unread hf0; obtain rfl := harg4.eq_unread hf2
  obtain rfl := harg3.eq_unread hf1; obtain rfl := harg5.eq_unread hf3; obtain rfl := harg6.eq_unread hf4; obtain rfl := harg7.eq_unread hf5
  obtain rfl := harg8.eq_unread hf6; obtain rfl := harg9.eq_unread hf7; obtain rfl := harg10.eq_unread hf8; obtain rfl := harg11.eq_unread hf9
  obtain rfl := harg12.eq_unread hf10; obtain rfl := harg14.eq_unread hf12; obtain rfl := harg17.eq_unread hfs1
  sl_exec (disch := first | exact h1 | exact h2 | exact h3 | exact h4)
  sl_step
  iapply Hk
  isplitl [H0]
  · iexists _; isplitr; · ipureintro; exact hf0
    iexact H0
  isplitl [H2]
  · iexists _; isplitr; · ipureintro; exact hf2
    iexact H2
  isplitl [H1]
  · iexists _; isplitr; · ipureintro; exact hf1
    iexact H1
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H12]
  · iexists _; isplitr; · ipureintro; exact hf12
    iexact H12
  isplitl [HS0]
  · iexists _; isplitr
    swap; · iexact HS0
    ipureintro
    sl_unfold_run_names
    refine (read_store_whole _ _ off00 _ _).trans ?_
    simp only [View.readAt_eq_ld, hf0, hf2, View.ld_unit_zero (S := S10000x128) off00, View.ld_unit_zero (S := S128x64) off00]
  iexists _; isplitr
  swap
  · iexists _; isplitr
    swap; · iexact HS1
    ipureintro; rfl
  ipureintro
  have hoff : k0_off1 i = ![(k0_off1 i) 0, 0] := rfl
  refine ⟨fun y x hy0 hy1 => ?_, fun y hy => ?_⟩
  · refine (View.read_writes_cons_rows_of_mem _ _ _ _ [] y x hoff hy0 hy1).trans ?_
    sl_unfold_run_names
    unfold sweepOneRows
    simp only [View.readCov_unit_zero (S := S10000x64) _ off00, View.readAt_eq_ld, hf0, hf2, hf1, hf3, hf4, hf5, hf6, hf7, hf8, hf9, hf10, hf12,
      View.ld_unit_zero (S := S10000x128) off00, View.ld_unit_zero (S := S128x64) off00,
      View.ld_unit_zero (S := S480x10000) off00, View.ld_unit_zero (S := S10000x64) off00, View.ld_unit_zero (S := S1x64) off00,
      View.ld_unit_zero (S := S64x32) off00, View.ld_unit_zero (S := S1x32) off00, View.ld_unit_zero (S := S480x32) off00,
      View.ld_unit_zero (S := S32x64) off00]
    try rfl
  · refine (View.read_writes_cons_rows_of_not_mem (W := 480) _ _ _ _ [] y hoff rfl hy).trans ?_
    rw [View.writes_nil, hfs1]

end Cert.Kernel.Body

end
-- ==== Proof.FrameRunK.lean ====
/-
  The proof data of the pipeline and its frame run.

  The two sweeps communicate through two scratch buffers, so the invariant between points names what they hold: the
  right-hand scratch holds the feature product during the first sweep and the padded first 10000 rows of the
  10080-row scratch during the second; the 10080-row scratch holds, for every first-sweep point already run, the 480
  rows that point stored. The adjacency's and the noise's row blocks overhang their arrays at the last block of a
  sweep, where a fetch leaves words nothing names past the array's end; so the data are relational: an input's
  buffer is left as found, and the output's buffer after a second-sweep point is the body's log-softmax payload of
  SOME filling of the adjacency block's overhang. From the body obligation at every point the library's frame run
  gives termination, no fault, and every argument array unchanged.
-/
import proofs.«156255_g28346784154176_retrytranche2_455_35_alg».proof.Proof.Gen.Kernel.Frame
import proofs.«156255_g28346784154176_retrytranche2_455_35_alg».proof.Proof.Gen.Kernel.Skeleton
import proofs.«156255_g28346784154176_retrytranche2_455_35_alg».proof.Proof.BodyRunsK
import Idealize.ShloMosaic.Lib.Pipeline.Value
import Idealize.ShloMosaic.Lib.WritesUnit
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the row offset, decided over the 42 grid points

Points 0..20 are the first sweep over the adjacency's row blocks, points 21..41 the second. -/

theorem cnd1_iff : ∀ t : Fin cfg0.N, cnd1 (grid0.coords t) ↔ t.val = 0 :=
  (by decide +kernel : ∀ t : Fin grid0.N, cnd1 (grid0.coords t) ↔ t.val = 0)
theorem cnd2_iff : ∀ t : Fin cfg0.N, cnd2 (grid0.coords t) ↔ t.val = 21 :=
  (by decide +kernel : ∀ t : Fin grid0.N, cnd2 (grid0.coords t) ↔ t.val = 21)
theorem cnd3_iff : ∀ t : Fin cfg0.N, cnd3 (grid0.coords t) ↔ t.val < 21 :=
  (by decide +kernel : ∀ t : Fin grid0.N, cnd3 (grid0.coords t) ↔ t.val < 21)
theorem cnd4_iff : ∀ t : Fin cfg0.N, cnd4 (grid0.coords t) ↔ 21 ≤ t.val :=
  (by decide +kernel : ∀ t : Fin grid0.N, cnd4 (grid0.coords t) ↔ 21 ≤ t.val)
/-- A point of the first sweep stores its rows at row 480 · (its number). -/
theorem rowOff : ∀ t : Fin cfg0.N, t.val < 21 → (k0_off1 (grid0.coords t)) 0 = 480 * t.val :=
  (by decide +kernel : ∀ t : Fin grid0.N, t.val < 21 → (k0_off1 (grid0.coords t)) 0 = 480 * t.val)

/-! ## The scratch operands and the class invariant over them -/

abbrev scM0 : Memref sig .tc .vmem S10000x64 .f32 := Memref.whole cc0_scratch0
abbrev scM1 : Memref sig .tc .vmem S10080x16 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the buffers hold

The adjacency's and the noise's row blocks may overhang their arrays at the last block of a sweep: a fetch there
leaves the rows inside the array in the buffer's leading rows and words nothing names (`d`) in the rest. -/

/-- The first grid point. -/
abbrev t0 : Fin cfg0.N := ⟨0, by decide⟩

/-- The adjacency's buffer after the fetch at point `t`. -/
def adjGot (c : Dev nD) (t : Fin cfg0.N) (d : Vec F S480x10000 .f32) : Vec F S480x10000 .f32 :=
  win0_1.fill (grid0.coords t) d (Gen.iblk m c 1 t)
/-- The noise's buffer after the fetch at point `t`. -/
def epsGot (c : Dev nD) (t : Fin cfg0.N) (d : Vec F S480x32 .f32) : Vec F S480x32 .f32 :=
  win0_12.fill (grid0.coords t) d (Gen.iblk m c 12 t)

/-- The right-hand scratch during the first sweep: the product of the feature matrix and the first weight matrix. -/
def rhsOne (c : Dev nD) : Vec F S10000x64 .f32 := k0_pay1 (Gen.iblk m c 0 t0) (Gen.iblk m c 2 t0)

/-- The 480 rows point `j` of the first sweep stores, for fillers `d1`, `d12` of the two clipped fetches. -/
def rowsOf (c : Dev nD) (j : Fin cfg0.N) (d1 : Vec F S480x10000 .f32) (d12 : Vec F S480x32 .f32) : Vec F S480x16 .f32 :=
  sweepOneRows (adjGot m c j d1) (rhsOne m c) (Gen.iblk m c 3 j) (Gen.iblk m c 4 j) (Gen.iblk m c 5 j) (Gen.iblk m c 6 j)
    (Gen.iblk m c 7 j) (Gen.iblk m c 8 j) (Gen.iblk m c 9 j) (Gen.iblk m c 10 j) (epsGot m c j d12)

/-- The 10080-row scratch before point `n` of the first sweep: each earlier point's 480 rows hold what it stored. -/
def SweepOne (c : Dev nD) (n : ℕ) (X1 : Vec F S10080x16 .f32) : Prop :=
  ∀ j : Fin cfg0.N, j.val < n → j.val < 21 → ∃ d1 d12, ∀ (y : S10080x16.Idx) (x : S480x16.Idx),
    (y 0).val = 480 * j.val + (x 0).val → (y 1).val = (x 1).val → X1 y = rowsOf m c j d1 d12 x

/-- What a point `t` of the second sweep leaves in the output's buffer. -/
def OutRel (c : Dev nD) (t : Fin cfg0.N) (X : Vec F S480x16 .f32) : Prop :=
  ∃ (X1 : Vec F S10080x16 .f32) (d1 : Vec F S480x10000 .f32), SweepOne m c 21 X1 ∧
    X = k0_pay5 (adjGot m c t d1) (k0_pay2 (headRows X1)) (Gen.iblk m c 11 t)

/-- The invariant before position `n`: before the first point the class's; during the first sweep the right-hand
    scratch at the feature product and the 10080-row scratch filled up to the point; during the second the
    right-hand scratch at the padded first 10000 rows of the filled 10080-row scratch. -/
def Phi (c : Dev nD) : ℕ → sProp 𝕄
  | 0 => Pipeline.ΦA spec0 c
  | n + 1 =>
    if n + 1 ≤ 21 then
      iprop(∃ X1, ⌜SweepOne m c (n + 1) X1⌝ ∗ owns (c : Thread nD τ) scM0 fullShare (rhsOne m c)
        ∗ owns (c : Thread nD τ) scM1 fullShare X1 ∗ (∃ r, prngReg c r))
    else
      iprop(∃ X1, ⌜SweepOne m c 21 X1⌝ ∗ owns (c : Thread nD τ) scM0 fullShare (k0_pay2 (headRows X1))
        ∗ owns (c : Thread nD τ) scM1 fullShare X1 ∗ (∃ r, prngReg c r))

/-- The relational proof data of the one pipeline on core `c`: every input's buffer is left as found; the output's
    is left as found during the first sweep and in `OutRel` during the second. -/
def rdat (c : Dev nD) : RDat τ (Elt F) Unit ℕ (UR sig nD τ) ℕ cfg0 c where
  A w := Gen.V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => if t.val < 21 then X = Y else OutRel m c t X
    | ⟨_ + 14, h⟩ => absurd h (Nat.not_lt.2 (Nat.le_add_left _ _))
  Φ n := Phi m c n.val
  q _ := fullShare
  owed _ := 0

theorem A_eq (c : Dev nD) (w : Fin cfg0.W) : (rdat m c).A w = Gen.V m c (Pipeline.arrRef spec0 w) := by
  dsimp only [rdat]

/-! ## What the body finds in the inputs' buffers -/

theorem finds_0 (c : Dev nD) (t : Fin cfg0.N) (Y) (h : (rdat m c).Finds 0 t Y) : Y = Gen.iblk m c 0 t := by
  obtain ⟨d, hd⟩ := (rdat m c).finds_in_eq_fetched 0 rfl (fun _ _ _ => rfl) (fun _ _ _ h => h) t Y h
  exact hd
theorem finds_2 (c : Dev nD) (t : Fin cfg0.N) (Y) (h : (rdat m c).Finds 2 t Y) : Y = Gen.iblk m c 2 t := by
  obtain ⟨d, hd⟩ := (rdat m c).finds_in_eq_fetched 2 rfl (fun _ _ _ => rfl) (fun _ _ _ h => h) t Y h
  exact hd
theorem finds_3 (c : Dev nD) (t : Fin cfg0.N) (Y) (h : (rdat m c).Finds 3 t Y) : Y = Gen.iblk m c 3 t := by
  obtain ⟨d, hd⟩ := (rdat m c).finds_in_eq_fetched 3 rfl (fun _ _ _ => rfl) (fun _ _ _ h => h) t Y h
  exact hd
theorem finds_4 (c : Dev nD) (t : Fin cfg0.N) (Y) (h : (rdat m c).Finds 4 t Y) : Y = Gen.iblk m c 4 t := by
  obtain ⟨d, hd⟩ := (rdat m c).finds_in_eq_fetched 4 rfl (fun _ _ _ => rfl) (fun _ _ _ h => h) t Y h
  exact hd
theorem finds_5 (c : Dev nD) (t : Fin cfg0.N) (Y) (h : (rdat m c).Finds 5 t Y) : Y = Gen.iblk m c 5 t := by
  obtain ⟨d, hd⟩ := (rdat m c).finds_in_eq_fetched 5 rfl (fun _ _ _ => rfl) (fun _ _ _ h => h) t Y h
  exact hd
theorem finds_6 (c : Dev nD) (t : Fin cfg0.N) (Y) (h : (rdat m c).Finds 6 t Y) : Y = Gen.iblk m c 6 t := by
  obtain ⟨d, hd⟩ := (rdat m c).finds_in_eq_fetched 6 rfl (fun _ _ _ => rfl) (fun _ _ _ h => h) t Y h
  exact hd
theorem finds_7 (c : Dev nD) (t : Fin cfg0.N) (Y) (h : (rdat m c).Finds 7 t Y) : Y = Gen.iblk m c 7 t := by
  obtain ⟨d, hd⟩ := (rdat m c).finds_in_eq_fetched 7 rfl (fun _ _ _ => rfl) (fun _ _ _ h => h) t Y h
  exact hd
theorem finds_8 (c : Dev nD) (t : Fin cfg0.N) (Y) (h : (rdat m c).Finds 8 t Y) : Y = Gen.iblk m c 8 t := by
  obtain ⟨d, hd⟩ := (rdat m c).finds_in_eq_fetched 8 rfl (fun _ _ _ => rfl) (fun _ _ _ h => h) t Y h
  exact hd
theorem finds_9 (c : Dev nD) (t : Fin cfg0.N) (Y) (h : (rdat m c).Finds 9 t Y) : Y = Gen.iblk m c 9 t := by
  obtain ⟨d, hd⟩ := (rdat m c).finds_in_eq_fetched 9 rfl (fun _ _ _ => rfl) (fun _ _ _ h => h) t Y h
  exact hd
theorem finds_10 (c : Dev nD) (t : Fin cfg0.N) (Y) (h : (rdat m c).Finds 10 t Y) : Y = Gen.iblk m c 10 t := by
  obtain ⟨d, hd⟩ := (rdat m c).finds_in_eq_fetched 10 rfl (fun _ _ _ => rfl) (fun _ _ _ h => h) t Y h
  exact hd
theorem finds_11 (c : Dev nD) (t : Fin cfg0.N) (Y) (h : (rdat m c).Finds 11 t Y) : Y = Gen.iblk m c 11 t := by
  obtain ⟨d, hd⟩ := (rdat m c).finds_in_eq_fetched 11 rfl (fun _ _ _ => rfl) (fun _ _ _ h => h) t Y h
  exact hd

/-- The clipped windows' cuts are a function of their block index. -/
theorem clip_1 : ∀ t t' : Fin cfg0.N, (cfg0.win 1).index t = (cfg0.win 1).index t' →
    (cfg0.win 1).clip (cfg0.grid.coords t) = (cfg0.win 1).clip (cfg0.grid.coords t') :=
  (by decide +kernel : ∀ t t' : Fin grid0.N, win0_1.index t = win0_1.index t' → win0_1.clip (grid0.coords t) = win0_1.clip (grid0.coords t'))
theorem clip_12 : ∀ t t' : Fin cfg0.N, (cfg0.win 12).index t = (cfg0.win 12).index t' →
    (cfg0.win 12).clip (cfg0.grid.coords t) = (cfg0.win 12).clip (cfg0.grid.coords t') :=
  (by decide +kernel : ∀ t t' : Fin grid0.N, win0_12.index t = win0_12.index t' → win0_12.clip (grid0.coords t) = win0_12.clip (grid0.coords t'))

theorem finds_1 (c : Dev nD) (t : Fin cfg0.N) (Y) (h : (rdat m c).Finds 1 t Y) : ∃ d, Y = adjGot m c t d := by
  obtain ⟨d, hd⟩ := (rdat m c).finds_in_eq_fetched 1 rfl clip_1 (fun _ _ _ h => h) t Y h
  exact ⟨d, hd⟩
theorem finds_12 (c : Dev nD) (t : Fin cfg0.N) (Y) (h : (rdat m c).Finds 12 t Y) : ∃ d, Y = epsGot m c t d := by
  obtain ⟨d, hd⟩ := (rdat m c).finds_in_eq_fetched 12 rfl clip_12 (fun _ _ _ h => h) t Y h
  exact ⟨d, hd⟩

/-! ## What the relation asks, window by window -/

theorem after_in_0 (c : Dev nD) (t : Fin cfg0.N) (Y) : (rdat m c).after 0 t Y Y := rfl
theorem after_in_1 (c : Dev nD) (t : Fin cfg0.N) (Y) : (rdat m c).after 1 t Y Y := rfl
theorem after_in_2 (c : Dev nD) (t : Fin cfg0.N) (Y) : (rdat m c).after 2 t Y Y := rfl
theorem after_in_3 (c : Dev nD) (t : Fin cfg0.N) (Y) : (rdat m c).after 3 t Y Y := rfl
theorem after_in_4 (c : Dev nD) (t : Fin cfg0.N) (Y) : (rdat m c).after 4 t Y Y := rfl
theorem after_in_5 (c : Dev nD) (t : Fin cfg0.N) (Y) : (rdat m c).after 5 t Y Y := rfl
theorem after_in_6 (c : Dev nD) (t : Fin cfg0.N) (Y) : (rdat m c).after 6 t Y Y := rfl
theorem after_in_7 (c : Dev nD) (t : Fin cfg0.N) (Y) : (rdat m c).after 7 t Y Y := rfl
theorem after_in_8 (c : Dev nD) (t : Fin cfg0.N) (Y) : (rdat m c).after 8 t Y Y := rfl
theorem after_in_9 (c : Dev nD) (t : Fin cfg0.N) (Y) : (rdat m c).after 9 t Y Y := rfl
theorem after_in_10 (c : Dev nD) (t : Fin cfg0.N) (Y) : (rdat m c).after 10 t Y Y := rfl
theorem after_in_11 (c : Dev nD) (t : Fin cfg0.N) (Y) : (rdat m c).after 11 t Y Y := rfl
theorem after_in_12 (c : Dev nD) (t : Fin cfg0.N) (Y) : (rdat m c).after 12 t Y Y := rfl
theorem after_13_one (c : Dev nD) (t : Fin cfg0.N) (h : t.val < 21) (Y) : (rdat m c).after 13 t Y Y := by
  dsimp only [rdat]; rw [if_pos h]
theorem after_13_two (c : Dev nD) (t : Fin cfg0.N) (h : ¬t.val < 21) (Y X) (hX : OutRel m c t X) : (rdat m c).after 13 t Y X := by
  dsimp only [rdat]; rw [if_neg h]; exact hX

/-! ## The invariant, by sweep -/

theorem Phi_one (c : Dev nD) (n : ℕ) (h0 : n ≠ 0) (h : n ≤ 21) :
    Phi m c n = iprop(∃ X1, ⌜SweepOne m c n X1⌝ ∗ owns (c : Thread nD τ) scM0 fullShare (rhsOne m c)
        ∗ owns (c : Thread nD τ) scM1 fullShare X1 ∗ (∃ r, prngReg c r)) := by
  cases n with
  | zero => exact absurd rfl h0
  | succ n => exact if_pos h
theorem Phi_two (c : Dev nD) (n : ℕ) (h : 21 < n) :
    Phi m c n = iprop(∃ X1, ⌜SweepOne m c 21 X1⌝ ∗ owns (c : Thread nD τ) scM0 fullShare (k0_pay2 (headRows X1))
        ∗ owns (c : Thread nD τ) scM1 fullShare X1 ∗ (∃ r, prngReg c r)) := by
  cases n with
  | zero => exact absurd h (by omega)
  | succ n => exact if_neg (by omega)

/-! ## The body obligation, point by point -/

/-- What the body is called with at point `t`, the windows one by one: `d1`, `d12` fill out the two clipped fetches,
    `Y13` is what the output's buffer holds. -/
def bodyPre (c : Dev nD) (t : Fin cfg0.N) (d1 : Vec F S480x10000 .f32) (d12 : Vec F S480x32 .f32) (Y13 : Vec F S480x16 .f32) : sProp 𝕄 :=
  iprop((rdat m c).Φ t.castSucc ∗ (rdat m c).owesAt () t.castSucc
    ∗ owns (c : Thread nD τ) (st0_0 t) fullShare (Gen.iblk m c 0 t)
    ∗ owns (c : Thread nD τ) (st0_1 t) fullShare (adjGot m c t d1)
    ∗ owns (c : Thread nD τ) (st0_2 t) fullShare (Gen.iblk m c 2 t)
    ∗ owns (c : Thread nD τ) (st0_3 t) fullShare (Gen.iblk m c 3 t)
    ∗ owns (c : Thread nD τ) (st0_4 t) fullShare (Gen.iblk m c 4 t)
    ∗ owns (c : Thread nD τ) (st0_5 t) fullShare (Gen.iblk m c 5 t)
    ∗ owns (c : Thread nD τ) (st0_6 t) fullShare (Gen.iblk m c 6 t)
    ∗ owns (c : Thread nD τ) (st0_7 t) fullShare (Gen.iblk m c 7 t)
    ∗ owns (c : Thread nD τ) (st0_8 t) fullShare (Gen.iblk m c 8 t)
    ∗ owns (c : Thread nD τ) (st0_9 t) fullShare (Gen.iblk m c 9 t)
    ∗ owns (c : Thread nD τ) (st0_10 t) fullShare (Gen.iblk m c 10 t)
    ∗ owns (c : Thread nD τ) (st0_11 t) fullShare (Gen.iblk m c 11 t)
    ∗ owns (c : Thread nD τ) (st0_12 t) fullShare (epsGot m c t d12)
    ∗ owns (c : Thread nD τ) (st0_13 t) fullShare Y13)

/-- and what it returns. -/
def bodyPost (c : Dev nD) (t : Fin cfg0.N) (d1 : Vec F S480x10000 .f32) (d12 : Vec F S480x32 .f32) (Y13 : Vec F S480x16 .f32) : sProp 𝕄 :=
  iprop((rdat m c).Φ t.succ ∗ (rdat m c).owesAt () t.succ
    ∗ (∃ X, ⌜(rdat m c).after 0 t (Gen.iblk m c 0 t) X⌝ ∗ owns (c : Thread nD τ) (st0_0 t) fullShare X)
    ∗ (∃ X, ⌜(rdat m c).after 1 t (adjGot m c t d1) X⌝ ∗ owns (c : Thread nD τ) (st0_1 t) fullShare X)
    ∗ (∃ X, ⌜(rdat m c).after 2 t (Gen.iblk m c 2 t) X⌝ ∗ owns (c : Thread nD τ) (st0_2 t) fullShare X)
    ∗ (∃ X, ⌜(rdat m c).after 3 t (Gen.iblk m c 3 t) X⌝ ∗ owns (c : Thread nD τ) (st0_3 t) fullShare X)
    ∗ (∃ X, ⌜(rdat m c).after 4 t (Gen.iblk m c 4 t) X⌝ ∗ owns (c : Thread nD τ) (st0_4 t) fullShare X)
    ∗ (∃ X, ⌜(rdat m c).after 5 t (Gen.iblk m c 5 t) X⌝ ∗ owns (c : Thread nD τ) (st0_5 t) fullShare X)
    ∗ (∃ X, ⌜(rdat m c).after 6 t (Gen.iblk m c 6 t) X⌝ ∗ owns (c : Thread nD τ) (st0_6 t) fullShare X)
    ∗ (∃ X, ⌜(rdat m c).after 7 t (Gen.iblk m c 7 t) X⌝ ∗ owns (c : Thread nD τ) (st0_7 t) fullShare X)
    ∗ (∃ X, ⌜(rdat m c).after 8 t (Gen.iblk m c 8 t) X⌝ ∗ owns (c : Thread nD τ) (st0_8 t) fullShare X)
    ∗ (∃ X, ⌜(rdat m c).after 9 t (Gen.iblk m c 9 t) X⌝ ∗ owns (c : Thread nD τ) (st0_9 t) fullShare X)
    ∗ (∃ X, ⌜(rdat m c).after 10 t (Gen.iblk m c 10 t) X⌝ ∗ owns (c : Thread nD τ) (st0_10 t) fullShare X)
    ∗ (∃ X, ⌜(rdat m c).after 11 t (Gen.iblk m c 11 t) X⌝ ∗ owns (c : Thread nD τ) (st0_11 t) fullShare X)
    ∗ (∃ X, ⌜(rdat m c).after 12 t (epsGot m c t d12) X⌝ ∗ owns (c : Thread nD τ) (st0_12 t) fullShare X)
    ∗ (∃ X, ⌜(rdat m c).after 13 t Y13 X⌝ ∗ owns (c : Thread nD τ) (st0_13 t) fullShare X))

/-- After the first point the 10080-row scratch holds that point's rows. -/
theorem sweep_first (c : Dev nD) (d1 : Vec F S480x10000 .f32) (d12 : Vec F S480x32 .f32) (xs1 X' : Vec F S10080x16 .f32)
    (h : rowsPut ((k0_off1 (grid0.coords t0)) 0) xs1 (rowsOf m c t0 d1 d12) X') : SweepOne m c 1 X' := by
  intro j hj _
  obtain rfl : j = t0 := Fin.ext (by simp only; omega)
  refine ⟨d1, d12, fun y x hy0 hy1 => h.1 y x ?_ hy1⟩
  rw [rowOff t0 (by decide)]; exact hy0

/-- A later point of the first sweep adds its rows and keeps the earlier points'. -/
theorem sweep_next (c : Dev nD) (t : Fin cfg0.N) (ht : t.val < 21) (d1 : Vec F S480x10000 .f32) (d12 : Vec F S480x32 .f32)
    (X1 X' : Vec F S10080x16 .f32) (hX1 : SweepOne m c t.val X1)
    (h : rowsPut ((k0_off1 (grid0.coords t)) 0) X1 (rowsOf m c t d1 d12) X') : SweepOne m c (t.val + 1) X' := by
  rw [rowOff t ht] at h
  intro j hj hj21
  by_cases hjt : j.val < t.val
  · obtain ⟨e1, e12, he⟩ := hX1 j hjt hj21
    refine ⟨e1, e12, fun y x hy0 hy1 => ?_⟩
    have hx : (x 0).val < 480 := (x 0).isLt
    rw [h.2 y (Or.inl (by omega))]; exact he y x hy0 hy1
  · obtain rfl : j = t := Fin.ext (by omega)
    exact ⟨d1, d12, fun y x hy0 hy1 => h.1 y x hy0 hy1⟩

set_option maxHeartbeats 4000000 in
/-- The first point. -/
theorem sound_A (c : Dev nD) (t : Fin cfg0.N) (ht : t.val = 0) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  obtain rfl : t = t0 := Fin.ext ht
  unfold bodyPre bodyPost bodyAt0
  rw [show (rdat m c).owesAt () (t0 : Fin cfg0.N).succ = (rdat m c).owesAt () (t0 : Fin cfg0.N).castSucc from rfl,
    show (rdat m c).Φ (t0 : Fin cfg0.N).castSucc = Pipeline.ΦA spec0 c from rfl, PhiA_eq,
    show (rdat m c).Φ (t0 : Fin cfg0.N).succ = Phi m c 1 from rfl, Phi_one m c 1 (by decide) (by decide)]
  iintro ⟨⟨⟨HS0, ⟨%xs1, HS1⟩⟩, Hg⟩, Ho, H0, H1, H2, H3, H4, H5, H6, H7, H8, H9, H10, H11, H12, H13⟩
  iapply (runA c (grid0.coords t0) _ _ _ _ _ _ _ _ _ _ _ _ _ _ _ _ _ _ _ _ _ _ _ _ _ _ _ _ _ _ _ _ ((cnd1_iff t0).mpr rfl) (fun h => absurd ((cnd2_iff t0).mp h) (by decide))
    ((cnd3_iff t0).mpr (by decide)) (fun h => absurd ((cnd4_iff t0).mp h) (by decide))
    (Gen.iblk m c 0 t0) (Gen.iblk m c 2 t0) (adjGot m c t0 d1) (Gen.iblk m c 3 t0) (Gen.iblk m c 4 t0) (Gen.iblk m c 5 t0) (Gen.iblk m c 6 t0)
    (Gen.iblk m c 7 t0) (Gen.iblk m c 8 t0) (Gen.iblk m c 9 t0) (Gen.iblk m c 10 t0) (epsGot m c t0 d12) xs1 Set.univ _)
  isplitl [H0]; · iexact H0
  isplitl [H2]; · iexact H2
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HS0]; · iexact HS0
  isplitl [HS1]; · iexact HS1
  iintro ⟨H0, H2, H1, H3, H4, H5, H6, H7, H8, H9, H10, H12, HS0, ⟨%X', %hX', HS1⟩⟩
  isplitl [HS0 HS1 Hg]
  · iexists X'; isplitr; · ipureintro; exact sweep_first m c d1 d12 xs1 X' hX'
    isplitl [HS0]; · iexact HS0
    isplitl [HS1]; · iexact HS1
    iexact Hg
  isplitl [Ho]; · iexact Ho
  isplitl [H0]
  · iexists _; isplitr; · ipureintro; exact after_in_0 m c t0 _
    iexact H0
  isplitl [H1]
  · iexists _; isplitr; · ipureintro; exact after_in_1 m c t0 _
    iexact H1
  isplitl [H2]
  · iexists _; isplitr; · ipureintro; exact after_in_2 m c t0 _
    iexact H2
  isplitl [H3]
  · iexists _; isplitr; · ipureintro; exact after_in_3 m c t0 _
    iexact H3
  isplitl [H4]
  · iexists _; isplitr; · ipureintro; exact after_in_4 m c t0 _
    iexact H4
  isplitl [H5]
  · iexists _; isplitr; · ipureintro; exact after_in_5 m c t0 _
    iexact H5
  isplitl [H6]
  · iexists _; isplitr; · ipureintro; exact after_in_6 m c t0 _
    iexact H6
  isplitl [H7]
  · iexists _; isplitr; · ipureintro; exact after_in_7 m c t0 _
    iexact H7
  isplitl [H8]
  · iexists _; isplitr; · ipureintro; exact after_in_8 m c t0 _
    iexact H8
  isplitl [H9]
  · iexists _; isplitr; · ipureintro; exact after_in_9 m c t0 _
    iexact H9
  isplitl [H10]
  · iexists _; isplitr; · ipureintro; exact after_in_10 m c t0 _
    iexact H10
  isplitl [H11]
  · iexists _; isplitr; · ipureintro; exact after_in_11 m c t0 _
    iexact H11
  isplitl [H12]
  · iexists _; isplitr; · ipureintro; exact after_in_12 m c t0 _
    iexact H12
  iexists _; isplitr; · ipureintro; exact after_13_one m c t0 (by decide) _
  iexact H13

set_option maxHeartbeats 4000000 in
/-- The other points of the first sweep. -/
theorem sound_B (c : Dev nD) (t : Fin cfg0.N) (h0 : t.val ≠ 0) (h21 : t.val < 21) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_one m c t.val h0 (by omega),
    show (rdat m c).Φ t.succ = Phi m c (t.val + 1) from rfl, Phi_one m c (t.val + 1) (by omega) (by omega)]
  iintro ⟨⟨%X1, %hX1, HS0, HS1, Hg⟩, Ho, H0, H1, H2, H3, H4, H5, H6, H7, H8, H9, H10, H11, H12, H13⟩
  iapply (runB c (grid0.coords t) _ _ _ _ _ _ _ _ _ _ _ _ _ _ _ _ _ _ _ _ _ _ _ _ _ _ _ _ _ _ _ _ (fun h => h0 ((cnd1_iff t).mp h)) (fun h => absurd ((cnd2_iff t).mp h) (by omega))
    ((cnd3_iff t).mpr h21) (fun h => absurd ((cnd4_iff t).mp h) (by omega))
    (adjGot m c t d1) (Gen.iblk m c 3 t) (Gen.iblk m c 4 t) (Gen.iblk m c 5 t) (Gen.iblk m c 6 t) (Gen.iblk m c 7 t) (Gen.iblk m c 8 t) (Gen.iblk m c 9 t) (Gen.iblk m c 10 t) (epsGot m c t d12) (rhsOne m c) X1 Set.univ _)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [HS0]; · iexact HS0
  isplitl [HS1]; · iexact HS1
  iintro ⟨H1, H3, H4, H5, H6, H7, H8, H9, H10, H12, HS0, ⟨%X', %hX', HS1⟩⟩
  isplitl [HS0 HS1 Hg]
  · iexists X'; isplitr; · ipureintro; exact sweep_next m c t h21 d1 d12 X1 X' hX1 hX'
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_one m c t h21 _
  iexact H13

set_option maxHeartbeats 4000000 in
/-- The first point of the second sweep. -/
theorem sound_C (c : Dev nD) (t : Fin cfg0.N) (ht : t.val = 21) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_one m c t.val (by omega) (by omega),
    show (rdat m c).Φ t.succ = Phi m c (t.val + 1) from rfl, Phi_two m c (t.val + 1) (by omega)]
  iintro ⟨⟨%X1, %hX1, HS0, HS1, Hg⟩, Ho, H0, H1, H2, H3, H4, H5, H6, H7, H8, H9, H10, H11, H12, H13⟩
  have hX21 : SweepOne m c 21 X1 := ht ▸ hX1
  iapply (runC c (grid0.coords t) _ _ _ _ _ _ _ _ _ _ _ _ _ _ _ _ _ _ _ _ _ _ _ _ _ _ _ _ _ _ _ _ (fun h => absurd ((cnd1_iff t).mp h) (by omega)) ((cnd2_iff t).mpr ht) (fun h => absurd ((cnd3_iff t).mp h) (by omega)) ((cnd4_iff t).mpr (by omega))
    (adjGot m c t d1) (Gen.iblk m c 11 t) X1 Set.univ _)
  isplitl [H1]; · iexact H1
  isplitl [H11]; · iexact H11
  isplitl [H13]; · iexists _; iexact H13
  isplitl [HS0]; · iexists _; iexact HS0
  isplitl [HS1]; · iexact HS1
  iintro ⟨H1, H11, H13, HS0, HS1⟩
  isplitl [HS0 HS1 Hg]
  · iexists X1; isplitr; · ipureintro; exact hX21
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_two m c t (by omega) _ _ ⟨X1, d1, hX21, rfl⟩
  iexact H13

set_option maxHeartbeats 4000000 in
/-- The other points of the second sweep. -/
theorem sound_D (c : Dev nD) (t : Fin cfg0.N) (ht : 21 < t.val) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  unfold bodyPre bodyPost bodyAt0
  rw [show (rdat m c).owesAt () t.succ = (rdat m c).owesAt () t.castSucc from rfl,
    show (rdat m c).Φ t.castSucc = Phi m c t.val from rfl, Phi_two m c t.val ht,
    show (rdat m c).Φ t.succ = Phi m c (t.val + 1) from rfl, Phi_two m c (t.val + 1) (by omega)]
  iintro ⟨⟨%X1, %hX1, HS0, HS1, Hg⟩, Ho, H0, H1, H2, H3, H4, H5, H6, H7, H8, H9, H10, H11, H12, H13⟩
  iapply (runD c (grid0.coords t) _ _ _ _ _ _ _ _ _ _ _ _ _ _ _ _ _ _ _ _ _ _ _ _ _ _ _ _ _ _ _ _ (fun h => absurd ((cnd1_iff t).mp h) (by omega)) (fun h => absurd ((cnd2_iff t).mp h) (by omega)) (fun h => absurd ((cnd3_iff t).mp h) (by omega)) ((cnd4_iff t).mpr (by omega))
    (adjGot m c t d1) (Gen.iblk m c 11 t) (k0_pay2 (headRows X1)) Set.univ _)
  isplitl [H1]; · iexact H1
  isplitl [H11]; · iexact H11
  isplitl [H13]; · iexists _; iexact H13
  isplitl [HS0]; · iexact HS0
  iintro ⟨H1, H11, H13, HS0⟩
  isplitl [HS0 HS1 Hg]
  · iexists X1; isplitr; · ipureintro; exact hX1
    isplitl [HS0]; · iexact HS0
    isplitl [HS1]; · iexact HS1
    iexact Hg
  isplitl [Ho]; · iexact Ho
  isplitl [H0]
  · iexists _; isplitr; · ipureintro; exact after_in_0 m c t _
    iexact H0
  isplitl [H1]
  · iexists _; isplitr; · ipureintro; exact after_in_1 m c t _
    iexact H1
  isplitl [H2]
  · iexists _; isplitr; · ipureintro; exact after_in_2 m c t _
    iexact H2
  isplitl [H3]
  · iexists _; isplitr; · ipureintro; exact after_in_3 m c t _
    iexact H3
  isplitl [H4]
  · iexists _; isplitr; · ipureintro; exact after_in_4 m c t _
    iexact H4
  isplitl [H5]
  · iexists _; isplitr; · ipureintro; exact after_in_5 m c t _
    iexact H5
  isplitl [H6]
  · iexists _; isplitr; · ipureintro; exact after_in_6 m c t _
    iexact H6
  isplitl [H7]
  · iexists _; isplitr; · ipureintro; exact after_in_7 m c t _
    iexact H7
  isplitl [H8]
  · iexists _; isplitr; · ipureintro; exact after_in_8 m c t _
    iexact H8
  isplitl [H9]
  · iexists _; isplitr; · ipureintro; exact after_in_9 m c t _
    iexact H9
  isplitl [H10]
  · iexists _; isplitr; · ipureintro; exact after_in_10 m c t _
    iexact H10
  isplitl [H11]
  · iexists _; isplitr; · ipureintro; exact after_in_11 m c t _
    iexact H11
  isplitl [H12]
  · iexists _; isplitr; · ipureintro; exact after_in_12 m c t _
    iexact H12
  iexists _; isplitr; · ipureintro; exact after_13_two m c t (by omega) _ _ ⟨X1, d1, hX1, rfl⟩
  iexact H13

/-- The body at any point. -/
theorem sound_body (c : Dev nD) (t : Fin cfg0.N) (d1 : Vec F S480x10000 .f32) (d12 : Vec F S480x32 .f32) (Y13 : Vec F S480x16 .f32) :
    bodyPre m c t d1 d12 Y13 ⊢ wp frame (wpE (defs₀ (F := F)) Variants.none c none) Set.univ (bodyAt0 t) (fun _ => bodyPost m c t d1 d12 Y13) := by
  by_cases h0 : t.val = 0
  · exact sound_A m c t h0 d1 d12 Y13
  by_cases h21 : t.val < 21
  · exact sound_B m c t h0 h21 d1 d12 Y13
  by_cases h : t.val = 21
  · exact sound_C m c t h d1 d12 Y13
  · exact sound_D m c t (by omega) d1 d12 Y13

/-- The library's body obligation over the relational proof data: whatever the buffers may hold when the body is
    called, the inputs' hold their fetched blocks. -/
theorem body_obligation (c : Dev nD) : (rdat m c).BodyObligation (defs₀ (F := F)) Variants.none () Set.univ := fun t Y hY => by
  rw [bigSep_W0, bigSep_W0]
  have e0 := finds_0 m c t _ (hY 0)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have e9 := finds_9 m c t _ (hY 9)
  have e10 := finds_10 m c t _ (hY 10)
  have e11 := finds_11 m c t _ (hY 11)
  obtain ⟨d1, e1⟩ := finds_1 m c t _ (hY 1)
  obtain ⟨d12, e12⟩ := finds_12 m c t _ (hY 12)
  rw [e0, e1, e2, e3, e4, e5, e6, e7, e8, e9, e10, e11, e12]
  exact sound_body m c t d1 d12 (Y 13)

theorem hin (c : Dev nD) : Pipeline.ΦA spec0 c ⊢ (rdat m c).Φ 0 := by
  rw [show (rdat m c).Φ 0 = Pipeline.ΦA spec0 c from rfl]
  try exact Idealize.SL.BI.Entails.refl _

theorem hout (c : Dev nD) : (rdat m c).Φ (Fin.last cfg0.N) ⊢ Pipeline.ΦA spec0 c := by
  rw [show (rdat m c).Φ (Fin.last cfg0.N) = Phi m c 42 from rfl, Phi_two m c 42 (by decide), PhiA_eq]
  iintro ⟨%X1, %hX1, HS0, HS1, Hg⟩
  isplitl [HS0 HS1]
  · isplitl [HS0]
    · iexists _; iexact HS0
    · iexists _; iexact HS1
  iexact Hg

set_option backward.isDefEq.respectTransparency.types false in
/-- At the compiled mesh, for any values, from any memory with zero counters: every weakly fair execution of @main
    terminates, every array of the pipeline ends at contents the relational data allows after every write-back, and
    every other unscoped buffer ends as the region found it. -/
theorem run_main : θ_run defs (onTc (τ := τ) (main (F := F))) (s₀ m ρ) (Pipeline.RDat.FramePost cfg0 (rdat m) (Gen.V m)) :=
  Pipeline.RDat.θ_run_frame_track cfgs (0 : Fin 1) launch0 defs₀ Variants.none (rdat m) m ρ main
    (hbody := body_obligation m) (hshare := fun c => (rdat m c).share_full fun _ => rfl) (howed := fun _ _ => rfl)
    (V := Gen.V m) (hmain := Gen.hmain m Variants.none) (hA := A_eq m) (hin := hin m) (hout := hout m)

/-- An input's array is never written. -/
theorem in_kept (c : Dev nD) (w : Fin cfg0.W) (hw : (cfg0.win w).isOut = false) (G) (h : (rdat m c).ArrAt w cfg0.N G) :
    G = (rdat m c).A w := by
  rw [(rdat m c).ArrAt_in w hw] at h; exact h

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(in_kept m c 0 rfl _ ((h c).1 0)).trans ((A_eq m c 0).trans (Gen.V_main_arg0 m c)),
      (in_kept m c 1 rfl _ ((h c).1 1)).trans ((A_eq m c 1).trans (Gen.V_main_arg1 m c)),
      (in_kept m c 2 rfl _ ((h c).1 2)).trans ((A_eq m c 2).trans (Gen.V_main_arg2 m c)),
      ((h c).2 main_arg3 (Pipeline.mem_restRefs_of main_arg3 (by decide) (by decide))).trans (Gen.V_main_arg3 m c),
      (in_kept m c 4 rfl _ ((h c).1 4)).trans ((A_eq m c 4).trans (Gen.V_main_arg4 m c)),
      ((h c).2 main_arg5 (Pipeline.mem_restRefs_of main_arg5 (by decide) (by decide))).trans (Gen.V_main_arg5 m c),
      (in_kept m c 6 rfl _ ((h c).1 6)).trans ((A_eq m c 6).trans (Gen.V_main_arg6 m c)),
      ((h c).2 main_arg7 (Pipeline.mem_restRefs_of main_arg7 (by decide) (by decide))).trans (Gen.V_main_arg7 m c),
      (in_kept m c 8 rfl _ ((h c).1 8)).trans ((A_eq m c 8).trans (Gen.V_main_arg8 m c)),
      ((h c).2 main_arg9 (Pipeline.mem_restRefs_of main_arg9 (by decide) (by decide))).trans (Gen.V_main_arg9 m c),
      (in_kept m c 10 rfl _ ((h c).1 10)).trans ((A_eq m c 10).trans (Gen.V_main_arg10 m c)),
      ((h c).2 main_arg11 (Pipeline.mem_restRefs_of main_arg11 (by decide) (by decide))).trans (Gen.V_main_arg11 m c),
      (in_kept m c 12 rfl _ ((h c).1 12)).trans ((A_eq m c 12).trans (Gen.V_main_arg12 m c))⟩) (run_main m ρ)

end Cert.Kernel.Body

end
-- ==== Proof.Spec.lean ====
/-
  The function both programs compute, row by row, on the extended reals.

  With h the hidden row relu(a · s + b_gc1) of an adjacency row a against the feature product s = x · W_gc1, the
  dense head gives mu = h · W11 + b11, logvar = h · W12 + b12, z = mu + eps · exp(logvar),
  xa = relu(z · W2 + b2), and the row of u = [xa, h] · W_gc2 — here written as the sum of xa against the upper 64
  rows of W_gc2 and of h against its lower 64 rows. The result's row is the log-softmax of a · u + b_gc2: the
  entries less their maximum, less the logarithm of the sum of the exponentials of those differences. The zero and
  the minus infinity are kept as the float words both programs spell.
-/
import Idealize.ShloMosaic.PureOps.Ideal.Laws

noncomputable section

namespace Cert.Spec

open Idealize.ShloMosaic

/-- The float zero and minus infinity, as both programs spell them. -/
abbrev z0 : EReal := Ideal.ofBits .f32 0x00000000#32
abbrev ninf : EReal := Ideal.ofBits .f32 0xFF800000#32

/-- The feature product x · W_gc1. -/
def featProd (x : Fin 10000 → Fin 128 → EReal) (Wg1 : Fin 128 → Fin 64 → EReal) (k : Fin 10000) (c : Fin 64) : EReal :=
  ∑ f : Fin 128, x k f * Wg1 f c

/-- The hidden row of one adjacency row `a` against the right-hand matrix `s`: relu(a · s + b). -/
def hid (a : Fin 10000 → EReal) (s : Fin 10000 → Fin 64 → EReal) (b : Fin 64 → EReal) (c : Fin 64) : EReal :=
  max ((∑ k : Fin 10000, a k * s k c) + b c) z0

/-- A dense layer 64 → 32 on a row. -/
def lin (h : Fin 64 → EReal) (W : Fin 64 → Fin 32 → EReal) (b : Fin 32 → EReal) (e : Fin 32) : EReal :=
  (∑ c : Fin 64, h c * W c e) + b e

/-- The sampled code z = mu + eps · exp(logvar). -/
def code (h : Fin 64 → EReal) (W11 : Fin 64 → Fin 32 → EReal) (b11 : Fin 32 → EReal) (W12 : Fin 64 → Fin 32 → EReal)
    (b12 : Fin 32 → EReal) (er : Fin 32 → EReal) (e : Fin 32) : EReal :=
  lin h W11 b11 e + er e * Ideal.exp (lin h W12 b12 e)

/-- The decoded row relu(z · W2 + b2). -/
def dec (z : Fin 32 → EReal) (W2 : Fin 32 → Fin 64 → EReal) (b2 : Fin 64 → EReal) (c : Fin 64) : EReal :=
  max ((∑ e : Fin 32, z e * W2 e c) + b2 c) z0

/-- The row of u: the decoded row against the upper half of the last weight matrix plus the hidden row against its
    lower half. -/
def mix (xa h : Fin 64 → EReal) (Wt Wb : Fin 64 → Fin 16 → EReal) (q : Fin 16) : EReal :=
  (∑ c : Fin 64, xa c * Wt c q) + ∑ c : Fin 64, h c * Wb c q

/-- The row of u from one adjacency row, the right-hand matrix, the weights and one noise row. -/
def uRow (a : Fin 10000 → EReal) (s : Fin 10000 → Fin 64 → EReal) (b1 : Fin 64 → EReal)
    (W11 : Fin 64 → Fin 32 → EReal) (b11 : Fin 32 → EReal) (W12 : Fin 64 → Fin 32 → EReal) (b12 : Fin 32 → EReal)
    (W2 : Fin 32 → Fin 64 → EReal) (b2 : Fin 64 → EReal) (Wt Wb : Fin 64 → Fin 16 → EReal) (er : Fin 32 → EReal) (q : Fin 16) : EReal :=
  mix (dec (code (hid a s b1) W11 b11 W12 b12 er) W2 b2) (hid a s b1) Wt Wb q

/-- Log-softmax of a row of sixteen. -/
def lsm (o : Fin 16 → EReal) (q : Fin 16) : EReal :=
  (o q - (Finset.univ : Finset (Fin 16)).fold max ninf o)
    - Ideal.log (∑ q' : Fin 16, Ideal.exp (o q' - (Finset.univ : Finset (Fin 16)).fold max ninf o))

/-- The result's row from one adjacency row `a`, the matrix `u` and the last bias. -/
def outRow (a : Fin 10000 → EReal) (u : Fin 10000 → Fin 16 → EReal) (b : Fin 16 → EReal) (q : Fin 16) : EReal :=
  lsm (fun q' => (∑ k : Fin 10000, a k * u k q') + b q') q

end Cert.Spec

end
-- ==== Proof.LibPlainDot.lean ====
/-
  A plain matrix product read at one entry.  For an M×K matrix times a K×N matrix (contract the left
  operand's axis 1 with the right operand's axis 0, no batch axes) the contraction index has one
  coordinate, so the sum over it is a sum over `Fin K`: entry (a, b) is `∑ c, l (a, c) · r (c, b)`.
  Stated for the contraction sum itself, for a kernel's matmul into a zero accumulator, and for the host's
  dot_general; each for any record of dimension numbers that IS the plain one.  Also: a sum over
  `Fin (K₁ + K₂)` of a two-piece family is the sum of the two pieces' sums.  At the ideal values.
-/
import Idealize.ShloMosaic.Lib.ValueIdx
import Idealize.ShloMosaic.Lib.StackMember
import Idealize.ShloMosaic.PureOps.Ideal.Laws

noncomputable section

namespace Cert.LibPlainDot

open Idealize.ShloMosaic Idealize.ShloMosaic.ValueIdx

/-- The contraction sum of the plain M×K by K×N product at entry (a, b) is the sum over the shared
    coordinate. -/
theorem contr_sum {M K N : Nat} {φ₁ φ₂ : FTy}
    (l : FVec Ideal ⟨2, ![M, K]⟩ φ₁) (r : FVec Ideal ⟨2, ![K, N]⟩ φ₂) (a : Fin M) (b : Fin N) :
    ∑ k : (DotDims.plain M K N).contr.Idx,
        l ((DotDims.plain M K N).lhsIdx (ix2 a b) k) * r ((DotDims.plain M K N).rhsIdx (ix2 a b) k)
      = ∑ c : Fin K, l (ix2 a c) * r (ix2 c b) := by
  have h := StackMember.dotGeneral_plain_apply (m := M) (n := N) (k := K) none l r a b
  change FloatOps.dotGeneral _ none _ l r (ix2 a b) = _ at h
  rw [Ideal.dotGeneral_apply] at h
  exact h

/-- A kernel's matmul into the zero accumulator, for dimension numbers that are the plain ones: entry (a, b)
    is the sum over the shared coordinate of the products. -/
theorem matmul_zero_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    matmul D prec l r (constant (F := Ideal) ⟨2, ![M, N]⟩ .f32 0x00000000#32) (ix2 a b)
      = ∑ c : Fin K, l (ix2 a c) * r (ix2 c b) := by
  subst hD
  exact (Ideal.matmul_constant_zero_apply _ prec l r (ix2 a b)).trans (contr_sum l r a b)

/-- The host's dot_general, for dimension numbers that are the plain ones, at entry (a, b). -/
theorem dotGeneral_apply {M K N : Nat} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (a : Fin M) (b : Fin N) :
    Host.dotGeneral D prec l r (ix2 a b) = ∑ c : Fin K, l (ix2 a c) * r (ix2 c b) := by
  subst hD
  exact StackMember.dotGeneral_plain_apply prec l r a b

/-- A sum over `Fin (K₁ + K₂)` splits into the sums over its first `K₁` and its last `K₂` positions. -/
theorem sum_fin_add {β : Type*} [AddCommMonoid β] (K₁ K₂ : Nat) (f : Fin (K₁ + K₂) → β) :
    ∑ k : Fin (K₁ + K₂), f k = ∑ k : Fin K₁, f (Fin.castAdd K₂ k) + ∑ k : Fin K₂, f (Fin.natAdd K₁ k) :=
  Fin.sum_univ_add f

end Cert.LibPlainDot

end
-- ==== Proof.LibColumn.lean ====
/-
  Layout and reduction operations of a row sum that keeps its axis, read at an index given by coordinates, at any
  extents: a vector cast to a column, a column broadcast over the lanes, a one-element array broadcast everywhere,
  and the float sum along the lanes of a matrix and down a column, each as a sum over a literal Fin range.
-/
import Idealize.ShloMosaic.Lib.ValueIdx
import Idealize.ShloMosaic.Lib.ValueLayout
import Idealize.ShloMosaic.Lib.Pipeline.Value
import Idealize.ShloMosaic.PureOps.Ideal.Laws

open scoped BigOperators

namespace Cert.Proof.Column

open Idealize.ShloMosaic Idealize.ShloMosaic.ValueIdx

variable {α : Type}

/-- An [a] array cast to the column [a, 1] reads, at (i, u), the operand at i, whatever the unit coordinate u:
    both positions in row-major order are i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A [1, 1] array broadcast to [a, b] reads its one element everywhere. -/
theorem broadcastTo_11_ab_apply {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

variable {φ : FTy}

/-- The float sum along the lanes (axis 1) of an [a, b] matrix reads, at row i, the sum of that row's entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun c => ?_)
  match c with
  | ⟨0, _⟩ => rfl
  | ⟨1, _⟩ => rfl

/-- The float sum down an [a, 1] column (axis 0) reads, at its one index, the sum of the column's entries. -/
theorem colSum_apply {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction (F := Ideal) .add [0] ⟨1, ![1]⟩ src acc h hφ hacc (ix1 u) = ∑ k : Fin a, src (ix2 k (0 : Fin 1)) := by
  refine (Ideal.multiReduction_add_single src acc h hφ hacc (ix1 u)).trans ?_
  refine Finset.sum_congr rfl fun k _ => congrArg src (funext fun c => ?_)
  match c with
  | ⟨0, _⟩ => rfl
  | ⟨1, _⟩ => exact Fin.ext (by show u.val = 0; omega)

end Cert.Proof.Column
-- ==== Proof.KernelAt.lean ====
/-
  The kernel body's pure payloads read at an index, at the ideal instance: each of the body's stored values as the
  function of its loads that the specification names (a plain product, a relu layer, the dense head, the zero-padded
  refill, the row-wise log-softmax).
-/
import proofs.«156255_g28346784154176_retrytranche2_455_35_alg».proof.Proof.BodyRuns
import proofs.«156255_g28346784154176_retrytranche2_455_35_alg».proof.Proof.Spec
import proofs.«156255_g28346784154176_retrytranche2_455_35_alg».proof.Proof.LibPlainDot
import proofs.«156255_g28346784154176_retrytranche2_455_35_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.At

open Cert.KernelIdeal Cert.KernelIdeal.Gen Cert.KernelIdeal.Body
open Idealize.ShloMosaic Idealize.ShloMosaic.ValueIdx

/-! ## The five contractions are plain matrix products -/

theorem dotA : dot_S10000x128_S128x64_S10000x64_1_0_0_1_n_n = DotDims.plain 10000 128 64 := rfl
theorem dotB : dot_S480x10000_S10000x64_S480x64_1_0_0_1_n_n = DotDims.plain 480 10000 64 := rfl
theorem dotC : dot_S480x64_S64x32_S480x32_1_0_0_1_n_n = DotDims.plain 480 64 32 := rfl
theorem dotD : dot_S480x32_S32x64_S480x64_1_0_0_1_n_n = DotDims.plain 480 32 64 := rfl
theorem dotE : dot_S480x64_S64x16_S480x16_1_0_0_1_n_n = DotDims.plain 480 64 16 := rfl

/-- A lane maximum read at a row: the fold of max over the row's entries from the accumulator's value. -/
theorem laneMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (FloatOps.ofBits φ acc) (fun k => src (ix2 i k)) := by
  refine (Ideal.multiReduction_maximumf_single src acc h hφ hacc (ix1 i)).trans ?_
  refine congrArg ((Finset.univ : Finset (Fin b)).fold max (FloatOps.ofBits φ acc)) (funext fun k => congrArg src (funext fun c => ?_))
  match c with
  | ⟨0, _⟩ => rfl
  | ⟨1, _⟩ => rfl

/-! ## The payloads -/

/-- The feature product. -/
theorem pay1_at (x0 : Vec Ideal S10000x128 .f32) (x2 : Vec Ideal S128x64 .f32) (k : Fin 10000) (c : Fin 64) :
    k0_pay1 (F := Ideal) x0 x2 (ix2 k c) = Spec.featProd (fun k f => x0 (ix2 k f)) (fun f c => x2 (ix2 f c)) k c := by
  unfold k0_pay1 Spec.featProd
  exact (congrFun (shapeCast_self _ _) (ix2 k c)).trans (Cert.LibPlainDot.matmul_zero_apply _ dotA none x0 x2 k c)

/-- The adjacency block against the right-hand scratch. -/
theorem pay3_at (v10 : Vec Ideal S480x10000 .f32) (v11 : Vec Ideal S10000x64 .f32) (a : Fin 480) (c : Fin 64) :
    k0_pay3 (F := Ideal) v10 v11 (ix2 a c) = ∑ k : Fin 10000, v10 (ix2 a k) * v11 (ix2 k c) := by
  unfold k0_pay3
  exact Cert.LibPlainDot.matmul_zero_apply _ dotB none v10 v11 a c

/-- The hidden layer: the product plus the bias row, clamped at zero. -/
theorem pay6_at (v12 : FVec Ideal S480x64 .f32) (v19 : Vec Ideal S1x64 .f32) (a : Fin 480) (c : Fin 64) :
    k0_pay6 (F := Ideal) v12 v19 (ix2 a c) = max (v12 (ix2 a c) + v19 (ix2 (0 : Fin 1) c)) Spec.z0 := by
  unfold k0_pay6
  exact congrArg (fun z => max (v12 (ix2 a c) + z) Spec.z0)
    ((broadcastTo_1b_ab_apply _ _ a c).trans (congrFun (shapeCast_self v19 _) _))

/-- The refill of the right-hand scratch: its first sixteen columns are the loaded rows. -/
theorem pay2_at (v19 : Vec Ideal S10000x16 .f32) (k : Fin 10000) (q : Fin 16) (q' : Fin 64) (hq : q'.val = q.val) :
    k0_pay2 (F := Ideal) v19 (ix2 k q') = v19 (ix2 k q) := by
  unfold k0_pay2
  refine (congrFun (shapeCast_self _ _) (ix2 k q')).trans ?_
  refine concatenate_pair_apply_left (1 : Fin 2) v19 _ _ (ix2 k q') rfl (ix2 k q) fun b => ?_
  match b with
  | ⟨0, _⟩ => rfl
  | ⟨1, _⟩ => exact hq.symm

/-- A bias row broadcast over the 480 rows, read at an index. -/
theorem biasRow_at {b : ℕ} (v : Vec Ideal (⟨2, ![1, b]⟩ : Shape) .f32) (h₁ : (⟨2, ![1, b]⟩ : Shape).ShapeCasts ⟨2, ![1, b]⟩)
    (h₂ : (⟨2, ![1, b]⟩ : Shape).Broadcasts ⟨2, ![480, b]⟩) (a : Fin 480) (c : Fin b) :
    broadcastTo ⟨2, ![480, b]⟩ (shapeCast ⟨2, ![1, b]⟩ v h₁) h₂ (ix2 a c) = v (ix2 (0 : Fin 1) c) :=
  (broadcastTo_1b_ab_apply _ _ a c).trans (congrFun (shapeCast_self v _) _)

/-- The dense head's first product: from a hidden row `h` (the relu layer's row `a`) the decoded row against the
    upper half of the last weight matrix. -/
theorem pay7_at (v12 : FVec Ideal S480x64 .f32) (v19 : Vec Ideal S1x64 .f32) (v25 : Vec Ideal S64x32 .f32) (v27 : Vec Ideal S1x32 .f32)
    (v31 : Vec Ideal S64x32 .f32) (v33 : Vec Ideal S1x32 .f32) (v37 : Vec Ideal S480x32 .f32) (v41 : Vec Ideal S32x64 .f32)
    (v43 : Vec Ideal S1x64 .f32) (v49 : Vec Ideal S64x16 .f32) (a : Fin 480) (q : Fin 16) :
    k0_pay7 (F := Ideal) v12 v19 v25 v27 v31 v33 v37 v41 v43 v49 (ix2 a q)
      = ∑ c : Fin 64, Spec.dec (Spec.code (fun c => k0_pay6 (F := Ideal) v12 v19 (ix2 a c)) (fun c e => v25 (ix2 c e)) (fun e => v27 (ix2 (0 : Fin 1) e))
          (fun c e => v31 (ix2 c e)) (fun e => v33 (ix2 (0 : Fin 1) e)) (fun e => v37 (ix2 a e)))
          (fun e c => v41 (ix2 e c)) (fun c => v43 (ix2 (0 : Fin 1) c)) c * v49 (ix2 c q) := by
  unfold k0_pay7
  refine (Cert.LibPlainDot.matmul_zero_apply _ dotE none _ v49 a q).trans ?_
  refine Finset.sum_congr rfl fun c _ => congrArg (· * v49 (ix2 c q)) ?_
  unfold Spec.dec
  refine congrArg (fun z => max z Spec.z0) ?_
  refine congrArg₂ (· + ·) ?_ (biasRow_at v43 _ _ a c)
  refine (Cert.LibPlainDot.matmul_zero_apply _ dotD none _ v41 a c).trans ?_
  refine Finset.sum_congr rfl fun e _ => congrArg (· * v41 (ix2 e c)) ?_
  unfold Spec.code Spec.lin
  refine congrArg₂ (· + ·) ?_ ?_
  · exact congrArg₂ (· + ·) (Cert.LibPlainDot.matmul_zero_apply _ dotC none _ v25 a e) (biasRow_at v27 _ _ a e)
  · refine congrArg (fun z => v37 (ix2 a e) * Ideal.exp z) ?_
    exact congrArg₂ (· + ·) (Cert.LibPlainDot.matmul_zero_apply _ dotC none _ v31 a e) (biasRow_at v33 _ _ a e)

/-- The 480 rows a first-sweep point stores: row `a` is the specification's row of u from the adjacency block's row
    `a`, the right-hand matrix, the weights and the noise block's row `a`. -/
theorem sweepOneRows_at (x1 : Vec Ideal S480x10000 .f32) (s : Vec Ideal S10000x64 .f32) (x3 : Vec Ideal S1x64 .f32) (x4 : Vec Ideal S64x32 .f32)
    (x5 : Vec Ideal S1x32 .f32) (x6 : Vec Ideal S64x32 .f32) (x7 : Vec Ideal S1x32 .f32) (x8 : Vec Ideal S32x64 .f32) (x9 : Vec Ideal S1x64 .f32)
    (x10 : Vec Ideal S128x16 .f32) (x12 : Vec Ideal S480x32 .f32) (a : Fin 480) (q : Fin 16) :
    sweepOneRows (F := Ideal) x1 s x3 x4 x5 x6 x7 x8 x9 x10 x12 (ix2 a q)
      = Spec.uRow (fun k => x1 (ix2 a k)) (fun k c => s (ix2 k c)) (fun c => x3 (ix2 (0 : Fin 1) c))
          (fun c e => x4 (ix2 c e)) (fun e => x5 (ix2 (0 : Fin 1) e)) (fun c e => x6 (ix2 c e)) (fun e => x7 (ix2 (0 : Fin 1) e))
          (fun e c => x8 (ix2 e c)) (fun c => x9 (ix2 (0 : Fin 1) c))
          (fun c q => wTop x10 (ix2 c q)) (fun c q => wBot x10 (ix2 c q)) (fun e => x12 (ix2 a e)) q := by
  have hh : (fun c => k0_pay6 (F := Ideal) (k0_pay3 x1 s) x3 (ix2 a c))
      = Spec.hid (fun k => x1 (ix2 a k)) (fun k c => s (ix2 k c)) (fun c => x3 (ix2 (0 : Fin 1) c)) :=
    funext fun c => (pay6_at _ x3 a c).trans (congrArg (fun z => max (z + x3 (ix2 (0 : Fin 1) c)) Spec.z0) (pay3_at x1 s a c))
  unfold sweepOneRows k0_pay4 Spec.uRow Spec.mix
  refine (congrFun (shapeCast_self _ _) (ix2 a q)).trans ?_
  refine congrArg₂ (· + ·) ?_ ?_
  · refine (pay7_at _ x3 x4 x5 x6 x7 x12 x8 x9 (wTop x10) a q).trans ?_
    rw [hh]
  · refine (Cert.LibPlainDot.matmul_zero_apply _ dotE none _ (wBot x10) a q).trans ?_
    exact Finset.sum_congr rfl fun c _ => congrArg (· * wBot x10 (ix2 c q)) (congrFun hh c)

/-- The row-wise log-softmax the body spells with two lane reductions kept as columns, over any 480×16 matrix. -/
theorem lsm_core (v23 : FVec Ideal S480x16 .f32)
    (hr : S480x16.Reduces [1] S480) (hφ : FKind.Formats .f32) (hm : (0xFF800000#32 : BitVec 32) = FKind.maximumf.neutral .f32 hφ)
    (hs : (0x00000000#32 : BitVec 32) = FKind.add.neutral .f32 hφ)
    (hc : S480.ShapeCasts S480x1) (hb : S480x1.Broadcasts S480x16) (a : Fin 480) (q : Fin 16) :
    subf (subf v23 (broadcastTo S480x16 (shapeCast S480x1 (multiReduction .maximumf [1] S480 v23 0xFF800000#32 hr hφ hm) hc) hb))
      (broadcastTo S480x16 (log (shapeCast S480x1 (multiReduction .add [1] S480
          (exp (subf v23 (broadcastTo S480x16 (shapeCast S480x1 (multiReduction .maximumf [1] S480 v23 0xFF800000#32 hr hφ hm) hc) hb)))
          0x00000000#32 hr hφ hs) hc)) hb) (ix2 a q)
      = Spec.lsm (fun q' => v23 (ix2 a q')) q := by
  have hM : ∀ q' : Fin 16, broadcastTo S480x16 (shapeCast S480x1 (multiReduction .maximumf [1] S480 v23 0xFF800000#32 hr hφ hm) hc) hb (ix2 a q')
      = (Finset.univ : Finset (Fin 16)).fold max Spec.ninf (fun k => v23 (ix2 a k)) := fun q' =>
    (Cert.Proof.Column.broadcastTo_a1_ab_apply _ hb a q').trans
      ((Cert.Proof.Column.shapeCast_a_a1_apply _ hc a 0).trans (laneMax_apply v23 _ hr hφ hm a))
  unfold Spec.lsm
  refine congrArg₂ (· - ·) (congrArg (fun z => v23 (ix2 a q) - z) (hM q)) ?_
  refine (Cert.Proof.Column.broadcastTo_a1_ab_apply _ hb a q).trans ?_
  refine congrArg Ideal.log ?_
  refine (Cert.Proof.Column.shapeCast_a_a1_apply _ hc a 0).trans ?_
  refine (Cert.Proof.Column.laneSum_apply _ _ hr hφ hs a).trans ?_
  exact Finset.sum_congr rfl fun q' _ => congrArg (fun z => Ideal.exp (v23 (ix2 a q') - z)) (hM q')

/-- What a second-sweep point stores: row `a` is the log-softmax of the adjacency block's row `a` against the first
    sixteen columns of the right-hand scratch, plus the bias. -/
theorem pay5_at (v10 : Vec Ideal S480x10000 .f32) (v11 : Vec Ideal S10000x64 .f32) (v20 : Vec Ideal S1x16 .f32) (a : Fin 480) (q : Fin 16) :
    k0_pay5 (F := Ideal) v10 v11 v20 (ix2 a q)
      = Spec.lsm (fun q' => (∑ k : Fin 10000, v10 (ix2 a k) * v11 (ix2 k (Fin.castLE (by decide : 16 ≤ 64) q'))) + v20 (ix2 (0 : Fin 1) q')) q := by
  unfold k0_pay5
  refine (lsm_core _ _ _ _ _ _ _ a q).trans ?_
  refine congrArg (fun o => Spec.lsm o q) (funext fun q' => ?_)
  refine congrArg₂ (· + ·) ?_ (biasRow_at v20 _ _ a q')
  exact (slice2_axis1_apply 0 _ _ a q' (Fin.castLE (by decide : 16 ≤ 64) q') (Nat.zero_add _).symm).trans (pay3_at v10 v11 a _)

end Cert.KernelIdeal.At

end
-- ==== Proof.Blocks.lean ====
/-
  Which entries of which array each staging buffer holds, at the ideal instance.

  The eleven windows that are whole arrays hold their array at every point. The adjacency's window holds, at a point
  whose block index is b, rows 480·b onwards of the adjacency: 480 of them, or the 400 that are left at the last
  block, the buffer's other rows holding words nothing names. The noise's window likewise during the first sweep, and
  the result's window writes back the same rows of the result during the second.
-/
import proofs.«156255_g28346784154176_retrytranche2_455_35_alg».proof.Proof.FrameRun
import proofs.«156255_g28346784154176_retrytranche2_455_35_alg».proof.Proof.KernelAt

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (RDat)

variable (m : (ℓ : Loc nD τ sig) → Buf (Elt Ideal) ℓ) (c : Dev nD)

/-! ## The block indices and cuts, decided over the grid -/

theorem idx_0 : ∀ (t : Fin cfg0.N) (a : Fin 2), win0_0.index t a = 0 :=
  (by decide +kernel : ∀ (t : Fin grid0.N) (a : Fin 2), win0_0.index t a = 0)
theorem idx_2 : ∀ (t : Fin cfg0.N) (a : Fin 2), win0_2.index t a = 0 :=
  (by decide +kernel : ∀ (t : Fin grid0.N) (a : Fin 2), win0_2.index t a = 0)
theorem idx_3 : ∀ (t : Fin cfg0.N) (a : Fin 2), win0_3.index t a = 0 :=
  (by decide +kernel : ∀ (t : Fin grid0.N) (a : Fin 2), win0_3.index t a = 0)
theorem idx_4 : ∀ (t : Fin cfg0.N) (a : Fin 2), win0_4.index t a = 0 :=
  (by decide +kernel : ∀ (t : Fin grid0.N) (a : Fin 2), win0_4.index t a = 0)
theorem idx_5 : ∀ (t : Fin cfg0.N) (a : Fin 2), win0_5.index t a = 0 :=
  (by decide +kernel : ∀ (t : Fin grid0.N) (a : Fin 2), win0_5.index t a = 0)
theorem idx_6 : ∀ (t : Fin cfg0.N) (a : Fin 2), win0_6.index t a = 0 :=
  (by decide +kernel : ∀ (t : Fin grid0.N) (a : Fin 2), win0_6.index t a = 0)
theorem idx_7 : ∀ (t : Fin cfg0.N) (a : Fin 2), win0_7.index t a = 0 :=
  (by decide +kernel : ∀ (t : Fin grid0.N) (a : Fin 2), win0_7.index t a = 0)
theorem idx_8 : ∀ (t : Fin cfg0.N) (a : Fin 2), win0_8.index t a = 0 :=
  (by decide +kernel : ∀ (t : Fin grid0.N) (a : Fin 2), win0_8.index t a = 0)
theorem idx_9 : ∀ (t : Fin cfg0.N) (a : Fin 2), win0_9.index t a = 0 :=
  (by decide +kernel : ∀ (t : Fin grid0.N) (a : Fin 2), win0_9.index t a = 0)
theorem idx_10 : ∀ (t : Fin cfg0.N) (a : Fin 2), win0_10.index t a = 0 :=
  (by decide +kernel : ∀ (t : Fin grid0.N) (a : Fin 2), win0_10.index t a = 0)
theorem idx_11 : ∀ (t : Fin cfg0.N) (a : Fin 2), win0_11.index t a = 0 :=
  (by decide +kernel : ∀ (t : Fin grid0.N) (a : Fin 2), win0_11.index t a = 0)

/-- The adjacency's block index is the point's position in its sweep; its blocks are 480 rows, the last one 400. -/
theorem idx_1 : ∀ t : Fin cfg0.N, win0_1.index t 0 = t.val % 21 ∧ win0_1.index t 1 = 0
    ∧ win0_1.xsize (grid0.coords t) 0 = min 480 (10000 - 480 * (t.val % 21)) ∧ win0_1.xsize (grid0.coords t) 1 = 10000 :=
  (by decide +kernel : ∀ t : Fin grid0.N, win0_1.index t 0 = t.val % 21 ∧ win0_1.index t 1 = 0
    ∧ win0_1.xsize (grid0.coords t) 0 = min 480 (10000 - 480 * (t.val % 21)) ∧ win0_1.xsize (grid0.coords t) 1 = 10000)
/-- The noise's, during the first sweep. -/
theorem idx_12 : ∀ t : Fin cfg0.N, t.val < 21 → win0_12.index t 0 = t.val ∧ win0_12.index t 1 = 0
    ∧ win0_12.xsize (grid0.coords t) 0 = min 480 (10000 - 480 * t.val) ∧ win0_12.xsize (grid0.coords t) 1 = 32 :=
  (by decide +kernel : ∀ t : Fin grid0.N, t.val < 21 → win0_12.index t 0 = t.val ∧ win0_12.index t 1 = 0
    ∧ win0_12.xsize (grid0.coords t) 0 = min 480 (10000 - 480 * t.val) ∧ win0_12.xsize (grid0.coords t) 1 = 32)
/-- The result's, during the second sweep; it is written back exactly there. -/
theorem idx_13 : ∀ t : Fin cfg0.N, 21 ≤ t.val → win0_13.index t 0 = t.val - 21 ∧ win0_13.index t 1 = 0
    ∧ win0_13.xsize (grid0.coords t) 0 = min 480 (10000 - 480 * (t.val - 21)) ∧ win0_13.xsize (grid0.coords t) 1 = 16 :=
  (by decide +kernel : ∀ t : Fin grid0.N, 21 ≤ t.val → win0_13.index t 0 = t.val - 21 ∧ win0_13.index t 1 = 0
    ∧ win0_13.xsize (grid0.coords t) 0 = min 480 (10000 - 480 * (t.val - 21)) ∧ win0_13.xsize (grid0.coords t) 1 = 16)
theorem flush_13 : ∀ t : Fin cfg0.N, (cfg0.win 13).flush t = true ↔ 21 ≤ t.val :=
  (by decide +kernel : ∀ t : Fin grid0.N, win0_13.flush t = true ↔ 21 ≤ t.val)

/-! ## The whole-array windows -/

theorem blk_0 (t : Fin cfg0.N) : (Gen.iblk m c 0 t : Vec Ideal S10000x128 .f32) = Gen.V m c main_arg0 := by
  funext y
  show Gen.V m c main_arg0 (((cfg0.win 0).blk t).view.emb y) = Gen.V m c main_arg0 y
  refine congrArg (Gen.V m c main_arg0) (funext fun a => Fin.ext ?_)
  show win0_0.index t a * S10000x128.size a + 1 * (y a).val = (y a).val
  rw [idx_0 t a]; omega

theorem blk_2 (t : Fin cfg0.N) : (Gen.iblk m c 2 t : Vec Ideal S128x64 .f32) = Gen.V m c main_arg2 := by
  funext y
  show Gen.V m c main_arg2 (((cfg0.win 2).blk t).view.emb y) = Gen.V m c main_arg2 y
  refine congrArg (Gen.V m c main_arg2) (funext fun a => Fin.ext ?_)
  show win0_2.index t a * S128x64.size a + 1 * (y a).val = (y a).val
  rw [idx_2 t a]; omega
theorem blk_3 (t : Fin cfg0.N) : (Gen.iblk m c 3 t : Vec Ideal S1x64 .f32) = Gen.V m c main_v0 := by
  funext y
  show Gen.V m c main_v0 (((cfg0.win 3).blk t).view.emb y) = Gen.V m c main_v0 y
  refine congrArg (Gen.V m c main_v0) (funext fun a => Fin.ext ?_)
  show win0_3.index t a * S1x64.size a + 1 * (y a).val = (y a).val
  rw [idx_3 t a]; omega
theorem blk_4 (t : Fin cfg0.N) : (Gen.iblk m c 4 t : Vec Ideal S64x32 .f32) = Gen.V m c main_arg4 := by
  funext y
  show Gen.V m c main_arg4 (((cfg0.win 4).blk t).view.emb y) = Gen.V m c main_arg4 y
  refine congrArg (Gen.V m c main_arg4) (funext fun a => Fin.ext ?_)
  show win0_4.index t a * S64x32.size a + 1 * (y a).val = (y a).val
  rw [idx_4 t a]; omega
theorem blk_5 (t : Fin cfg0.N) : (Gen.iblk m c 5 t : Vec Ideal S1x32 .f32) = Gen.V m c main_v1 := by
  funext y
  show Gen.V m c main_v1 (((cfg0.win 5).blk t).view.emb y) = Gen.V m c main_v1 y
  refine congrArg (Gen.V m c main_v1) (funext fun a => Fin.ext ?_)
  show win0_5.index t a * S1x32.size a + 1 * (y a).val = (y a).val
  rw [idx_5 t a]; omega
theorem blk_6 (t : Fin cfg0.N) : (Gen.iblk m c 6 t : Vec Ideal S64x32 .f32) = Gen.V m c main_arg6 := by
  funext y
  show Gen.V m c main_arg6 (((cfg0.win 6).blk t).view.emb y) = Gen.V m c main_arg6 y
  refine congrArg (Gen.V m c main_arg6) (funext fun a => Fin.ext ?_)
  show win0_6.index t a * S64x32.size a + 1 * (y a).val = (y a).val
  rw [idx_6 t a]; omega
theorem blk_7 (t : Fin cfg0.N) : (Gen.iblk m c 7 t : Vec Ideal S1x32 .f32) = Gen.V m c main_v2 := by
  funext y
  show Gen.V m c main_v2 (((cfg0.win 7).blk t).view.emb y) = Gen.V m c main_v2 y
  refine congrArg (Gen.V m c main_v2) (funext fun a => Fin.ext ?_)
  show win0_7.index t a * S1x32.size a + 1 * (y a).val = (y a).val
  rw [idx_7 t a]; omega
theorem blk_8 (t : Fin cfg0.N) : (Gen.iblk m c 8 t : Vec Ideal S32x64 .f32) = Gen.V m c main_arg8 := by
  funext y
  show Gen.V m c main_arg8 (((cfg0.win 8).blk t).view.emb y) = Gen.V m c main_arg8 y
  refine congrArg (Gen.V m c main_arg8) (funext fun a => Fin.ext ?_)
  show win0_8.index t a * S32x64.size a + 1 * (y a).val = (y a).val
  rw [idx_8 t a]; omega
theorem blk_9 (t : Fin cfg0.N) : (Gen.iblk m c 9 t : Vec Ideal S1x64 .f32) = Gen.V m c main_v3 := by
  funext y
  show Gen.V m c main_v3 (((cfg0.win 9).blk t).view.emb y) = Gen.V m c main_v3 y
  refine congrArg (Gen.V m c main_v3) (funext fun a => Fin.ext ?_)
  show win0_9.index t a * S1x64.size a + 1 * (y a).val = (y a).val
  rw [idx_9 t a]; omega
theorem blk_10 (t : Fin cfg0.N) : (Gen.iblk m c 10 t : Vec Ideal S128x16 .f32) = Gen.V m c main_arg10 := by
  funext y
  show Gen.V m c main_arg10 (((cfg0.win 10).blk t).view.emb y) = Gen.V m c main_arg10 y
  refine congrArg (Gen.V m c main_arg10) (funext fun a => Fin.ext ?_)
  show win0_10.index t a * S128x16.size a + 1 * (y a).val = (y a).val
  rw [idx_10 t a]; omega
theorem blk_11 (t : Fin cfg0.N) : (Gen.iblk m c 11 t : Vec Ideal S1x16 .f32) = Gen.V m c main_v4 := by
  funext y
  show Gen.V m c main_v4 (((cfg0.win 11).blk t).view.emb y) = Gen.V m c main_v4 y
  refine congrArg (Gen.V m c main_v4) (funext fun a => Fin.ext ?_)
  show win0_11.index t a * S1x16.size a + 1 * (y a).val = (y a).val
  rw [idx_11 t a]; omega

/-! ## The two clipped inputs, on the rows inside their arrays -/

/-- Row `a` of the adjacency's buffer at point `t` is row 480·(t mod 21) + a of the adjacency, when that is a row. -/
theorem adj_at (t : Fin cfg0.N) (d : Vec Ideal S480x10000 .f32) (a : Fin 480) (k : Fin 10000) (r : Fin 10000)
    (hr : r.val = 480 * (t.val % 21) + a.val) : adjGot m c t d (ix2 a k) = Gen.V m c main_arg1 (ix2 r k) := by
  obtain ⟨h0, h1, hx0, hx1⟩ := idx_1 t
  have hmv : win0_1.moved (grid0.coords t) (ix2 a k) = true := (win0_1.moved_iff _ _).mpr fun ax => by
    match ax with
    | ⟨0, _⟩ => show a.val < win0_1.xsize (grid0.coords t) 0; rw [hx0]; have := r.isLt; have := a.isLt; omega
    | ⟨1, _⟩ => show k.val < win0_1.xsize (grid0.coords t) 1; rw [hx1]; exact k.isLt
  unfold adjGot Pipeline.Window.fill
  rw [dif_pos hmv]
  show Gen.V m c main_arg1 (((cfg0.win 1).blk t).view.emb _) = Gen.V m c main_arg1 (ix2 r k)
  refine congrArg (Gen.V m c main_arg1) (funext fun ax => Fin.ext ?_)
  match ax with
  | ⟨0, _⟩ => show win0_1.index t 0 * 480 + 1 * a.val = r.val; rw [h0]; omega
  | ⟨1, _⟩ => show win0_1.index t 1 * 10000 + 1 * k.val = k.val; rw [h1]; omega

/-- Row `a` of the noise's buffer at first-sweep point `t` is row 480·t + a of the noise, when that is a row. -/
theorem eps_at (t : Fin cfg0.N) (ht : t.val < 21) (d : Vec Ideal S480x32 .f32) (a : Fin 480) (e : Fin 32) (r : Fin 10000)
    (hr : r.val = 480 * t.val + a.val) : epsGot m c t d (ix2 a e) = Gen.V m c main_arg12 (ix2 r e) := by
  obtain ⟨h0, h1, hx0, hx1⟩ := idx_12 t ht
  have hmv : win0_12.moved (grid0.coords t) (ix2 a e) = true := (win0_12.moved_iff _ _).mpr fun ax => by
    match ax with
    | ⟨0, _⟩ => show a.val < win0_12.xsize (grid0.coords t) 0; rw [hx0]; have := r.isLt; have := a.isLt; omega
    | ⟨1, _⟩ => show e.val < win0_12.xsize (grid0.coords t) 1; rw [hx1]; exact e.isLt
  unfold epsGot Pipeline.Window.fill
  rw [dif_pos hmv]
  show Gen.V m c main_arg12 (((cfg0.win 12).blk t).view.emb _) = Gen.V m c main_arg12 (ix2 r e)
  refine congrArg (Gen.V m c main_arg12) (funext fun ax => Fin.ext ?_)
  match ax with
  | ⟨0, _⟩ => show win0_12.index t 0 * 480 + 1 * a.val = r.val; rw [h0]; omega
  | ⟨1, _⟩ => show win0_12.index t 1 * 32 + 1 * e.val = e.val; rw [h1]; omega

end Cert.KernelIdeal.Val

end
-- ==== Proof.OutArray.lean ====
/-
  The result array after the run, at the ideal instance.

  From the filled 10080-row scratch (each first-sweep point's 480 rows are the specification's rows of u, the rows
  inside the arrays being independent of what fills the overhang) every second-sweep point writes back rows of the
  specification's result; the 21 blocks written back cover the result's 10000 rows.
-/
import proofs.«156255_g28346784154176_retrytranche2_455_35_alg».proof.Proof.Blocks

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (RDat)

variable (m : (ℓ : Loc nD τ sig) → Buf (Elt Ideal) ℓ) (c : Dev nD)

/-! ## The arrays as the region finds them, as families over their coordinates -/

abbrev aX : Fin 10000 → Fin 128 → EReal := fun k f => Gen.V m c main_arg0 (ix2 k f)
abbrev aAdj : Fin 10000 → Fin 10000 → EReal := fun r k => Gen.V m c main_arg1 (ix2 r k)
abbrev aWg1 : Fin 128 → Fin 64 → EReal := fun f c' => Gen.V m c main_arg2 (ix2 f c')
abbrev aB1 : Fin 64 → EReal := fun c' => Gen.V m c main_v0 (ix2 (0 : Fin 1) c')
abbrev aW11 : Fin 64 → Fin 32 → EReal := fun c' e => Gen.V m c main_arg4 (ix2 c' e)
abbrev aB11 : Fin 32 → EReal := fun e => Gen.V m c main_v1 (ix2 (0 : Fin 1) e)
abbrev aW12 : Fin 64 → Fin 32 → EReal := fun c' e => Gen.V m c main_arg6 (ix2 c' e)
abbrev aB12 : Fin 32 → EReal := fun e => Gen.V m c main_v2 (ix2 (0 : Fin 1) e)
abbrev aW2 : Fin 32 → Fin 64 → EReal := fun e c' => Gen.V m c main_arg8 (ix2 e c')
abbrev aB2 : Fin 64 → EReal := fun c' => Gen.V m c main_v3 (ix2 (0 : Fin 1) c')
abbrev aWg2 : Fin 128 → Fin 16 → EReal := fun f q => Gen.V m c main_arg10 (ix2 f q)
abbrev aBg2 : Fin 16 → EReal := fun q => Gen.V m c main_v4 (ix2 (0 : Fin 1) q)
abbrev aEps : Fin 10000 → Fin 32 → EReal := fun k e => Gen.V m c main_arg12 (ix2 k e)

/-- The matrix u, row by row. -/
def uMat (k : Fin 10000) (q : Fin 16) : EReal :=
  Spec.uRow (aAdj m c k) (Spec.featProd (aX m c) (aWg1 m c)) (aB1 m c) (aW11 m c) (aB11 m c) (aW12 m c) (aB12 m c) (aW2 m c) (aB2 m c)
    (fun c' q => aWg2 m c (Fin.castAdd 64 c') q) (fun c' q => aWg2 m c (Fin.natAdd 64 c') q) (aEps m c k) q

/-- The result, row by row. -/
def outMat (r : Fin 10000) (q : Fin 16) : EReal := Spec.outRow (aAdj m c r) (uMat m c) (aBg2 m c) q

/-! ## The first sweep's rows -/

/-- Row `a` of what first-sweep point `j` stores is row 480·j + a of u, whatever fills the overhang. -/
theorem rows_at (j : Fin cfg0.N) (hj : j.val < 21) (d1 : Vec Ideal S480x10000 .f32) (d12 : Vec Ideal S480x32 .f32)
    (a : Fin 480) (q : Fin 16) (k : Fin 10000) (hk : k.val = 480 * j.val + a.val) :
    rowsOf m c j d1 d12 (ix2 a q) = uMat m c k q := by
  have hadj : (fun k' => adjGot m c j d1 (ix2 a k')) = aAdj m c k :=
    funext fun k' => adj_at m c j d1 a k' k (by rw [Nat.mod_eq_of_lt hj]; exact hk)
  have heps : (fun e => epsGot m c j d12 (ix2 a e)) = aEps m c k := funext fun e => eps_at m c j hj d12 a e k hk
  have hs : (fun k' c' => rhsOne m c (ix2 k' c')) = Spec.featProd (aX m c) (aWg1 m c) := funext fun k' => funext fun c' => by
    unfold rhsOne; rw [At.pay1_at, blk_0, blk_2]
  have h3 : (fun c' => Gen.iblk m c 3 j (ix2 (0 : Fin 1) c')) = aB1 m c := funext fun c' => congrFun (blk_3 m c j) _
  have h4 : (fun c' e => Gen.iblk m c 4 j (ix2 c' e)) = aW11 m c := funext fun c' => funext fun e => congrFun (blk_4 m c j) _
  have h5 : (fun e => Gen.iblk m c 5 j (ix2 (0 : Fin 1) e)) = aB11 m c := funext fun e => congrFun (blk_5 m c j) _
  have h6 : (fun c' e => Gen.iblk m c 6 j (ix2 c' e)) = aW12 m c := funext fun c' => funext fun e => congrFun (blk_6 m c j) _
  have h7 : (fun e => Gen.iblk m c 7 j (ix2 (0 : Fin 1) e)) = aB12 m c := funext fun e => congrFun (blk_7 m c j) _
  have h8 : (fun e c' => Gen.iblk m c 8 j (ix2 e c')) = aW2 m c := funext fun e => funext fun c' => congrFun (blk_8 m c j) _
  have h9 : (fun c' => Gen.iblk m c 9 j (ix2 (0 : Fin 1) c')) = aB2 m c := funext fun c' => congrFun (blk_9 m c j) _
  have ht : (fun c' q => wTop (Gen.iblk m c 10 j) (ix2 c' q)) = fun c' q => aWg2 m c (Fin.castAdd 64 c') q :=
    funext fun c' => funext fun q => by
      rw [blk_10]
      refine congrArg (Gen.V m c main_arg10) (funext fun ax => Fin.ext ?_)
      match ax with
      | ⟨0, _⟩ => show 0 + 1 * c'.val = c'.val; omega
      | ⟨1, _⟩ => show 0 + 1 * q.val = q.val; omega
  have hb : (fun c' q => wBot (Gen.iblk m c 10 j) (ix2 c' q)) = fun c' q => aWg2 m c (Fin.natAdd 64 c') q :=
    funext fun c' => funext fun q => by
      rw [blk_10]
      refine congrArg (Gen.V m c main_arg10) (funext fun ax => Fin.ext ?_)
      match ax with
      | ⟨0, _⟩ => show 64 + 1 * c'.val = 64 + c'.val; omega
      | ⟨1, _⟩ => show 0 + 1 * q.val = q.val; omega
  unfold rowsOf uMat
  rw [At.sweepOneRows_at, hadj, heps, hs, h3, h4, h5, h6, h7, h8, h9, ht, hb]

/-- The filled 10080-row scratch holds u on its first 10000 rows. -/
theorem filled_at (X1 : Vec Ideal S10080x16 .f32) (h : SweepOne m c 21 X1) (k : Fin 10000) (q : Fin 16) (y : S10080x16.Idx)
    (hy0 : (y 0).val = k.val) (hy1 : (y 1).val = q.val) : X1 y = uMat m c k q := by
  have hk := k.isLt
  have hN : cfg0.N = 42 := N_0
  obtain ⟨d1, d12, hx⟩ := h ⟨k.val / 480, by omega⟩ (by show k.val / 480 < 21; omega) (by show k.val / 480 < 21; omega)
  rw [hx y (ix2 ⟨k.val % 480, Nat.mod_lt _ (by decide)⟩ q) (by show (y 0).val = 480 * (k.val / 480) + k.val % 480; omega) hy1]
  exact rows_at m c _ (by show k.val / 480 < 21; omega) d1 d12 _ q k (by show k.val = 480 * (k.val / 480) + k.val % 480; omega)

/-! ## The second sweep's rows -/

/-- Row `a` of what second-sweep point `t` leaves in the result's buffer is row 480·(t − 21) + a of the result. -/
theorem out_at (t : Fin cfg0.N) (ht : 21 ≤ t.val) (X : Vec Ideal S480x16 .f32) (h : OutRel m c t X) (a : Fin 480) (q : Fin 16)
    (r : Fin 10000) (hr : r.val = 480 * (t.val - 21) + a.val) : X (ix2 a q) = outMat m c r q := by
  obtain ⟨X1, d1, hX1, rfl⟩ := h
  have hN : cfg0.N = 42 := N_0
  have htl := t.isLt
  rw [At.pay5_at]
  unfold outMat Spec.outRow
  refine congrArg (fun o => Spec.lsm o q) (funext fun q' => ?_)
  refine congrArg₂ (· + ·) ?_ (congrFun (blk_11 m c t) (ix2 (0 : Fin 1) q'))
  refine Finset.sum_congr rfl fun k _ => congrArg₂ (· * ·) (adj_at m c t d1 a k r (by omega)) ?_
  rw [At.pay2_at (headRows X1) k q' _ rfl]
  exact filled_at m c X1 hX1 k q' _ (by show 0 + 1 * k.val = k.val; omega) (by show 0 + 1 * q'.val = q'.val; omega)

/-! ## The result array -/

/-- An index of the result lies in point `u`'s written-back block iff its row is one of the block's rows. -/
theorem mem_blk13 (u : Fin cfg0.N) (hu : 21 ≤ u.val) (i : S10000x16.Idx) :
    i ∈ ((cfg0.win 13).blk u).view.setOn Finset.univ ↔
      480 * (u.val - 21) ≤ (i 0).val ∧ (i 0).val < 480 * (u.val - 21) + min 480 (10000 - 480 * (u.val - 21)) := by
  obtain ⟨h0, h1, hx0, hx1⟩ := idx_13 u hu
  rw [View.setOn_univ]
  show i ∈ ((View.whole main_v5).slice (win0_13.rect u)).set ↔ _
  rw [View.set_slice_whole, Rect.mem_set_unit]
  have hi1 : (i 1).val < 16 := (i 1).isLt
  refine ⟨fun h => ?_, fun h ax => ?_⟩
  · have := h 0
    change win0_13.index u 0 * 480 ≤ (i 0).val ∧ (i 0).val < win0_13.index u 0 * 480 + win0_13.xsize (grid0.coords u) 0 at this
    rw [h0, hx0] at this; omega
  · match ax with
    | ⟨0, _⟩ =>
      change win0_13.index u 0 * 480 ≤ (i 0).val ∧ (i 0).val < win0_13.index u 0 * 480 + win0_13.xsize (grid0.coords u) 0
      rw [h0, hx0]; omega
    | ⟨1, _⟩ =>
      change win0_13.index u 1 * 16 ≤ (i 1).val ∧ (i 1).val < win0_13.index u 1 * 16 + win0_13.xsize (grid0.coords u) 1
      rw [h1, hx1]; omega

/-- After the write-backs below `n`, every row of a block already written back is the result's row. -/
theorem arr_rows : ∀ (n : ℕ), n ≤ cfg0.N → ∀ G, (rdat m c).ArrAt 13 n G →
    ∀ (t : Fin cfg0.N), 21 ≤ t.val → t.val < n → ∀ (a : Fin 480) (q : Fin 16) (r : Fin 10000), r.val = 480 * (t.val - 21) + a.val →
      G (ix2 r q) = outMat m c r q
  | 0, _, _, _, _, _, ht, _, _, _, _ => absurd ht (Nat.not_lt_zero _)
  | n + 1, hn, G, hG, t, ht21, htn, a, q, r, hr => by
    have hN : cfg0.N = 42 := N_0
    have hlt : n < cfg0.N := by omega
    have hn42 : n < 42 := by omega
    rw [(rdat m c).ArrAt_succ 13 ⟨n, hlt⟩] at hG
    by_cases hf : (cfg0.win 13).flush ⟨n, hlt⟩ = true
    · rw [if_pos hf] at hG
      obtain ⟨G₀, X, hG₀, ⟨Y, -, hYX⟩, rfl⟩ := hG
      have hn21 : 21 ≤ n := (flush_13 ⟨n, hlt⟩).mp hf
      have hX : OutRel m c ⟨n, hlt⟩ X := by
        have := hYX; dsimp only [rdat] at this; rwa [if_neg (by show ¬n < 21; omega)] at this
      by_cases htu : t.val = n
      · obtain rfl : t = ⟨n, hlt⟩ := Fin.ext htu
        obtain ⟨h0, h1, hx0, hx1⟩ := idx_13 ⟨n, hlt⟩ hn21
        have hrl := r.isLt
        let y : (win0_13.xblock (grid0.coords ⟨n, hlt⟩)).Idx := fun ax => match ax with
          | ⟨0, _⟩ => ⟨a.val, by show a.val < win0_13.xsize (grid0.coords ⟨n, hlt⟩) 0; rw [hx0]; have := a.isLt; omega⟩
          | ⟨1, _⟩ => ⟨q.val, by show q.val < win0_13.xsize (grid0.coords ⟨n, hlt⟩) 1; rw [hx1]; exact q.isLt⟩
        have hemb : ((cfg0.win 13).blk ⟨n, hlt⟩).view.emb y = ix2 r q := funext fun ax => Fin.ext (by
          match ax with
          | ⟨0, _⟩ => show win0_13.index ⟨n, hlt⟩ 0 * 480 + 1 * a.val = r.val; rw [h0]; omega
          | ⟨1, _⟩ => show win0_13.index ⟨n, hlt⟩ 1 * 16 + 1 * q.val = q.val; rw [h1]; omega)
        have hxi : win0_13.xinj (grid0.coords ⟨n, hlt⟩) y = ix2 a q := funext fun ax => Fin.ext (by
          match ax with
          | ⟨0, _⟩ => rfl
          | ⟨1, _⟩ => rfl)
        rw [← hemb, View.write_emb_of_mem _ _ (Finset.mem_univ y), cast_eq]
        show X (win0_13.xinj (grid0.coords ⟨n, hlt⟩) y) = outMat m c r q
        rw [hxi]
        exact out_at m c ⟨n, hlt⟩ hn21 X hX a q r hr
      · have htlt : t.val < n := by omega
        rw [View.write_of_not_mem _ _ _ (fun hmem => by
          have := (mem_blk13 ⟨n, hlt⟩ hn21 (ix2 r q)).mp hmem
          have ha := a.isLt
          change 480 * (n - 21) ≤ r.val ∧ _ at this
          omega)]
        exact arr_rows n (by omega) G₀ hG₀ t ht21 htlt a q r hr
    · rw [if_neg hf] at hG
      have hn21 : ¬21 ≤ n := fun h => hf ((flush_13 ⟨n, hlt⟩).mpr h)
      exact arr_rows n (by omega) G hG t ht21 (by omega) a q r hr

/-- After the run the result array is the specification's result. -/
theorem out_eq (G) (hG : (rdat m c).ArrAt 13 cfg0.N G) (r : Fin 10000) (q : Fin 16) : G (ix2 r q) = outMat m c r q := by
  have hN : cfg0.N = 42 := N_0
  have hr := r.isLt
  have hlt : 21 + r.val / 480 < cfg0.N := by omega
  exact arr_rows m c cfg0.N (le_refl _) G hG ⟨21 + r.val / 480, hlt⟩ (by show 21 ≤ 21 + r.val / 480; omega)
    hlt ⟨r.val % 480, Nat.mod_lt _ (by decide)⟩ q r
    (by show r.val = 480 * (21 + r.val / 480 - 21) + r.val % 480; omega)

end Cert.KernelIdeal.Val

end
-- ==== Proof.LibTRef.lean ====
/-
  A typed reference's two transports cancel.  A module-local function's operation writes its value into the
  buffer through the reference's transport to the buffer's type, and the next operation reads it back through
  the transport from it; the two are casts along one equation and its inverse, so reading back what was
  written gives the value.
-/
import Idealize.ShloMosaic.Lib.StableHlo

namespace Cert.LibTRef

open Idealize.ShloMosaic

/-- Contents written through a typed reference and read back through it are the contents. -/
theorem ofBuf_toBuf {sg : RefSig} {T : BufTy} {Val : EltTy → Type} (x : StableHlo.TRef sg T) (v : T.Contents Val) :
    x.ofBuf (x.toBuf v) = v := by
  obtain ⟨r, h, h2, h3⟩ := x
  subst h
  rfl

end Cert.LibTRef
-- ==== Proof.RefAt.lean ====
/-
  The reference's result read at an index, at the ideal instance: its straight line of host operations, stage by
  stage, is the specification's result row — the host products as plain sums, the biases broadcast along the rows,
  the product against the concatenation [xa, h] split into its two halves, and jax's log-softmax (whose extra
  maximum with minus infinity and whose sum started from zero change nothing).
-/
import proofs.«156255_g28346784154176_retrytranche2_455_35_alg».proof.Proof.ReadP
import proofs.«156255_g28346784154176_retrytranche2_455_35_alg».proof.Proof.Spec
import proofs.«156255_g28346784154176_retrytranche2_455_35_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) (x10 : (⟨S128x16, .f32⟩ : BufTy).Contents (Elt Ideal)) (x11 : (⟨S16, .f32⟩ : BufTy).Contents (Elt Ideal)) (x12 : (⟨S10000x32, .f32⟩ : BufTy).Contents (Elt Ideal))

/-! ## The contractions are plain matrix products -/

theorem rdA : dot_S10000x128_S128x64_S10000x64_1_0_0_1_n_n = DotDims.plain 10000 128 64 := rfl
theorem rdB : dot_S10000x10000_S10000x64_S10000x64_1_0_0_1_n_n = DotDims.plain 10000 10000 64 := rfl
theorem rdC : dot_S10000x64_S64x32_S10000x32_1_0_0_1_n_n = DotDims.plain 10000 64 32 := rfl
theorem rdD : dot_S10000x32_S32x64_S10000x64_1_0_0_1_n_n = DotDims.plain 10000 32 64 := rfl
theorem rdE : dot_S10000x128_S128x16_S10000x16_1_0_0_1_n_n = DotDims.plain 10000 128 16 := rfl
theorem rdF : dot_S10000x10000_S10000x16_S10000x16_1_0_0_1_n_n = DotDims.plain 10000 10000 16 := rfl

/-! ## The arguments as families over their coordinates -/

abbrev fX : Fin 10000 → Fin 128 → EReal := fun k f => x0 (ix2 k f)
abbrev fAdj : Fin 10000 → Fin 10000 → EReal := fun r k => x1 (ix2 r k)
abbrev fWg1 : Fin 128 → Fin 64 → EReal := fun f c => x2 (ix2 f c)
abbrev fB1 : Fin 64 → EReal := fun c => x3 (ix1 c)
abbrev fW11 : Fin 64 → Fin 32 → EReal := fun c e => x4 (ix2 c e)
abbrev fB11 : Fin 32 → EReal := fun e => x5 (ix1 e)
abbrev fW12 : Fin 64 → Fin 32 → EReal := fun c e => x6 (ix2 c e)
abbrev fB12 : Fin 32 → EReal := fun e => x7 (ix1 e)
abbrev fW2 : Fin 32 → Fin 64 → EReal := fun e c => x8 (ix2 e c)
abbrev fB2 : Fin 64 → EReal := fun c => x9 (ix1 c)
abbrev fWg2 : Fin 128 → Fin 16 → EReal := fun f q => x10 (ix2 f q)
abbrev fBg2 : Fin 16 → EReal := fun q => x11 (ix1 q)
abbrev fEps : Fin 10000 → Fin 32 → EReal := fun k e => x12 (ix2 k e)

/-- The hidden row of node `r`. -/
abbrev hRow (r : Fin 10000) : Fin 64 → EReal := Spec.hid (fAdj x1 r) (Spec.featProd (fX x0) (fWg1 x2)) (fB1 x3)

/-! ## The stages -/

theorem r0 (k : Fin 10000) (c : Fin 64) : val_main_v0 (F := Ideal) x0 x2 (ix2 k c) = Spec.featProd (fX x0) (fWg1 x2) k c := by
  unfold val_main_v0 Spec.featProd
  exact Cert.LibPlainDot.dotGeneral_apply _ rdA none x0 x2 k c

theorem r1 (r : Fin 10000) (c : Fin 64) :
    val_main_v1 (F := Ideal) x0 x1 x2 (ix2 r c) = ∑ k : Fin 10000, x1 (ix2 r k) * Spec.featProd (fX x0) (fWg1 x2) k c := by
  unfold val_main_v1
  refine (Cert.LibPlainDot.dotGeneral_apply _ rdB none x1 _ r c).trans ?_
  exact Finset.sum_congr rfl fun k _ => congrArg (x1 (ix2 r k) * ·) (r0 x0 x2 k c)

/-- A bias vector broadcast along the rows, read at an index. -/
theorem r3 (r : Fin 10000) (c : Fin 64) : val_main_v3 (F := Ideal) x3 (ix2 r c) = x3 (ix1 c) :=
  (val_main_v3_apply x3 _).trans ((val_main_v2_apply x3 _).trans (congrArg x3 (funext fun a => by match a with | ⟨0, _⟩ => rfl)))

theorem r5 (r : Fin 10000) (c : Fin 64) : val_main_v5 (F := Ideal) x0 x1 x2 x3 (ix2 r c) = hRow x0 x1 x2 x3 r c := by
  unfold hRow Spec.hid
  exact congrArg₂ max (congrArg₂ (· + ·) (r1 x0 x1 x2 r c) (r3 x3 r c))
    ((val_main_call0_v0_apply _).trans (val_main_call0_cst_apply _))

theorem r8 (r : Fin 10000) (c : Fin 32) : val_main_v8 (F := Ideal) x5 (ix2 r c) = x5 (ix1 c) :=
  (val_main_v8_apply x5 _).trans ((val_main_v7_apply x5 _).trans (congrArg x5 (funext fun a => by match a with | ⟨0, _⟩ => rfl)))
theorem r12 (r : Fin 10000) (c : Fin 32) : val_main_v12 (F := Ideal) x7 (ix2 r c) = x7 (ix1 c) :=
  (val_main_v12_apply x7 _).trans ((val_main_v11_apply x7 _).trans (congrArg x7 (funext fun a => by match a with | ⟨0, _⟩ => rfl)))
theorem r19 (r : Fin 10000) (c : Fin 64) : val_main_v19 (F := Ideal) x9 (ix2 r c) = x9 (ix1 c) :=
  (val_main_v19_apply x9 _).trans ((val_main_v18_apply x9 _).trans (congrArg x9 (funext fun a => by match a with | ⟨0, _⟩ => rfl)))
theorem r26 (r : Fin 10000) (c : Fin 16) : val_main_v26 (F := Ideal) x11 (ix2 r c) = x11 (ix1 c) :=
  (val_main_v26_apply x11 _).trans ((val_main_v25_apply x11 _).trans (congrArg x11 (funext fun a => by match a with | ⟨0, _⟩ => rfl)))

theorem r9 (r : Fin 10000) (e : Fin 32) :
    val_main_v9 (F := Ideal) x0 x1 x2 x3 x4 x5 (ix2 r e) = Spec.lin (hRow x0 x1 x2 x3 r) (fW11 x4) (fB11 x5) e := by
  unfold Spec.lin
  refine congrArg₂ (· + ·) ?_ (r8 x5 r e)
  unfold val_main_v6
  refine (Cert.LibPlainDot.dotGeneral_apply _ rdC none _ x4 r e).trans ?_
  exact Finset.sum_congr rfl fun c _ => congrArg (· * x4 (ix2 c e)) (r5 x0 x1 x2 x3 r c)

theorem r13 (r : Fin 10000) (e : Fin 32) :
    val_main_v13 (F := Ideal) x0 x1 x2 x3 x6 x7 (ix2 r e) = Spec.lin (hRow x0 x1 x2 x3 r) (fW12 x6) (fB12 x7) e := by
  unfold Spec.lin
  refine congrArg₂ (· + ·) ?_ (r12 x7 r e)
  unfold val_main_v10
  refine (Cert.LibPlainDot.dotGeneral_apply _ rdC none _ x6 r e).trans ?_
  exact Finset.sum_congr rfl fun c _ => congrArg (· * x6 (ix2 c e)) (r5 x0 x1 x2 x3 r c)

theorem r16 (r : Fin 10000) (e : Fin 32) :
    val_main_v16 (F := Ideal) x0 x1 x2 x3 x4 x5 x6 x7 x12 (ix2 r e)
      = Spec.code (hRow x0 x1 x2 x3 r) (fW11 x4) (fB11 x5) (fW12 x6) (fB12 x7) (fEps x12 r) e := by
  unfold Spec.code
  exact congrArg₂ (· + ·) (r9 x0 x1 x2 x3 x4 x5 r e)
    (congrArg (fun z => x12 (ix2 r e) * Ideal.exp z) (r13 x0 x1 x2 x3 x6 x7 r e))

/-- The decoded row of node `r`. -/
abbrev xaRow (r : Fin 10000) : Fin 64 → EReal :=
  Spec.dec (Spec.code (hRow x0 x1 x2 x3 r) (fW11 x4) (fB11 x5) (fW12 x6) (fB12 x7) (fEps x12 r)) (fW2 x8) (fB2 x9)

theorem r21 (r : Fin 10000) (c : Fin 64) :
    val_main_v21 (F := Ideal) x0 x1 x2 x3 x4 x5 x6 x7 x8 x9 x12 (ix2 r c) = xaRow x0 x1 x2 x3 x4 x5 x6 x7 x8 x9 x12 r c := by
  unfold xaRow Spec.dec
  refine congrArg₂ max (congrArg₂ (· + ·) ?_ (r19 x9 r c)) ((val_main_call1_v0_apply _).trans (val_main_call1_cst_apply _))
  unfold val_main_v17
  refine (Cert.LibPlainDot.dotGeneral_apply _ rdD none _ x8 r c).trans ?_
  exact Finset.sum_congr rfl fun e _ => congrArg (· * x8 (ix2 e c)) (r16 x0 x1 x2 x3 x4 x5 x6 x7 x12 r e)

/-- The concatenation [xa, h] along the columns: its first 64 columns are xa's, its last 64 are h's. -/
theorem r22a (r : Fin 10000) (c : Fin 64) :
    val_main_v22 (F := Ideal) x0 x1 x2 x3 x4 x5 x6 x7 x8 x9 x12 (ix2 r (Fin.castAdd 64 c : Fin 128))
      = val_main_v21 (F := Ideal) x0 x1 x2 x3 x4 x5 x6 x7 x8 x9 x12 (ix2 r c) := by
  unfold val_main_v22
  refine concatenate_pair_apply_left (t := S10000x128) (s₁ := S10000x64) (s₂ := S10000x64) (1 : Fin 2)
    (val_main_v21 (F := Ideal) x0 x1 x2 x3 x4 x5 x6 x7 x8 x9 x12) (val_main_v5 (F := Ideal) x0 x1 x2 x3) _ (ix2 r (Fin.castAdd 64 c : Fin 128)) rfl (ix2 r c) fun b => ?_
  match b with
  | ⟨0, _⟩ => rfl
  | ⟨1, _⟩ => rfl

theorem r22b (r : Fin 10000) (c : Fin 64) :
    val_main_v22 (F := Ideal) x0 x1 x2 x3 x4 x5 x6 x7 x8 x9 x12 (ix2 r (Fin.natAdd 64 c : Fin 128))
      = val_main_v5 (F := Ideal) x0 x1 x2 x3 (ix2 r c) := by
  unfold val_main_v22
  refine concatenate_pair_apply_right (t := S10000x128) (s₁ := S10000x64) (s₂ := S10000x64) (1 : Fin 2)
    (val_main_v21 (F := Ideal) x0 x1 x2 x3 x4 x5 x6 x7 x8 x9 x12) (val_main_v5 (F := Ideal) x0 x1 x2 x3) _ (ix2 r (Fin.natAdd 64 c : Fin 128)) rfl rfl (ix2 r c) (fun b hb => ?_) ?_
  · match b with
    | ⟨0, _⟩ => rfl
    | ⟨1, _⟩ => exact absurd rfl hb
  · show c.val + 64 = 64 + c.val
    omega

/-- The row of u of node `r`. -/
abbrev uOf (r : Fin 10000) (q : Fin 16) : EReal :=
  Spec.uRow (fAdj x1 r) (Spec.featProd (fX x0) (fWg1 x2)) (fB1 x3) (fW11 x4) (fB11 x5) (fW12 x6) (fB12 x7) (fW2 x8) (fB2 x9)
    (fun c q => fWg2 x10 (Fin.castAdd 64 c) q) (fun c q => fWg2 x10 (Fin.natAdd 64 c) q) (fEps x12 r) q

theorem r23 (r : Fin 10000) (q : Fin 16) :
    val_main_v23 (F := Ideal) x0 x1 x2 x3 x4 x5 x6 x7 x8 x9 x10 x12 (ix2 r q) = uOf x0 x1 x2 x3 x4 x5 x6 x7 x8 x9 x10 x12 r q := by
  unfold val_main_v23 uOf Spec.uRow Spec.mix
  refine (Cert.LibPlainDot.dotGeneral_apply _ rdE none _ x10 r q).trans ?_
  refine (Cert.LibPlainDot.sum_fin_add 64 64 _).trans ?_
  exact congrArg₂ (· + ·)
    (Finset.sum_congr rfl fun c _ => congrArg (· * x10 (ix2 (Fin.castAdd 64 c : Fin 128) q))
      ((r22a x0 x1 x2 x3 x4 x5 x6 x7 x8 x9 x12 r c).trans (r21 x0 x1 x2 x3 x4 x5 x6 x7 x8 x9 x12 r c)))
    (Finset.sum_congr rfl fun c _ => congrArg (· * x10 (ix2 (Fin.natAdd 64 c : Fin 128) q))
      ((r22b x0 x1 x2 x3 x4 x5 x6 x7 x8 x9 x12 r c).trans (r5 x0 x1 x2 x3 r c)))

theorem r27 (r : Fin 10000) (q : Fin 16) :
    val_main_v27 (F := Ideal) x0 x1 x2 x3 x4 x5 x6 x7 x8 x9 x10 x11 x12 (ix2 r q)
      = (∑ k : Fin 10000, x1 (ix2 r k) * uOf x0 x1 x2 x3 x4 x5 x6 x7 x8 x9 x10 x12 k q) + x11 (ix1 q) := by
  refine congrArg₂ (· + ·) ?_ (r26 x11 r q)
  unfold val_main_v24
  refine (Cert.LibPlainDot.dotGeneral_apply _ rdF none x1 _ r q).trans ?_
  exact Finset.sum_congr rfl fun k _ => congrArg (x1 (ix2 r k) * ·) (r23 x0 x1 x2 x3 x4 x5 x6 x7 x8 x9 x10 x12 k q)

/-! ## jax's log-softmax -/

/-- Minus infinity is neutral for the maximum, zero for the sum. -/
theorem max_ninf (y : EReal) : max Spec.ninf y = y := by
  show max (Ideal.ofBits .f32 0xFF800000#32) y = y
  simp [Ideal.ofBits, Ideal.ieee]
theorem z0_add (y : EReal) : Spec.z0 + y = y := by
  show Ideal.ofBits .f32 0x00000000#32 + y = y
  rw [Ideal.ofBits_zero_f32, zero_add]

/-- Row `r` of the pre-softmax matrix. -/
abbrev oRow (r : Fin 10000) : Fin 16 → EReal := fun q' => val_main_v27 (F := Ideal) x0 x1 x2 x3 x4 x5 x6 x7 x8 x9 x10 x11 x12 (ix2 r q')

/-- The row maximum jax takes: the maximum with minus infinity of the reduce from minus infinity. -/
theorem rMax (r : Fin 10000) :
    val_main_call2_v2 (F := Ideal) x0 x1 x2 x3 x4 x5 x6 x7 x8 x9 x10 x11 x12 (ix1 r) = (Finset.univ : Finset (Fin 16)).fold max Spec.ninf (oRow x0 x1 x2 x3 x4 x5 x6 x7 x8 x9 x10 x11 x12 r) := by
  have hred : S10000x16.Reduces [1] S10000 := by decide
  show max (val_main_call2_v1 (F := Ideal) (ix1 r)) (val_main_call2_v0 (F := Ideal) x0 x1 x2 x3 x4 x5 x6 x7 x8 x9 x10 x11 x12 (ix1 r)) = _
  rw [show val_main_call2_v1 (F := Ideal) (ix1 r) = Spec.ninf from (val_main_call2_v1_apply _).trans (val_main_call2_cst_0_apply _), max_ninf]
  unfold val_main_call2_v0
  refine (Host.reduce_eq_fold_single FloatOps.maximumf _ _ _ hred _ (ix1 r)).trans ?_
  refine congrArg ((Finset.univ : Finset (Fin 16)).fold max Spec.ninf) (funext fun k => ?_)
  refine congrArg (val_main_v27 (F := Ideal) x0 x1 x2 x3 x4 x5 x6 x7 x8 x9 x10 x11 x12) (funext fun c => ?_)
  match c with
  | ⟨0, _⟩ => rfl
  | ⟨1, _⟩ => rfl

theorem r28 (r : Fin 10000) (q : Fin 16) :
    val_main_v28 (F := Ideal) x0 x1 x2 x3 x4 x5 x6 x7 x8 x9 x10 x11 x12 (ix2 r q) = Spec.lsm (oRow x0 x1 x2 x3 x4 x5 x6 x7 x8 x9 x10 x11 x12 r) q := by
  have hM : ∀ q' : Fin 16, val_main_call2_v4 (F := Ideal) x0 x1 x2 x3 x4 x5 x6 x7 x8 x9 x10 x11 x12 (ix2 r q')
      = (Finset.univ : Finset (Fin 16)).fold max Spec.ninf (oRow x0 x1 x2 x3 x4 x5 x6 x7 x8 x9 x10 x11 x12 r) := fun q' =>
    (val_main_call2_v4_apply x0 x1 x2 x3 x4 x5 x6 x7 x8 x9 x10 x11 x12 _).trans ((val_main_call2_v3_apply x0 x1 x2 x3 x4 x5 x6 x7 x8 x9 x10 x11 x12 _).trans
      ((congrArg (val_main_call2_v2 (F := Ideal) x0 x1 x2 x3 x4 x5 x6 x7 x8 x9 x10 x11 x12) (funext fun a => by match a with | ⟨0, _⟩ => rfl)).trans (rMax x0 x1 x2 x3 x4 x5 x6 x7 x8 x9 x10 x11 x12 r)))
  unfold Spec.lsm
  refine congrArg₂ (· - ·) (congrArg (fun z => oRow x0 x1 x2 x3 x4 x5 x6 x7 x8 x9 x10 x11 x12 r q - z) (hM q)) ?_
  refine (val_main_call2_v10_apply x0 x1 x2 x3 x4 x5 x6 x7 x8 x9 x10 x11 x12 _).trans ?_
  refine congrArg Ideal.log ?_
  refine (val_main_call2_v8_apply x0 x1 x2 x3 x4 x5 x6 x7 x8 x9 x10 x11 x12 _).trans ?_
  refine (val_main_call2_v7_apply x0 x1 x2 x3 x4 x5 x6 x7 x8 x9 x10 x11 x12 _).trans ?_
  refine (z0_add _).trans ?_
  refine Finset.sum_congr rfl fun q' _ => ?_
  have hj : idx_main_call2_v7 (idx_main_call2_v8 (idx_main_call2_v10 (ix2 r q))) q' = ix2 r q' := funext fun a => by
    match a with
    | ⟨0, _⟩ => rfl
    | ⟨1, _⟩ => rfl
  rw [hj]
  exact congrArg (fun z => Ideal.exp (oRow x0 x1 x2 x3 x4 x5 x6 x7 x8 x9 x10 x11 x12 r q' - z)) (hM q')

/-- The reference's result at (r, q) is the specification's result row of node `r`. -/
theorem refOut (r : Fin 10000) (q : Fin 16) :
    val_main_v28 (F := Ideal) x0 x1 x2 x3 x4 x5 x6 x7 x8 x9 x10 x11 x12 (ix2 r q)
      = Spec.outRow (fAdj x1 r) (uOf x0 x1 x2 x3 x4 x5 x6 x7 x8 x9 x10 x12) (fBg2 x11) q := by
  rw [r28]
  unfold Spec.outRow
  exact congrArg (fun o => Spec.lsm o q) (funext fun q' => r27 x0 x1 x2 x3 x4 x5 x6 x7 x8 x9 x10 x11 x12 r q')

end Cert.ReferenceIdeal.RefValue

end
-- ==== Proof.Bridge.lean ====
/-
  The two sides meet: the kernel's result array after its run and the reference's result are the specification's
  result of the same argument arrays, entry by entry.
-/
import proofs.«156255_g28346784154176_retrytranche2_455_35_alg».proof.Proof.OutArray
import proofs.«156255_g28346784154176_retrytranche2_455_35_alg».proof.Proof.RefAt
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The five bias rows the host reshapes before the region -/

theorem bias_main_v0 (c' : Fin 64) : Gen.V m c main_v0 (ix2 (0 : Fin 1) c') = m ((c.tc : Thread nD τ).loc main_arg3) (ix1 c') := by
  have e : (Gen.V m c main_v0 : S1x64.Idx → EReal)
      = shapeCast S1x64 (m ((c.tc : Thread nD τ).loc main_arg3) : S64.Idx → EReal) Gen.shapeCasts_S64_S1x64 := by
    dsimp only [Gen.V, Gen.hostOps0]; after_results; rfl
  rw [e]
  exact shapeCast_a_1a_apply _ _ 0 c'
theorem bias_main_v1 (c' : Fin 32) : Gen.V m c main_v1 (ix2 (0 : Fin 1) c') = m ((c.tc : Thread nD τ).loc main_arg5) (ix1 c') := by
  have e : (Gen.V m c main_v1 : S1x32.Idx → EReal)
      = shapeCast S1x32 (m ((c.tc : Thread nD τ).loc main_arg5) : S32.Idx → EReal) Gen.shapeCasts_S32_S1x32 := by
    dsimp only [Gen.V, Gen.hostOps0]; after_results; rfl
  rw [e]
  exact shapeCast_a_1a_apply _ _ 0 c'
theorem bias_main_v2 (c' : Fin 32) : Gen.V m c main_v2 (ix2 (0 : Fin 1) c') = m ((c.tc : Thread nD τ).loc main_arg7) (ix1 c') := by
  have e : (Gen.V m c main_v2 : S1x32.Idx → EReal)
      = shapeCast S1x32 (m ((c.tc : Thread nD τ).loc main_arg7) : S32.Idx → EReal) Gen.shapeCasts_S32_S1x32 := by
    dsimp only [Gen.V, Gen.hostOps0]; after_results; rfl
  rw [e]
  exact shapeCast_a_1a_apply _ _ 0 c'
theorem bias_main_v3 (c' : Fin 64) : Gen.V m c main_v3 (ix2 (0 : Fin 1) c') = m ((c.tc : Thread nD τ).loc main_arg9) (ix1 c') := by
  have e : (Gen.V m c main_v3 : S1x64.Idx → EReal)
      = shapeCast S1x64 (m ((c.tc : Thread nD τ).loc main_arg9) : S64.Idx → EReal) Gen.shapeCasts_S64_S1x64 := by
    dsimp only [Gen.V, Gen.hostOps0]; after_results; rfl
  rw [e]
  exact shapeCast_a_1a_apply _ _ 0 c'
theorem bias_main_v4 (c' : Fin 16) : Gen.V m c main_v4 (ix2 (0 : Fin 1) c') = m ((c.tc : Thread nD τ).loc main_arg11) (ix1 c') := by
  have e : (Gen.V m c main_v4 : S1x16.Idx → EReal)
      = shapeCast S1x16 (m ((c.tc : Thread nD τ).loc main_arg11) : S16.Idx → EReal) Gen.shapeCasts_S16_S1x16 := by
    dsimp only [Gen.V, Gen.hostOps0]; after_results; rfl
  rw [e]
  exact shapeCast_a_1a_apply _ _ 0 c'

/-! ## The kernel's result in the reference's vocabulary -/

/-- The kernel's result entry is the specification's result row of the same arrays, named as the reference's
    argument families. -/
theorem outMat_eq (x0 : S10000x128.Idx → EReal) (x1 : S10000x10000.Idx → EReal) (x2 : S128x64.Idx → EReal) (x3 : S64.Idx → EReal) (x4 : S64x32.Idx → EReal) (x5 : S32.Idx → EReal) (x6 : S64x32.Idx → EReal) (x7 : S32.Idx → EReal) (x8 : S32x64.Idx → EReal) (x9 : S64.Idx → EReal) (x10 : S128x16.Idx → EReal) (x11 : S16.Idx → EReal) (x12 : S10000x32.Idx → EReal)
    (h0 : (Gen.V m c main_arg0 : S10000x128.Idx → EReal) = x0) (h1 : (Gen.V m c main_arg1 : S10000x10000.Idx → EReal) = x1) (h2 : (Gen.V m c main_arg2 : S128x64.Idx → EReal) = x2) (h4 : (Gen.V m c main_arg4 : S64x32.Idx → EReal) = x4) (h6 : (Gen.V m c main_arg6 : S64x32.Idx → EReal) = x6) (h8 : (Gen.V m c main_arg8 : S32x64.Idx → EReal) = x8) (h10 : (Gen.V m c main_arg10 : S128x16.Idx → EReal) = x10) (h12 : (Gen.V m c main_arg12 : S10000x32.Idx → EReal) = x12)
    (h3 : ∀ c' : Fin 64, Gen.V m c main_v0 (ix2 (0 : Fin 1) c') = x3 (ix1 c')) (h5 : ∀ c' : Fin 32, Gen.V m c main_v1 (ix2 (0 : Fin 1) c') = x5 (ix1 c')) (h7 : ∀ c' : Fin 32, Gen.V m c main_v2 (ix2 (0 : Fin 1) c') = x7 (ix1 c')) (h9 : ∀ c' : Fin 64, Gen.V m c main_v3 (ix2 (0 : Fin 1) c') = x9 (ix1 c')) (h11 : ∀ c' : Fin 16, Gen.V m c main_v4 (ix2 (0 : Fin 1) c') = x11 (ix1 c'))
    (r : Fin 10000) (q : Fin 16) :
    outMat m c r q = Spec.outRow (Cert.ReferenceIdeal.RefValue.fAdj x1 r) (Cert.ReferenceIdeal.RefValue.uOf x0 x1 x2 x3 x4 x5 x6 x7 x8 x9 x10 x12) (Cert.ReferenceIdeal.RefValue.fBg2 x11) q := by
  subst h0 h1 h2 h4 h6 h8 h10 h12
  have e3 : aB1 m c = Cert.ReferenceIdeal.RefValue.fB1 x3 := funext h3
  have e5 : aB11 m c = Cert.ReferenceIdeal.RefValue.fB11 x5 := funext h5
  have e7 : aB12 m c = Cert.ReferenceIdeal.RefValue.fB12 x7 := funext h7
  have e9 : aB2 m c = Cert.ReferenceIdeal.RefValue.fB2 x9 := funext h9
  have e11 : aBg2 m c = Cert.ReferenceIdeal.RefValue.fBg2 x11 := funext h11
  unfold outMat uMat
  rw [e3, e5, e7, e9, e11]

/-- The result array as one function of the argument arrays. -/
def outBuf : Buf (Elt Ideal) ((c.tc : Thread nD τ).loc main_v5) := fun i => outMat m c (i 0) (i 1)

theorem out_buf (G : Buf (Elt Ideal) ((cfg0.win 13).arr.view.loc (c.tc : Thread nD τ))) (h : (rdat m c).ArrAt 13 cfg0.N G) :
    G = outBuf m c := by
  funext i
  exact (congrArg G (eq_ix2 (i : S10000x16.Idx))).trans (out_eq m c G h (i 0) (i 1))

/-- The idealized kernel's run with its result array named: it ends at the specification's result, the thirteen
    argument arrays as launched. -/
theorem kernel_run : θ_run defs (onTc (τ := τ) (main (F := Ideal))) ⟨m, fun _ => 0, ρ⟩ (fun r => ∀ c : Dev nD,
      r.2.mem ((c.tc : Thread nD τ).loc main_v5) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨out_buf m c _ ((h c).1 13),
      (in_kept m c 0 rfl _ ((h c).1 0)).trans ((A_eq m c 0).trans (Gen.V_main_arg0 m c)),
      (in_kept m c 1 rfl _ ((h c).1 1)).trans ((A_eq m c 1).trans (Gen.V_main_arg1 m c)),
      (in_kept m c 2 rfl _ ((h c).1 2)).trans ((A_eq m c 2).trans (Gen.V_main_arg2 m c)),
      ((h c).2 main_arg3 (Pipeline.mem_restRefs_of main_arg3 (by decide) (by decide))).trans (Gen.V_main_arg3 m c),
      (in_kept m c 4 rfl _ ((h c).1 4)).trans ((A_eq m c 4).trans (Gen.V_main_arg4 m c)),
      ((h c).2 main_arg5 (Pipeline.mem_restRefs_of main_arg5 (by decide) (by decide))).trans (Gen.V_main_arg5 m c),
      (in_kept m c 6 rfl _ ((h c).1 6)).trans ((A_eq m c 6).trans (Gen.V_main_arg6 m c)),
      ((h c).2 main_arg7 (Pipeline.mem_restRefs_of main_arg7 (by decide) (by decide))).trans (Gen.V_main_arg7 m c),
      (in_kept m c 8 rfl _ ((h c).1 8)).trans ((A_eq m c 8).trans (Gen.V_main_arg8 m c)),
      ((h c).2 main_arg9 (Pipeline.mem_restRefs_of main_arg9 (by decide) (by decide))).trans (Gen.V_main_arg9 m c),
      (in_kept m c 10 rfl _ ((h c).1 10)).trans ((A_eq m c 10).trans (Gen.V_main_arg10 m c)),
      ((h c).2 main_arg11 (Pipeline.mem_restRefs_of main_arg11 (by decide) (by decide))).trans (Gen.V_main_arg11 m c),
      (in_kept m c 12 rfl _ ((h c).1 12)).trans ((A_eq m c 12).trans (Gen.V_main_arg12 m c))⟩) (run_main (F := Ideal) m ρ)

/-- The reference's result, from arguments that agree with the kernel's, is the same function of them. -/
theorem ref_eq (m' : (ℓ : Loc Cert.ReferenceIdeal.nD Cert.ReferenceIdeal.τ Cert.ReferenceIdeal.sig) → Buf (Elt Ideal) ℓ)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)) :
    Cert.ReferenceIdeal.Value.res_main_v28 m' c = outBuf m c := by
  obtain ⟨a0, a1, a2, a3, a4, a5, a6, a7, a8, a9, a10, a11, a12⟩ := hag
  rw [Cert.ReferenceIdeal.Read.val_main_v28_eq]
  funext i
  obtain ⟨r, q, rfl⟩ : ∃ (r : Fin 10000) (q : Fin 16), i = ix2 r q := ⟨i 0, i 1, eq_ix2 (i : S10000x16.Idx)⟩
  rw [Cert.ReferenceIdeal.RefValue.refOut]
  exact (outMat_eq m c (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
    ((Gen.V_main_arg0 m c).trans a0.symm) ((Gen.V_main_arg1 m c).trans a1.symm) ((Gen.V_main_arg2 m c).trans a2.symm) ((Gen.V_main_arg4 m c).trans a4.symm) ((Gen.V_main_arg6 m c).trans a6.symm) ((Gen.V_main_arg8 m c).trans a8.symm) ((Gen.V_main_arg10 m c).trans a10.symm) ((Gen.V_main_arg12 m c).trans a12.symm)
    (fun c' => (bias_main_v0 m c c').trans (congrFun a3.symm _)) (fun c' => (bias_main_v1 m c c').trans (congrFun a5.symm _)) (fun c' => (bias_main_v2 m c c').trans (congrFun a7.symm _)) (fun c' => (bias_main_v3 m c c').trans (congrFun a9.symm _)) (fun c' => (bias_main_v4 m c c').trans (congrFun a11.symm _)) r q).symm

end Cert.KernelIdeal.Val

end
-- ==== Proof.lean ====
/-
  The certificate's five claims.

  The three frames: the word-level kernel and its idealization run to the end, fault nowhere and leave the thirteen
  argument arrays as launched (the frame run over the relational proof data, at the bit-exact and at the ideal
  instance); the reference is a straight line of host operations. The idealization rewrote no operation, so
  `preserves` has no conjunct. At the ideal instance both programs compute
  log_softmax(adj · ([relu(z·W2 + b2), h1] · W_gc2) + b_gc2) with h1 = relu(adj · (x · W_gc1) + b_gc1) and
  z = (h1·W11 + b11) + eps · exp(h1·W12 + b12), row by row.
-/
import proofs.«156255_g28346784154176_retrytranche2_455_35_alg».proof.Defs
import proofs.«156255_g28346784154176_retrytranche2_455_35_alg».proof.Proof.Gen.Kernel
import proofs.«156255_g28346784154176_retrytranche2_455_35_alg».proof.Proof.Gen.KernelIdeal
import proofs.«156255_g28346784154176_retrytranche2_455_35_alg».proof.Proof.Gen.ReferenceIdeal
import proofs.«156255_g28346784154176_retrytranche2_455_35_alg».proof.Proof.Gen.Pre_finite_inputs
import proofs.«156255_g28346784154176_retrytranche2_455_35_alg».proof.Proof.FrameRun
import proofs.«156255_g28346784154176_retrytranche2_455_35_alg».proof.Proof.FrameRunK
import proofs.«156255_g28346784154176_retrytranche2_455_35_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance: no rewrite, no conjunct. -/
theorem preserves : Cert.preserves_Kernel_KernelIdeal := trivial

/-- From arguments that agree, the idealized kernel's result array (the frame run's data read through the cover of
    the 21 written-back blocks) and the reference's result (its straight line read stage by stage) are one function
    of the arguments: the specification's result, entry by entry. -/
theorem algebraic : Cert.algebraic_KernelIdeal_ReferenceIdeal := by
  intro m ρ m' ρ' _ hagree
  refine ⟨fun c => Cert.KernelIdeal.Val.outBuf m c, Cert.KernelIdeal.Val.kernel_run m ρ, ?_⟩
  exact (θ_run Cert.ReferenceIdeal.defs _ _).mono
    (fun _ h c => ⟨(h c).1.trans (Cert.KernelIdeal.Val.ref_eq m c m' (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
